-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v40_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x256 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S50000x128 .f32) (main_arg2 : IVec S1600000 32) (main_arg3 : IVec S1600000 32) (main_arg4 : FVec F S128x128 .f32) (main_arg5 : FVec F S128 .f32) (main_arg6 : FVec F S128x128 .f32) (main_arg7 : FVec F S128 .f32) (main_arg8 : FVec F S128x256 .f32) (main_arg9 : FVec F S128 .f32) (main_arg10 : FVec F S128x256 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S100000 : Shape := ⟨1, ![100000]⟩
abbrev S100000x1 : Shape := ⟨2, ![100000, 1]⟩

abbrev nBuf : Space → Nat
  | .hbm => 103
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x256, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S100000x128, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .bf16⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S50000, .f32⟩
  | .hbm, ⟨35, _⟩ => ⟨S1600000x1, .i32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S_, .f32⟩
  | .hbm, ⟨42, _⟩ => ⟨S50000x1, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x1, .f32⟩
  | .hbm, ⟨48, _⟩ => ⟨S50000x1, .i1⟩
  | .hbm, ⟨49, _⟩ => ⟨S50000x1, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S50000x128, .f32⟩
  | .hbm, ⟨65, _⟩ => ⟨S50000x128, .bf16⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .bf16⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S_, .f32⟩
  | .hbm, ⟨81, _⟩ => ⟨S1600000, .f32⟩
  | .hbm, ⟨82, _⟩ => ⟨S_, .f32⟩
  | .hbm, ⟨83, _⟩ => ⟨S100000, .f32⟩
  | .hbm, ⟨84, _⟩ => ⟨S1600000x1, .i32⟩
  | .hbm, ⟨85, _⟩ => ⟨S100000, .f32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S128x128, .f32⟩
  | .hbm, ⟨96, _⟩ => ⟨S128x128, .f32⟩
  | .hbm, ⟨97, _⟩ => ⟨S128x128, .f32⟩
  | .hbm, ⟨98, _⟩ => ⟨S128x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40_0 : Ref sig .tc := ⟨.hbm, 64, rfl⟩
abbrev main_v40_1 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  bcast_S1x128_S50000x128_0_1 : S1x128.BroadcastsInDim S50000x128 (![0, 1] : Fin 2 → Fin S50000x128.rank)
  transposes_S128x128_S128x128_1_0 : S128x128.Transposes [1, 0] S128x128
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  reduces_S5000x128_S5000 : S5000x128.Reduces [1] S5000
  shapeCasts_S5000_S5000x1 : S5000.ShapeCasts S5000x1
  broadcasts_S5000x1_S5000x128 : S5000x1.Broadcasts S5000x128
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x128.size a ≤ S50000x128.size a
  hwx0_12 : ∀ i : grid0.Coords, EltTy.bits .bf16 = 32 ∨ (Rect.block (s := S50000x128) S5000x128.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40_0) S5000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v40_1) S5000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x256 : Shape := ⟨2, ![50000, 256]⟩
abbrev S256x128 : Shape := ⟨2, ![256, 128]⟩
abbrev S100000x1 : Shape := ⟨2, ![100000, 1]⟩
abbrev S100000x256 : Shape := ⟨2, ![100000, 256]⟩
abbrev S100000 : Shape := ⟨1, ![100000]⟩
abbrev S50000 : Shape := ⟨1, ![50000]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S50000x128, .f32⟩
  | 2 => ⟨S1600000, .i32⟩
  | 3 => ⟨S1600000, .i32⟩
  | 4 => ⟨S128x128, .f32⟩
  | 5 => ⟨S128, .f32⟩
  | 6 => ⟨S128x128, .f32⟩
  | 7 => ⟨S128, .f32⟩
  | 8 => ⟨S128x256, .f32⟩
  | 9 => ⟨S128, .f32⟩
  | 10 => ⟨S128x256, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S100000x128, .f32⟩
  | 18 => ⟨S1x128, .f32⟩
  | 19 => ⟨S100000x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S50000x128, .f32⟩
  | 32 => ⟨S1600000x1, .i32⟩
  | 33 => ⟨S50000x128, .f32⟩
  | 34 => ⟨S_, .f32⟩
  | 35 => ⟨S1600000x1, .f32⟩
  | 36 => ⟨S_, .f32⟩
  | 37 => ⟨S50000x1, .f32⟩
  | 38 => ⟨S1600000x1, .i32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S50000x256, .f32⟩
  | 46 => ⟨S256x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S1x128, .f32⟩
  | 54 => ⟨S50000x128, .f32⟩
  | 55 => ⟨S50000x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S_, .f32⟩
  | 70 => ⟨S1600000x1, .f32⟩
  | 71 => ⟨S_, .f32⟩
  | 72 => ⟨S100000x1, .f32⟩
  | 73 => ⟨S1600000x1, .i32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x256, .f32⟩
  | 81 => ⟨S256x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S100000x128, .f32⟩
  | 95 => ⟨S_, .f32⟩
  | 96 => ⟨S100000, .f32⟩
  | 97 => ⟨S100000x1, .f32⟩
  | 98 => ⟨S_, .f32⟩
  | 99 => ⟨S100000x1, .f32⟩
  | 100 => ⟨S100000x1, .f32⟩
  | 101 => ⟨S100000x128, .f32⟩
  | 102 => ⟨S100000x128, .f32⟩
  | 103 => ⟨S_, .f32⟩
  | 104 => ⟨S100000x1, .f32⟩
  | 105 => ⟨S100000x1, .f32⟩
  | 106 => ⟨S100000x1, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S50000x128, .f32⟩
  | 127 => ⟨S_, .f32⟩
  | _ => ⟨S100000x128, .f32⟩

abbrev hbmTy0_1 (i : Nat) : BufTy := match i % 128 with
  | 0 => ⟨S50000, .f32⟩
  | 1 => ⟨S50000x1, .f32⟩
  | 2 => ⟨S_, .f32⟩
  | 3 => ⟨S50000x1, .f32⟩
  | 4 => ⟨S50000x1, .f32⟩
  | 5 => ⟨S50000x128, .f32⟩
  | 6 => ⟨S50000x128, .f32⟩
  | 7 => ⟨S_, .f32⟩
  | 8 => ⟨S50000x1, .f32⟩
  | 9 => ⟨S50000x1, .f32⟩
  | 10 => ⟨S50000x1, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_cst_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call0_cst : Ref sig .tc := ⟨.hbm, 115, rfl⟩
abbrev main_call0_v0 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_19 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_call1_cst : Ref sig .tc := ⟨.hbm, 147, rfl⟩
abbrev main_call1_v0 : Ref sig .tc := ⟨.hbm, 148, rfl⟩
abbrev main_v107 : Ref sig .tc := ⟨.hbm, 149, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  reducesTo_S100000x128_S100000_d1 : S100000x128.ReducesTo [1] S100000
  h_S_ : 0 < S_.numel
  bcast_S100000_S100000x1_0 : S100000.BroadcastsInDim S100000x1 (![0] : Fin 1 → Fin S100000x1.rank)
  reducesTo_S50000x128_S50000_d1 : S50000x128.ReducesTo [1] S50000
  bcast_S50000_S50000x1_0 : S50000.BroadcastsInDim S50000x1 (![0] : Fin 1 → Fin S50000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KRun.lean ====
/-
  The idealized kernel's run with its two results named. Every weakly fair execution of the program — host
  operations, the hyperedge region, host operations, the vertex region — terminates without a fault, and at the end every
  unscoped buffer holds the contents of the last segment boundary (`W4`): the argument arrays as launched, and the two
  returned buffers at what the boundary's fold leaves in them. The segments, their proof data and the launch are the ones
  the frame is proved from; only the final reading differs, which here also reads the two returned buffers.
-/
import proofs.«140405_j8658654068867_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the vertex output buffer and the hyperedge output
    buffer at the last boundary's contents and the sixteen argument arrays as launched. -/
theorem run_results : θ_run defs (onTc (τ := τ) (main (F := F))) ⟨m, fun _ => 0, ρ⟩ (fun r => ∀ c : Dev nD,
      r.2.mem ((c.tc : Thread nD τ).loc main_v70) = W4 m ρ c (Proc.devRef .tc main_v70)
      ∧ r.2.mem ((c.tc : Thread nD τ).loc main_v40_0) = W4 m ρ c (Proc.devRef .tc main_v40_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v70 (by decide)), h c _ (mem_uc main_v40_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.KRun

end
-- ==== Proof.KWindows.lean ====
/-
  What each input window of the two regions stages at a grid point, read off its array.

  The hyperedge region runs over 10 points and the vertex region over 20; a row-blocked window's block at point `t` is
  rows `t·5000 … t·5000 + 4999` of its array, all 128 columns, and a whole window (a weight or a bias row, block index
  `(0, 0)` at every point) is its array. A block's coordinate on an axis is always block index × block size + the
  coordinate inside the block.
-/
import proofs.«140405_j8658654068867_2_alg».proof.Proof.Gen.KernelIdeal.Frame
import Idealize.ShloMosaic.Lib.ValueIdx
import Idealize.ShloMosaic.PureOps.Ideal

set_option maxRecDepth 16384

noncomputable section

namespace Cert.KernelIdeal.Windows

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The hyperedge region's index maps over its grid: the row-blocked windows (0, 1, 2 in; 11, 12 out) have block index
    `(t, 0)` at point `t`, the others `(0, 0)`. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem lt0 (t : Fin cfg0.N) : t.val < 10 := lt_of_lt_of_eq t.isLt (N_0 : cfg0.N = 10)

/-- Row `r` of point `t`'s block is row `t·5000 + r` of the 50000-row array. -/
def row0 (t : Fin cfg0.N) (r : Fin 5000) : Fin 50000 := ⟨t.val * 5000 + r.val, by have := lt0 t; have := r.isLt; omega⟩

theorem blk0_0 (c : Dev nD) (t : Fin cfg0.N) (r : Fin 5000) (k : Fin 128) :
    iblk0 V c 0 t (ix2 r k) = V c main_arg1 (ix2 (row0 t r) k) := by
  obtain ⟨⟨e0, e1⟩, -, -, -, -, -, -, -, -, -, -, -, -⟩ := idx0 t
  show V c main_arg1 (((cfg0.win 0).blk t).view.emb (ix2 r k)) = V c main_arg1 (ix2 (row0 t r) k)
  refine congrArg (V c main_arg1) (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

theorem blk0_1 (c : Dev nD) (t : Fin cfg0.N) (r : Fin 5000) (k : Fin 128) :
    iblk0 V c 1 t (ix2 r k) = V c main_v22 (ix2 (row0 t r) k) := by
  obtain ⟨-, ⟨e0, e1⟩, -, -, -, -, -, -, -, -, -, -, -⟩ := idx0 t
  show V c main_v22 (((cfg0.win 1).blk t).view.emb (ix2 r k)) = V c main_v22 (ix2 (row0 t r) k)
  refine congrArg (V c main_v22) (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

theorem blk0_2 (c : Dev nD) (t : Fin cfg0.N) (r : Fin 5000) (k : Fin 128) :
    iblk0 V c 2 t (ix2 r k) = V c main_v29 (ix2 (row0 t r) k) := by
  obtain ⟨-, -, ⟨e0, e1⟩, -, -, -, -, -, -, -, -, -, -⟩ := idx0 t
  show V c main_v29 (((cfg0.win 2).blk t).view.emb (ix2 r k)) = V c main_v29 (ix2 (row0 t r) k)
  refine congrArg (V c main_v29) (funext fun a => Fin.ext ?_)
  match a with
  | ⟨0, _⟩ => show win0_2.index t (0 : Fin 2) * 5000 + 1 * r.val = t.val * 5000 + r.val; omega
  | ⟨1, _⟩ => show win0_2.index t (1 : Fin 2) * 128 + 1 * k.val = k.val; omega

theorem blk0_3 (c : Dev nD) (t : Fin cfg0.N) (k j : Fin 128) :
    iblk0 V c 3 t (ix2 k j) = V c main_v30 (ix2 k j) := by
  obtain ⟨-, -, -, ⟨e0, e1⟩, -, -, -, -, -, -, -, -, -⟩ := idx0 t
  show V c main_v30 (((cfg0.win 3).blk t).view.emb (ix2 k j)) = V c main_v30 (ix2 k j)
  refine congrArg (V c main_v30) (funext fun a => Fin.ext ?_)
  match a with
  | ⟨0, _⟩ => show win0_3.index t (0 : Fin 2) * 128 + 1 * k.val = k.val; omega
  | ⟨1, _⟩ => show win0_3.index t (1 : Fin 2) * 128 + 1 * j.val = j.val; omega

theorem blk0_4 (c : Dev nD) (t : Fin cfg0.N) (k j : Fin 128) :
    iblk0 V c 4 t (ix2 k j) = V c main_v32 (ix2 k j) := by
  obtain ⟨-, -, -, -, ⟨e0, e1⟩, -, -, -, -, -, -, -, -⟩ := idx0 t
  show V c main_v32 (((cfg0.win 4).blk t).view.emb (ix2 k j)) = V c main_v32 (ix2 k j)
  refine congrArg (V c main_v32) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

theorem blk0_5 (c : Dev nD) (t : Fin cfg0.N) (k j : Fin 128) :
    iblk0 V c 5 t (ix2 k j) = V c main_v34 (ix2 k j) := by
  obtain ⟨-, -, -, -, -, ⟨e0, e1⟩, -, -, -, -, -, -, -⟩ := idx0 t
  show V c main_v34 (((cfg0.win 5).blk t).view.emb (ix2 k j)) = V c main_v34 (ix2 k j)
  refine congrArg (V c main_v34) (funext fun a => Fin.ext ?_)
  match a with
  | ⟨0, _⟩ => show win0_5.index t (0 : Fin 2) * 128 + 1 * k.val = k.val; omega
  | ⟨1, _⟩ => show win0_5.index t (1 : Fin 2) * 128 + 1 * j.val = j.val; omega

theorem blk0_7 (c : Dev nD) (t : Fin cfg0.N) (k j : Fin 128) :
    iblk0 V c 7 t (ix2 k j) = V c main_v35 (ix2 k j) := by
  obtain ⟨-, -, -, -, -, -, -, ⟨e0, e1⟩, -, -, -, -, -⟩ := idx0 t
  show V c main_v35 (((cfg0.win 7).blk t).view.emb (ix2 k j)) = V c main_v35 (ix2 k j)
  refine congrArg (V c main_v35) (funext fun a => Fin.ext ?_)
  match a with
  | ⟨0, _⟩ => show win0_7.index t (0 : Fin 2) * 128 + 1 * k.val = k.val; omega
  | ⟨1, _⟩ => show win0_7.index t (1 : Fin 2) * 128 + 1 * j.val = j.val; omega

theorem blk0_6 (c : Dev nD) (t : Fin cfg0.N) (p : Fin 1) (j : Fin 128) :
    iblk0 V c 6 t (ix2 p j) = V c main_v36 (ix2 p j) := by
  obtain ⟨-, -, -, -, -, -, ⟨e0, e1⟩, -, -, -, -, -, -⟩ := idx0 t
  show V c main_v36 (((cfg0.win 6).blk t).view.emb (ix2 p j)) = V c main_v36 (ix2 p j)
  refine congrArg (V c main_v36) (funext fun a => Fin.ext ?_)
  match a with
  | ⟨0, _⟩ => show win0_6.index t (0 : Fin 2) * 1 + 1 * p.val = p.val; omega
  | ⟨1, _⟩ => show win0_6.index t (1 : Fin 2) * 128 + 1 * j.val = j.val; omega

theorem blk0_8 (c : Dev nD) (t : Fin cfg0.N) (p : Fin 1) (j : Fin 128) :
    iblk0 V c 8 t (ix2 p j) = V c main_v37 (ix2 p j) := by
  obtain ⟨-, -, -, -, -, -, -, -, ⟨e0, e1⟩, -, -, -, -⟩ := idx0 t
  show V c main_v37 (((cfg0.win 8).blk t).view.emb (ix2 p j)) = V c main_v37 (ix2 p j)
  refine congrArg (V c main_v37) (funext fun a => Fin.ext ?_)
  match a with
  | ⟨0, _⟩ => show win0_8.index t (0 : Fin 2) * 1 + 1 * p.val = p.val; omega
  | ⟨1, _⟩ => show win0_8.index t (1 : Fin 2) * 128 + 1 * j.val = j.val; omega

theorem blk0_9 (c : Dev nD) (t : Fin cfg0.N) (p : Fin 1) (j : Fin 128) :
    iblk0 V c 9 t (ix2 p j) = V c main_v38 (ix2 p j) := by
  obtain ⟨-, -, -, -, -, -, -, -, -, ⟨e0, e1⟩, -, -, -⟩ := idx0 t
  show V c main_v38 (((cfg0.win 9).blk t).view.emb (ix2 p j)) = V c main_v38 (ix2 p j)
  refine congrArg (V c main_v38) (funext fun a => Fin.ext ?_)
  match a with
  | ⟨0, _⟩ => show win0_9.index t (0 : Fin 2) * 1 + 1 * p.val = p.val; omega
  | ⟨1, _⟩ => show win0_9.index t (1 : Fin 2) * 128 + 1 * j.val = j.val; omega

theorem blk0_10 (c : Dev nD) (t : Fin cfg0.N) (p : Fin 1) (j : Fin 128) :
    iblk0 V c 10 t (ix2 p j) = V c main_v39 (ix2 p j) := by
  obtain ⟨-, -, -, -, -, -, -, -, -, -, ⟨e0, e1⟩, -, -⟩ := idx0 t
  show V c main_v39 (((cfg0.win 10).blk t).view.emb (ix2 p j)) = V c main_v39 (ix2 p j)
  refine congrArg (V c main_v39) (funext fun a => Fin.ext ?_)
  match a with
  | ⟨0, _⟩ => show win0_10.index t (0 : Fin 2) * 1 + 1 * p.val = p.val; omega
  | ⟨1, _⟩ => show win0_10.index t (1 : Fin 2) * 128 + 1 * j.val = j.val; omega

/-- Output window 11: where row `r`, column `q` of point `t`'s block lies in the array. -/
theorem emb0_11 (t : Fin cfg0.N) (r : Fin 5000) (q : Fin 128) :
    ((cfg0.win 11).blk t).view.emb (ix2 r q) = ix2 (row0 t r) q := by
  obtain ⟨-, -, -, -, -, -, -, -, -, -, -, ⟨e0, e1⟩, -⟩ := idx0 t
  refine funext fun a => Fin.ext ?_
  match a with
  | ⟨0, _⟩ => show win0_11.index t (0 : Fin 2) * 5000 + 1 * r.val = t.val * 5000 + r.val; omega
  | ⟨1, _⟩ => show win0_11.index t (1 : Fin 2) * 128 + 1 * q.val = q.val; omega

/-- An index of the array is in point `t`'s block of window 11 iff each coordinate is in the block's range. -/
theorem mem_blk0_11 (t : Fin cfg0.N) (i : S50000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v40_0).slice (win0_11.rect t)).set ↔ _
  rw [View.set_slice_whole, Rect.mem_set_unit]
  exact Iff.rfl

/-- The blocks of window 11 cover its array: row `n` is in the block of point `n / 5000`. -/
theorem cover0_11 (i : S50000x128.Idx) :
    ∃ t : Fin cfg0.N, (cfg0.win 11).flush t = true ∧ i ∈ ((cfg0.win 11).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, -, -, -, -, -, -, -, ⟨e0, e1⟩, -⟩ := idx0 t
  refine ⟨t, flush0_11 t, ?_⟩
  rw [mem_blk0_11]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 128 ≤ (i 1).val ∧ (i 1).val < win0_11.index t (1 : Fin 2) * 128 + 128; omega

/-- Output window 12: where row `r`, column `q` of point `t`'s block lies in the array. -/
theorem emb0_12 (t : Fin cfg0.N) (r : Fin 5000) (q : Fin 128) :
    ((cfg0.win 12).blk t).view.emb (ix2 r q) = ix2 (row0 t r) q := by
  obtain ⟨-, -, -, -, -, -, -, -, -, -, -, -, ⟨e0, e1⟩⟩ := idx0 t
  refine funext fun a => Fin.ext ?_
  match a with
  | ⟨0, _⟩ => show win0_12.index t (0 : Fin 2) * 5000 + 1 * r.val = t.val * 5000 + r.val; omega
  | ⟨1, _⟩ => show win0_12.index t (1 : Fin 2) * 128 + 1 * q.val = q.val; omega

/-- An index of the array is in point `t`'s block of window 12 iff each coordinate is in the block's range. -/
theorem mem_blk0_12 (t : Fin cfg0.N) (i : S50000x128.Idx) :
    i ∈ ((cfg0.win 12).blk t).view.set ↔ ∀ a : Fin 2, win0_12.index t a * S5000x128.size a ≤ (i a).val ∧ (i a).val < win0_12.index t a * S5000x128.size a + S5000x128.size a := by
  show i ∈ ((View.whole main_v40_1).slice (win0_12.rect t)).set ↔ _
  rw [View.set_slice_whole, Rect.mem_set_unit]
  exact Iff.rfl

/-- The blocks of window 12 cover its array: row `n` is in the block of point `n / 5000`. -/
theorem cover0_12 (i : S50000x128.Idx) :
    ∃ t : Fin cfg0.N, (cfg0.win 12).flush t = true ∧ i ∈ ((cfg0.win 12).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, -, -, -, -, -, -, -, -, ⟨e0, e1⟩⟩ := idx0 t
  refine ⟨t, flush0_12 t, ?_⟩
  rw [mem_blk0_12]
  intro a
  match a with
  | ⟨0, _⟩ => show win0_12.index t (0 : Fin 2) * 5000 ≤ (i 0).val ∧ (i 0).val < win0_12.index t (0 : Fin 2) * 5000 + 5000; omega
  | ⟨1, _⟩ => show win0_12.index t (1 : Fin 2) * 128 ≤ (i 1).val ∧ (i 1).val < win0_12.index t (1 : Fin 2) * 128 + 128; omega

/-! ## The vertex region -/

/-- The vertex region's index maps over its grid: windows 0, 1 (in) and 7 (out) have block index `(t, 0)`, the others `(0, 0)`. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

theorem lt1 (t : Fin cfg1.N) : t.val < 20 := lt_of_lt_of_eq t.isLt (N_1 : cfg1.N = 20)

/-- Row `r` of point `t`'s block is row `t·5000 + r` of the 100000-row array. -/
def row1 (t : Fin cfg1.N) (r : Fin 5000) : Fin 100000 := ⟨t.val * 5000 + r.val, by have := lt1 t; have := r.isLt; omega⟩

theorem blk1_0 (c : Dev nD) (t : Fin cfg1.N) (r : Fin 5000) (k : Fin 128) :
    iblk1 V c 0 t (ix2 r k) = V c main_arg0 (ix2 (row1 t r) k) := by
  obtain ⟨⟨e0, e1⟩, -, -, -, -, -, -, -⟩ := idx1 t
  show V c main_arg0 (((cfg1.win 0).blk t).view.emb (ix2 r k)) = V c main_arg0 (ix2 (row1 t r) k)
  refine congrArg (V c main_arg0) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * k.val = k.val; omega

theorem blk1_1 (c : Dev nD) (t : Fin cfg1.N) (r : Fin 5000) (k : Fin 128) :
    iblk1 V c 1 t (ix2 r k) = V c main_v62 (ix2 (row1 t r) k) := by
  obtain ⟨-, ⟨e0, e1⟩, -, -, -, -, -, -⟩ := idx1 t
  show V c main_v62 (((cfg1.win 1).blk t).view.emb (ix2 r k)) = V c main_v62 (ix2 (row1 t r) k)
  refine congrArg (V c main_v62) (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * k.val = k.val; omega

theorem blk1_2 (c : Dev nD) (t : Fin cfg1.N) (k j : Fin 128) :
    iblk1 V c 2 t (ix2 k j) = V c main_v64 (ix2 k j) := by
  obtain ⟨-, -, ⟨e0, e1⟩, -, -, -, -, -⟩ := idx1 t
  show V c main_v64 (((cfg1.win 2).blk t).view.emb (ix2 k j)) = V c main_v64 (ix2 k j)
  refine congrArg (V c main_v64) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

theorem blk1_3 (c : Dev nD) (t : Fin cfg1.N) (k j : Fin 128) :
    iblk1 V c 3 t (ix2 k j) = V c main_v66 (ix2 k j) := by
  obtain ⟨-, -, -, ⟨e0, e1⟩, -, -, -, -⟩ := idx1 t
  show V c main_v66 (((cfg1.win 3).blk t).view.emb (ix2 k j)) = V c main_v66 (ix2 k j)
  refine congrArg (V c main_v66) (funext fun a => Fin.ext ?_)
  match a with
  | ⟨0, _⟩ => show win1_3.index t (0 : Fin 2) * 128 + 1 * k.val = k.val; omega
  | ⟨1, _⟩ => show win1_3.index t (1 : Fin 2) * 128 + 1 * j.val = j.val; omega

theorem blk1_4 (c : Dev nD) (t : Fin cfg1.N) (p : Fin 1) (j : Fin 128) :
    iblk1 V c 4 t (ix2 p j) = V c main_v67 (ix2 p j) := by
  obtain ⟨-, -, -, -, ⟨e0, e1⟩, -, -, -⟩ := idx1 t
  show V c main_v67 (((cfg1.win 4).blk t).view.emb (ix2 p j)) = V c main_v67 (ix2 p j)
  refine congrArg (V c main_v67) (funext fun a => Fin.ext ?_)
  match a with
  | ⟨0, _⟩ => show win1_4.index t (0 : Fin 2) * 1 + 1 * p.val = p.val; omega
  | ⟨1, _⟩ => show win1_4.index t (1 : Fin 2) * 128 + 1 * j.val = j.val; omega

theorem blk1_5 (c : Dev nD) (t : Fin cfg1.N) (p : Fin 1) (j : Fin 128) :
    iblk1 V c 5 t (ix2 p j) = V c main_v68 (ix2 p j) := by
  obtain ⟨-, -, -, -, -, ⟨e0, e1⟩, -, -⟩ := idx1 t
  show V c main_v68 (((cfg1.win 5).blk t).view.emb (ix2 p j)) = V c main_v68 (ix2 p j)
  refine congrArg (V c main_v68) (funext fun a => Fin.ext ?_)
  match a with
  | ⟨0, _⟩ => show win1_5.index t (0 : Fin 2) * 1 + 1 * p.val = p.val; omega
  | ⟨1, _⟩ => show win1_5.index t (1 : Fin 2) * 128 + 1 * j.val = j.val; omega

theorem blk1_6 (c : Dev nD) (t : Fin cfg1.N) (p : Fin 1) (j : Fin 128) :
    iblk1 V c 6 t (ix2 p j) = V c main_v69 (ix2 p j) := by
  obtain ⟨-, -, -, -, -, -, ⟨e0, e1⟩, -⟩ := idx1 t
  show V c main_v69 (((cfg1.win 6).blk t).view.emb (ix2 p j)) = V c main_v69 (ix2 p j)
  refine congrArg (V c main_v69) (funext fun a => Fin.ext ?_)
  match a with
  | ⟨0, _⟩ => show win1_6.index t (0 : Fin 2) * 1 + 1 * p.val = p.val; omega
  | ⟨1, _⟩ => show win1_6.index t (1 : Fin 2) * 128 + 1 * j.val = j.val; omega

/-- Output window 7: where row `r`, column `q` of point `t`'s block lies in the array. -/
theorem emb1_7 (t : Fin cfg1.N) (r : Fin 5000) (q : Fin 128) :
    ((cfg1.win 7).blk t).view.emb (ix2 r q) = ix2 (row1 t r) q := by
  obtain ⟨-, -, -, -, -, -, -, ⟨e0, e1⟩⟩ := idx1 t
  refine funext fun a => Fin.ext ?_
  match a with
  | ⟨0, _⟩ => show win1_7.index t (0 : Fin 2) * 5000 + 1 * r.val = t.val * 5000 + r.val; omega
  | ⟨1, _⟩ => show win1_7.index t (1 : Fin 2) * 128 + 1 * q.val = q.val; omega

/-- An index of the array is in point `t`'s block of window 7 iff each coordinate is in the block's range. -/
theorem mem_blk1_7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v70).slice (win1_7.rect t)).set ↔ _
  rw [View.set_slice_whole, Rect.mem_set_unit]
  exact Iff.rfl

/-- The blocks of window 7 cover its array: row `n` is in the block of point `n / 5000`. -/
theorem cover1_7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨-, -, -, -, -, -, -, ⟨e0, e1⟩⟩ := idx1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

end Cert.KernelIdeal.Windows

end
-- ==== Proof.Spec.lean ====
/-
  One layer of a hypergraph convolution on the extended reals, written twice.

  The data: vertex features `X` (100000 rows of 128), hyperedge features `Y` (50000 rows of 128), and 1600000
  incidences. Incidence `p` reads vertex row `gv p` and hyperedge row `ge p` when rows are gathered, and is addressed
  to the (signed) hyperedge number `se p` and vertex number `sv p` when rows are accumulated; an incidence whose number
  is no row's number is dropped. `seg s n U` is the sum of `U` over the incidences addressed to `n`, `deg s n` their
  number, counted as a sum of ones.

  The layer: a message to hyperedge `e` is the mean over its incidences of the vertex rows mapped by the dense map
  `v ↦ v·W_tvᵀ + b_tv`; `Ym = ([Y, msg]·W_emᵀ + b_em)·W_teᵀ + b_te`; a message to vertex `v` is the mean over its
  incidences of the rows of `Ym`; `Xm = [X, msg']·W_vmᵀ + b_vm`; both outputs are a row normalisation followed by the
  positive part. A mean divides by `max (deg, 1)`, so an empty mean is zero.

  The REFERENCE form takes the dense map first and the mean after, divides by `max (deg, 1)`, and contracts the
  side-by-side row `[u, v]` against all 256 columns of a merge weight at once. The KERNEL form takes the mean of the raw
  vertex rows first (as a product with `1 / max (deg, 1)`), applies the matrix of the dense map after, adds its bias only
  where the hyperedge has an incidence, and contracts `u` and `v` against the two halves of a merge weight separately.
-/
import Idealize.ShloMosaic.PureOps.Ideal
import Idealize.ShloMosaic.Lib.ValueIdx

noncomputable section

open scoped BigOperators

namespace Cert.HyperConv

open Idealize.ShloMosaic Idealize.ShloMosaic.ValueIdx

/-- An `a × b` array of extended reals, by index. -/
abbrev Mat (a b : ℕ) := (⟨2, ![a, b]⟩ : Shape).Idx → EReal
/-- A length-`a` array of extended reals, by index. -/
abbrev Col (a : ℕ) := (⟨1, ![a]⟩ : Shape).Idx → EReal

/-- The sum of `U` over the incidences addressed to `n`. -/
def seg {E : ℕ} (s : Fin E → ℤ) (n : ℕ) (U : Fin E → EReal) : EReal :=
  ∑ p ∈ Finset.univ.filter (fun p : Fin E => s p = (n : ℤ)), U p

/-- The number of incidences addressed to `n`, as a sum of ones. -/
def deg {E : ℕ} (s : Fin E → ℤ) (n : ℕ) : EReal := seg s n (fun _ => 1)

/-- Column `k` of the left half, and of the right half, of a 256-column row. -/
def lo (k : Fin 128) : Fin 256 := ⟨k.val, by omega⟩
def hi (k : Fin 128) : Fin 256 := ⟨128 + k.val, by omega⟩

/-- The dense map `v ↦ v·Wᵀ + b` at column `j`. -/
def lin (W : Mat 128 128) (b : Col 128) (v : Fin 128 → EReal) (j : Fin 128) : EReal :=
  (∑ k : Fin 128, v k * W (ix2 j k)) + b (ix1 j)

/-- `[u, v]·Wᵀ + b` at column `j`, the two halves of `W` contracted separately. -/
def merge (W : Mat 128 256) (b : Col 128) (u v : Fin 128 → EReal) (j : Fin 128) : EReal :=
  ((∑ k : Fin 128, u k * W (ix2 j (lo k))) + ∑ k : Fin 128, v k * W (ix2 j (hi k))) + b (ix1 j)

/-- Entry `k` of the row `[u, v]`. -/
def cat (u v : Fin 128 → EReal) (k : Fin 256) : EReal :=
  if h : k.val < 128 then u ⟨k.val, h⟩ else v ⟨k.val - 128, by have := k.isLt; omega⟩

/-- `[u, v]·Wᵀ + b` at column `j`, all 256 columns contracted at once. -/
def mergeCat (W : Mat 128 256) (b : Col 128) (u v : Fin 128 → EReal) (j : Fin 128) : EReal :=
  (∑ k : Fin 256, cat u v k * W (ix2 j k)) + b (ix1 j)

/-- The bit of the comparison `u > v` as the extended real 1 or 0. -/
def gtBit (u v : EReal) : EReal := (((Ideal.cmp .ogt u v).toNat : ℝ) : EReal)

/-- The row length as a float, and the variance's offset: the two words both programs spell. -/
def rowLen : EReal := Ideal.ofBits .f32 0x43000000#32
def varOffset : EReal := Ideal.ofBits .f32 0x3727C5AC#32

/-- A row's mean and its mean squared deviation. -/
def rowMean (v : Fin 128 → EReal) : EReal := Ideal.div (∑ k : Fin 128, v k) rowLen
def rowVar (v : Fin 128 → EReal) : EReal :=
  Ideal.div (∑ k : Fin 128, (v k - rowMean v) * (v k - rowMean v)) rowLen

/-- Row normalisation with gain `g` and offset `b`, then the positive part, at column `c`. -/
def normRelu (g b : Col 128) (v : Fin 128 → EReal) (c : Fin 128) : EReal :=
  max ((v c - rowMean v) * Ideal.rsqrt (rowVar v + varOffset) * g (ix1 c) + b (ix1 c)) 0

section Layer

variable (X : Mat 100000 128) (Y : Mat 50000 128)
  (gv : Fin 1600000 → Fin 100000) (ge : Fin 1600000 → Fin 50000) (sv se : Fin 1600000 → ℤ)
  (Wtv : Mat 128 128) (btv : Col 128) (Wte : Mat 128 128) (bte : Col 128)
  (Wem : Mat 128 256) (bem : Col 128) (Wvm : Mat 128 256) (bvm : Col 128)
  (gV beV gE beE : Col 128)

/-- `1 / max (deg, 1)`. -/
def invDeg {E : ℕ} (s : Fin E → ℤ) (n : ℕ) : EReal := Ideal.div 1 (max (deg s n) 1)

/-! ### The kernel form -/

/-- The mean of the raw vertex rows of hyperedge `e`, at column `k`. -/
def meanX (e : Fin 50000) (k : Fin 128) : EReal :=
  seg se e.val (fun p => X (ix2 (gv p) k)) * invDeg se e.val

/-- The message to hyperedge `e`: the matrix of the dense map applied to the mean, its bias where `e` has an incidence. -/
def msgK (e : Fin 50000) (j : Fin 128) : EReal :=
  (∑ k : Fin 128, meanX X gv se e k * Wtv (ix2 j k)) + gtBit (deg se e.val) 0 * btv (ix1 j)

/-- `Ym` from a message: merge with `Y`, then the second dense map. -/
def ymK (msg : Fin 50000 → Fin 128 → EReal) (e : Fin 50000) (j : Fin 128) : EReal :=
  lin Wte bte (merge Wem bem (fun k => Y (ix2 e k)) (msg e)) j

/-- The message to vertex `v` from the rows `ym`: their mean over `v`'s incidences, as a product. -/
def msgVK (ym : Fin 50000 → Fin 128 → EReal) (v : Fin 100000) (k : Fin 128) : EReal :=
  seg sv v.val (fun p => ym (ge p) k) * invDeg sv v.val

/-- `Xm` from a message. -/
def xmK (mv : Fin 100000 → Fin 128 → EReal) (v : Fin 100000) (j : Fin 128) : EReal :=
  merge Wvm bvm (fun k => X (ix2 v k)) (mv v) j

/-- The kernel form's hyperedge rows before normalisation, and its two outputs. -/
def YmK : Fin 50000 → Fin 128 → EReal := ymK Y Wte bte Wem bem (msgK X gv se Wtv btv)
def YoK (e : Fin 50000) (c : Fin 128) : EReal := normRelu gE beE (YmK X Y gv se Wtv btv Wte bte Wem bem e) c
def XoK (v : Fin 100000) (c : Fin 128) : EReal :=
  normRelu gV beV (xmK X Wvm bvm (msgVK ge sv (YmK X Y gv se Wtv btv Wte bte Wem bem)) v) c

/-! ### The reference form -/

/-- The message to hyperedge `e`: the mean of the mapped vertex rows, as a quotient. -/
def msgR (e : Fin 50000) (j : Fin 128) : EReal :=
  Ideal.div (seg se e.val (fun p => lin Wtv btv (fun k => X (ix2 (gv p) k)) j)) (max (deg se e.val) 1)

def ymR (msg : Fin 50000 → Fin 128 → EReal) (e : Fin 50000) (j : Fin 128) : EReal :=
  lin Wte bte (mergeCat Wem bem (fun k => Y (ix2 e k)) (msg e)) j

def msgVR (ym : Fin 50000 → Fin 128 → EReal) (v : Fin 100000) (k : Fin 128) : EReal :=
  Ideal.div (seg sv v.val (fun p => ym (ge p) k)) (max (deg sv v.val) 1)

def xmR (mv : Fin 100000 → Fin 128 → EReal) (v : Fin 100000) (j : Fin 128) : EReal :=
  mergeCat Wvm bvm (fun k => X (ix2 v k)) (mv v) j

def YmR : Fin 50000 → Fin 128 → EReal := ymR Y Wte bte Wem bem (msgR X gv se Wtv btv)
def YoR (e : Fin 50000) (c : Fin 128) : EReal := normRelu gE beE (YmR X Y gv se Wtv btv Wte bte Wem bem e) c
def XoR (v : Fin 100000) (c : Fin 128) : EReal :=
  normRelu gV beV (xmR X Wvm bvm (msgVR ge sv (YmR X Y gv se Wtv btv Wte bte Wem bem)) v) c

end Layer

end Cert.HyperConv

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.KBody.lean ====
/-
  The arithmetic of the two kernels' bodies, read entry by entry on the extended reals.

  The hyperedge kernel computes, for each of its 5000 rows, three dense stages (a matrix product with a bias row
  added, a two-operand merge, a second matrix product with its bias row) and then a row normalisation followed by the
  positive part; the vertex kernel computes a merge and the same normalisation. Each theorem here says what one such
  value is at entry (r, c), in the vocabulary of the layer's specification: sums over the 128 columns of a row.
-/
import proofs.«140405_j8658654068867_2_alg».proof.Proof.Gen.KernelIdeal.Skeleton
import proofs.«140405_j8658654068867_2_alg».proof.Proof.Spec
import proofs.«140405_j8658654068867_2_alg».proof.Proof.LibMatmulRows
import proofs.«140405_j8658654068867_2_alg».proof.Proof.LibReduceAt
import proofs.«140405_j8658654068867_2_alg».proof.Proof.LibKeepdims
import Idealize.ShloMosaic.Lib.Pipeline.Value
import Idealize.ShloMosaic.Lib.ValueLayout
import Idealize.ShloMosaic.PureOps.Ideal.Laws

noncomputable section

open scoped BigOperators

namespace Cert.KernelIdeal.Body

open Idealize.ShloMosaic Idealize.ShloMosaic.ValueIdx Idealize.ShloMosaic.Pipeline Cert.KernelIdeal

/-! ## Rows and per-row quantities spread over a block -/

/-- A one-row array spread over the 5000 rows reads, at (r, c), the row at c. -/
theorem row_spread (x : Vec Ideal S1x128 .f32) (h : S1x128.ShapeCasts S1x128) (h' : S1x128.Broadcasts S5000x128)
    (r : Fin 5000) (c : Fin 128) :
    broadcastTo S5000x128 (shapeCast S1x128 x h) h' (ix2 r c) = x (ix2 (0 : Fin 1) c) := by
  rw [shapeCast_self]
  exact broadcastTo_1b_ab_apply x h' r c

/-- The per-row mean of a block, spread over the row: the row's sum divided by the row length. -/
theorem mean_spread (w : FVec Ideal S5000x128 .f32) (hr : S5000x128.Reduces [1] S5000) (hc : S5000.ShapeCasts S5000x1)
    (hb : S5000x1.Broadcasts S5000x128) (r : Fin 5000) (c : Fin 128) :
    broadcastTo S5000x128
      (divf (shapeCast S5000x1 (multiReduction (F := Ideal) .add [1] S5000 w 0x00000000#32 hr (.inl rfl) rfl) hc)
        (broadcast S5000x1 (Scalar.ofBits (F := Ideal) .f32 0x43000000#32))) hb (ix2 r c)
      = HyperConv.rowMean (fun k => w (ix2 r k)) := by
  refine (Keepdims.broadcastTo_a1_ab_apply _ hb r c).trans ?_
  show Ideal.div (shapeCast S5000x1 (multiReduction (F := Ideal) .add [1] S5000 w 0x00000000#32 hr (.inl rfl) rfl) hc
    (ix2 r (0 : Fin 1))) (Ideal.ofBits .f32 0x43000000#32) = _
  rw [Keepdims.shapeCast_a_a1_apply]
  exact congrArg (fun t => Ideal.div t (Ideal.ofBits .f32 0x43000000#32))
    (ReduceAt.row_sum_apply w 0x00000000#32 hr (.inl rfl) rfl r)

/-! ## The row normalisation -/

/-- A block's per-row mean spread over the rows, as both kernels spell it. -/
def meanB (w : FVec Ideal S5000x128 .f32) : FVec Ideal S5000x128 .f32 :=
  broadcastTo S5000x128
    (divf (shapeCast S5000x1 (multiReduction (F := Ideal) .add [1] S5000 w 0x00000000#32 Gen.reduces_S5000x128_S5000 (.inl rfl) rfl)
        Gen.shapeCasts_S5000_S5000x1)
      (broadcast S5000x1 (Scalar.ofBits (F := Ideal) .f32 0x43000000#32))) Gen.broadcasts_S5000x1_S5000x128

theorem meanB_apply (w : FVec Ideal S5000x128 .f32) (r : Fin 5000) (c : Fin 128) :
    meanB w (ix2 r c) = HyperConv.rowMean (fun k => w (ix2 r k)) :=
  mean_spread w _ _ _ r c

/-- The normalisation up to the gain, as both kernels spell it: the deviation from the row's mean, times the reciprocal
    square root of the row's mean squared deviation plus the offset, times the gain row. -/
def normGain (w : FVec Ideal S5000x128 .f32) (g : Vec Ideal S1x128 .f32) : FVec Ideal S5000x128 .f32 :=
  mulf
    (mulf (subf w (meanB w))
      (broadcastTo S5000x128
        (rsqrt
          (addf
            (divf
              (shapeCast S5000x1
                (multiReduction (F := Ideal) .add [1] S5000 (mulf (subf w (meanB w)) (subf w (meanB w))) 0x00000000#32
                  Gen.reduces_S5000x128_S5000 (.inl rfl) rfl)
                Gen.shapeCasts_S5000_S5000x1)
              (broadcast S5000x1 (Scalar.ofBits (F := Ideal) .f32 0x43000000#32)))
            (broadcast S5000x1 (Scalar.ofBits (F := Ideal) .f32 0x3727C5AC#32))))
        Gen.broadcasts_S5000x1_S5000x128))
    (broadcastTo S5000x128 (shapeCast S1x128 g Gen.shapeCasts_S1x128_S1x128) Gen.broadcasts_S1x128_S5000x128)

theorem normGain_apply (w : FVec Ideal S5000x128 .f32) (g : Vec Ideal S1x128 .f32) (gC : HyperConv.Col 128)
    (hg : ∀ c : Fin 128, g (ix2 (0 : Fin 1) c) = gC (ix1 c)) (r : Fin 5000) (c : Fin 128) :
    normGain w g (ix2 r c)
      = (w (ix2 r c) - HyperConv.rowMean (fun k => w (ix2 r k)))
          * Ideal.rsqrt (HyperConv.rowVar (fun k => w (ix2 r k)) + HyperConv.varOffset) * gC (ix1 c) := by
  unfold normGain
  rw [mulf_apply, mulf_apply, subf_apply, row_spread, hg, meanB_apply, Keepdims.broadcastTo_a1_ab_apply]
  show (_ - _) * Ideal.rsqrt (Ideal.div (shapeCast S5000x1
      (multiReduction (F := Ideal) .add [1] S5000 (mulf (subf w (meanB w)) (subf w (meanB w))) 0x00000000#32
        Gen.reduces_S5000x128_S5000 (.inl rfl) rfl) Gen.shapeCasts_S5000_S5000x1 (ix2 r (0 : Fin 1)))
      (Ideal.ofBits .f32 0x43000000#32) + Ideal.ofBits .f32 0x3727C5AC#32) * _ = _
  rw [Keepdims.shapeCast_a_a1_apply]
  have hs : multiReduction (F := Ideal) .add [1] S5000 (mulf (subf w (meanB w)) (subf w (meanB w))) 0x00000000#32
        Gen.reduces_S5000x128_S5000 (.inl rfl) rfl (ix1 r)
      = ∑ k : Fin 128, (w (ix2 r k) - HyperConv.rowMean (fun k => w (ix2 r k)))
          * (w (ix2 r k) - HyperConv.rowMean (fun k => w (ix2 r k))) :=
    (ReduceAt.row_sum_apply _ 0x00000000#32 Gen.reduces_S5000x128_S5000 (.inl rfl) rfl r).trans
      (Finset.sum_congr rfl fun k _ => by rw [mulf_apply, subf_apply, meanB_apply])
  rw [hs]
  rfl

/-- The normalisation's last two steps, as both kernels spell them: add the offset row, take the positive part. -/
def reluB (w : FVec Ideal S5000x128 .f32) (b : Vec Ideal S1x128 .f32) : FVec Ideal S5000x128 .f32 :=
  maximumf
    (addf w (broadcastTo S5000x128 (shapeCast S1x128 b Gen.shapeCasts_S1x128_S1x128) Gen.broadcasts_S1x128_S5000x128))
    (broadcast S5000x128 (Scalar.ofBits (F := Ideal) .f32 0x00000000#32))

/-- The whole normalisation of a block whose row r is known: the specification's, of that row. -/
theorem normRelu_of_row (w : FVec Ideal S5000x128 .f32) (g b : Vec Ideal S1x128 .f32) (gC bC : HyperConv.Col 128)
    (hg : ∀ c : Fin 128, g (ix2 (0 : Fin 1) c) = gC (ix1 c)) (hb : ∀ c : Fin 128, b (ix2 (0 : Fin 1) c) = bC (ix1 c))
    (r : Fin 5000) (V : Fin 128 → EReal) (hV : ∀ k, w (ix2 r k) = V k) (c : Fin 128) :
    reluB (normGain w g) b (ix2 r c) = HyperConv.normRelu gC bC V c := by
  have hV' : V = fun k => w (ix2 r k) := (funext hV).symm
  subst hV'
  unfold reluB
  rw [maximumf_apply, addf_apply, normGain_apply w g gC hg, row_spread, hb, broadcast_apply]
  show max _ (Ideal.ofBits .f32 0x00000000#32) = _
  rw [Ideal.ofBits_zero_f32]
  rfl

/-- The hyperedge kernel's stored block: the row normalisation of its input block, then the positive part. -/
theorem pay1_apply (v : FVec Ideal S5000x128 .f32) (g b : Vec Ideal S1x128 .f32) (gC bC : HyperConv.Col 128)
    (hg : ∀ c : Fin 128, g (ix2 (0 : Fin 1) c) = gC (ix1 c)) (hb : ∀ c : Fin 128, b (ix2 (0 : Fin 1) c) = bC (ix1 c))
    (r : Fin 5000) (c : Fin 128) :
    Gen.k0_pay1 (F := Ideal) v g b (ix2 r c) = HyperConv.normRelu gC bC (fun k => v (ix2 r k)) c := by
  have e : Gen.k0_pay1 (F := Ideal) v g b = reluB (normGain v g) b := rfl
  rw [e]
  exact normRelu_of_row v g b gC bC hg hb r _ (fun _ => rfl) c

/-! ## The matrix products -/

/-- The product's record keeps the left operand's row … -/
theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the right operand's column. -/
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 × 128 block times a 128 × 128 matrix into the zero accumulator, at (r, j): the sum over k of the block's
    row entry times the matrix's column entry, whatever those are known to be. -/
theorem mm_apply {φ₁ φ₂ : FTy} (a : FVec Ideal S5000x128 φ₁) (b : FVec Ideal S128x128 φ₂) (r : Fin 5000) (j : Fin 128)
    (L R : Fin 128 → EReal) (hl : ∀ k, a (ix2 r k) = L k) (hr : ∀ k, b (ix2 k j) = R k) :
    matmul dot_S5000x128_S128x128_S5000x128_1_0_0_1_n_n none a b (constant (F := Ideal) S5000x128 .f32 0x00000000#32) (ix2 r j)
      = ∑ k : Fin 128, L k * R k :=
  MatmulRows.matmul_zero_rows dot_S5000x128_S128x128_S5000x128_1_0_0_1_n_n none rfl rfl rfl rfl dot_lhs_row dot_rhs_col
    a b (ix2 r j) L R hl hr

/-- A weight block as the products read it (cast to its own shape, narrowed): the block itself. -/
theorem weight_apply (w : Vec Ideal S128x128 .f32) (h : S128x128.ShapeCasts S128x128) (hlt : FTy.bits .bf16 < FTy.bits .f32)
    (k j : Fin 128) :
    (truncf .bf16 (shapeCast S128x128 w h : FVec Ideal S128x128 .f32) hlt : FVec Ideal S128x128 .bf16) (ix2 k j)
      = w (ix2 k j) := by
  rw [truncf_apply, shapeCast_self]

/-! ## The dense stages -/

/-- The first stage: the mean block times the first weight, plus the gated-bias block. -/
def msgB (mx : Vec Ideal S5000x128 .f32) (wtv : Vec Ideal S128x128 .f32) (be : Vec Ideal S5000x128 .f32) :
    FVec Ideal S5000x128 .f32 :=
  addf
    (matmul dot_S5000x128_S128x128_S5000x128_1_0_0_1_n_n none
      (truncf .bf16 (shapeCast S5000x128 mx Gen.shapeCasts_S5000x128_S5000x128) Gen.bitsLt_bf16_f32)
      (truncf .bf16 (shapeCast S128x128 wtv Gen.shapeCasts_S128x128_S128x128) Gen.bitsLt_bf16_f32)
      (constant (F := Ideal) S5000x128 .f32 0x00000000#32))
    (shapeCast S5000x128 be Gen.shapeCasts_S5000x128_S5000x128)

theorem msgB_apply (mx : Vec Ideal S5000x128 .f32) (wtv : Vec Ideal S128x128 .f32) (be : Vec Ideal S5000x128 .f32)
    (Wtv : HyperConv.Mat 128 128) (h1 : ∀ k j : Fin 128, wtv (ix2 k j) = Wtv (ix2 j k)) (r : Fin 5000) (k : Fin 128) :
    msgB mx wtv be (ix2 r k) = (∑ k' : Fin 128, mx (ix2 r k') * Wtv (ix2 k k')) + be (ix2 r k) := by
  unfold msgB
  rw [addf_apply,
    mm_apply _ _ r k (fun k' => mx (ix2 r k')) (fun k' => Wtv (ix2 k k'))
      (fun k' => by rw [truncf_apply, shapeCast_self]) (fun k' => (weight_apply wtv _ _ k' k).trans (h1 k' k)),
    shapeCast_self]

/-- The second stage: two blocks against the two halves of a merge weight, plus its bias row. -/
def mergedB (u m : FVec Ideal S5000x128 .f32) (wu wm : Vec Ideal S128x128 .f32) (bm : Vec Ideal S1x128 .f32) :
    FVec Ideal S5000x128 .f32 :=
  addf
    (addf
      (matmul dot_S5000x128_S128x128_S5000x128_1_0_0_1_n_n none (truncf .bf16 u Gen.bitsLt_bf16_f32)
        (truncf .bf16 (shapeCast S128x128 wu Gen.shapeCasts_S128x128_S128x128) Gen.bitsLt_bf16_f32)
        (constant (F := Ideal) S5000x128 .f32 0x00000000#32))
      (matmul dot_S5000x128_S128x128_S5000x128_1_0_0_1_n_n none (truncf .bf16 m Gen.bitsLt_bf16_f32)
        (truncf .bf16 (shapeCast S128x128 wm Gen.shapeCasts_S128x128_S128x128) Gen.bitsLt_bf16_f32)
        (constant (F := Ideal) S5000x128 .f32 0x00000000#32)))
    (broadcastTo S5000x128 (shapeCast S1x128 bm Gen.shapeCasts_S1x128_S1x128) Gen.broadcasts_S1x128_S5000x128)

theorem mergedB_apply (u m : FVec Ideal S5000x128 .f32) (wu wm : Vec Ideal S128x128 .f32) (bm : Vec Ideal S1x128 .f32)
    (W : HyperConv.Mat 128 256) (bC : HyperConv.Col 128)
    (h2 : ∀ k j : Fin 128, wu (ix2 k j) = W (ix2 j (HyperConv.lo k)))
    (h3 : ∀ k j : Fin 128, wm (ix2 k j) = W (ix2 j (HyperConv.hi k)))
    (h5 : ∀ j : Fin 128, bm (ix2 (0 : Fin 1) j) = bC (ix1 j))
    (r : Fin 5000) (M : Fin 128 → EReal) (hm : ∀ k, m (ix2 r k) = M k) (j : Fin 128) :
    mergedB u m wu wm bm (ix2 r j) = HyperConv.merge W bC (fun k => u (ix2 r k)) M j := by
  unfold mergedB
  rw [addf_apply, addf_apply, row_spread, h5,
    mm_apply (truncf .bf16 u Gen.bitsLt_bf16_f32) _ r j (fun k => u (ix2 r k)) (fun k => W (ix2 j (HyperConv.lo k)))
      (fun k => rfl) (fun k => (weight_apply wu _ _ k j).trans (h2 k j)),
    mm_apply (truncf .bf16 m Gen.bitsLt_bf16_f32) _ r j M (fun k => W (ix2 j (HyperConv.hi k)))
      hm (fun k => (weight_apply wm _ _ k j).trans (h3 k j))]
  rfl

/-- The third stage: a block times a weight, plus its bias row. -/
def outB (mg : FVec Ideal S5000x128 .f32) (wte : Vec Ideal S128x128 .f32) (bte : Vec Ideal S1x128 .f32) :
    FVec Ideal S5000x128 .f32 :=
  addf
    (matmul dot_S5000x128_S128x128_S5000x128_1_0_0_1_n_n none (truncf .bf16 mg Gen.bitsLt_bf16_f32)
      (truncf .bf16 (shapeCast S128x128 wte Gen.shapeCasts_S128x128_S128x128) Gen.bitsLt_bf16_f32)
      (constant (F := Ideal) S5000x128 .f32 0x00000000#32))
    (broadcastTo S5000x128 (shapeCast S1x128 bte Gen.shapeCasts_S1x128_S1x128) Gen.broadcasts_S1x128_S5000x128)

theorem outB_apply (mg : FVec Ideal S5000x128 .f32) (wte : Vec Ideal S128x128 .f32) (bte : Vec Ideal S1x128 .f32)
    (Wte : HyperConv.Mat 128 128) (bteC : HyperConv.Col 128)
    (h4 : ∀ k j : Fin 128, wte (ix2 k j) = Wte (ix2 j k)) (h6 : ∀ j : Fin 128, bte (ix2 (0 : Fin 1) j) = bteC (ix1 j))
    (r : Fin 5000) (M : Fin 128 → EReal) (hm : ∀ k, mg (ix2 r k) = M k) (j : Fin 128) :
    outB mg wte bte (ix2 r j) = HyperConv.lin Wte bteC M j := by
  unfold outB
  rw [addf_apply, row_spread, h6,
    mm_apply (truncf .bf16 mg Gen.bitsLt_bf16_f32) _ r j M (fun k => Wte (ix2 j k))
      hm (fun k => (weight_apply wte _ _ k j).trans (h4 k j))]
  rfl

/-! ## The kernels' payloads -/

/-- The hyperedge kernel's three dense stages at (r, j): the second dense map of the merge of the Y row with the
    first stage's row. -/
theorem pay2_apply (mx : Vec Ideal S5000x128 .f32) (wtv : Vec Ideal S128x128 .f32) (be y : Vec Ideal S5000x128 .f32)
    (wey wem : Vec Ideal S128x128 .f32) (bem : Vec Ideal S1x128 .f32) (wte : Vec Ideal S128x128 .f32)
    (bte : Vec Ideal S1x128 .f32) (Wtv Wte : HyperConv.Mat 128 128) (Wem : HyperConv.Mat 128 256)
    (bemC bteC : HyperConv.Col 128)
    (h1 : ∀ k j : Fin 128, wtv (ix2 k j) = Wtv (ix2 j k))
    (h2 : ∀ k j : Fin 128, wey (ix2 k j) = Wem (ix2 j (HyperConv.lo k)))
    (h3 : ∀ k j : Fin 128, wem (ix2 k j) = Wem (ix2 j (HyperConv.hi k)))
    (h4 : ∀ k j : Fin 128, wte (ix2 k j) = Wte (ix2 j k))
    (h5 : ∀ j : Fin 128, bem (ix2 (0 : Fin 1) j) = bemC (ix1 j))
    (h6 : ∀ j : Fin 128, bte (ix2 (0 : Fin 1) j) = bteC (ix1 j)) (r : Fin 5000) (j : Fin 128) :
    Gen.k0_pay2 (F := Ideal) mx wtv be y wey wem bem wte bte (ix2 r j)
      = HyperConv.lin Wte bteC
          (HyperConv.merge Wem bemC (fun k => y (ix2 r k))
            (fun k => (∑ k' : Fin 128, mx (ix2 r k') * Wtv (ix2 k k')) + be (ix2 r k))) j := by
  have e : Gen.k0_pay2 (F := Ideal) mx wtv be y wey wem bem wte bte
      = outB (mergedB y (msgB mx wtv be) wey wem bem) wte bte := rfl
  rw [e]
  exact outB_apply _ wte bte Wte bteC h4 h6 r _
    (fun k => mergedB_apply y (msgB mx wtv be) wey wem bem Wem bemC h2 h3 h5 r _
      (fun k' => msgB_apply mx wtv be Wtv h1 r k') k) j

/-- The same block narrowed for the next product: the same extended reals. -/
theorem pay3_apply (mx : Vec Ideal S5000x128 .f32) (wtv : Vec Ideal S128x128 .f32) (be y : Vec Ideal S5000x128 .f32)
    (wey wem : Vec Ideal S128x128 .f32) (bem : Vec Ideal S1x128 .f32) (wte : Vec Ideal S128x128 .f32)
    (bte : Vec Ideal S1x128 .f32) (Wtv Wte : HyperConv.Mat 128 128) (Wem : HyperConv.Mat 128 256)
    (bemC bteC : HyperConv.Col 128)
    (h1 : ∀ k j : Fin 128, wtv (ix2 k j) = Wtv (ix2 j k))
    (h2 : ∀ k j : Fin 128, wey (ix2 k j) = Wem (ix2 j (HyperConv.lo k)))
    (h3 : ∀ k j : Fin 128, wem (ix2 k j) = Wem (ix2 j (HyperConv.hi k)))
    (h4 : ∀ k j : Fin 128, wte (ix2 k j) = Wte (ix2 j k))
    (h5 : ∀ j : Fin 128, bem (ix2 (0 : Fin 1) j) = bemC (ix1 j))
    (h6 : ∀ j : Fin 128, bte (ix2 (0 : Fin 1) j) = bteC (ix1 j)) (r : Fin 5000) (j : Fin 128) :
    Gen.k0_pay3 (F := Ideal) mx wtv be y wey wem bem wte bte (ix2 r j)
      = HyperConv.lin Wte bteC
          (HyperConv.merge Wem bemC (fun k => y (ix2 r k))
            (fun k => (∑ k' : Fin 128, mx (ix2 r k') * Wtv (ix2 k k')) + be (ix2 r k))) j := by
  show Gen.k0_pay2 (F := Ideal) mx wtv be y wey wem bem wte bte (ix2 r j) = _
  exact pay2_apply mx wtv be y wey wem bem wte bte Wtv Wte Wem bemC bteC h1 h2 h3 h4 h5 h6 r j

/-- The vertex kernel's stored block: the merge of the X row with the message row, normalised, then the positive part. -/
theorem vertex_apply (x mv : Vec Ideal S5000x128 .f32) (wvx wvm : Vec Ideal S128x128 .f32)
    (bvm gv bev : Vec Ideal S1x128 .f32) (Wvm : HyperConv.Mat 128 256) (bvmC gC bC : HyperConv.Col 128)
    (h1 : ∀ k j : Fin 128, wvx (ix2 k j) = Wvm (ix2 j (HyperConv.lo k)))
    (h2 : ∀ k j : Fin 128, wvm (ix2 k j) = Wvm (ix2 j (HyperConv.hi k)))
    (h3 : ∀ j : Fin 128, bvm (ix2 (0 : Fin 1) j) = bvmC (ix1 j))
    (h4 : ∀ c : Fin 128, gv (ix2 (0 : Fin 1) c) = gC (ix1 c))
    (h5 : ∀ c : Fin 128, bev (ix2 (0 : Fin 1) c) = bC (ix1 c)) (r : Fin 5000) (c : Fin 128) :
    Gen.k1_pay1 (F := Ideal) (Gen.k1_pay2 (F := Ideal) x mv wvx wvm bvm gv) bev (ix2 r c)
      = HyperConv.normRelu gC bC (HyperConv.merge Wvm bvmC (fun k => x (ix2 r k)) (fun k => mv (ix2 r k))) c := by
  have e : Gen.k1_pay1 (F := Ideal) (Gen.k1_pay2 (F := Ideal) x mv wvx wvm bvm gv) bev
      = reluB (normGain (mergedB x (shapeCast S5000x128 mv Gen.shapeCasts_S5000x128_S5000x128) wvx wvm bvm) gv) bev := rfl
  rw [e]
  exact normRelu_of_row _ gv bev gC bC h4 h5 r _
    (fun k => mergedB_apply x _ wvx wvm bvm Wvm bvmC h1 h2 h3 r _
      (fun k' => congrFun (shapeCast_self mv Gen.shapeCasts_S5000x128_S5000x128) (ix2 r k')) k) c

end Cert.KernelIdeal.Body

end
-- ==== Proof.KRegion.lean ====
/-
  What the two regions leave in their output arrays, as functions of the arrays each region finds at its entry.

  At every grid point the body's stored block is a row-wise function of the point's input blocks; an input block's row
  `r` at point `t` is row `t·5000 + r` of its array and the weights' blocks are their arrays, so what point `t` writes back
  is block `t` of ONE whole-array function, and the blocks cover the array: the array ends holding that function.
  The weights enter through a record of facts saying what each weight buffer holds at the region's entry (a transposed
  matrix, a transposed half of a 256-column matrix, a bias as a 1 × 128 row).
-/
import proofs.«140405_j8658654068867_2_alg».proof.Proof.KWindows
import proofs.«140405_j8658654068867_2_alg».proof.Proof.KBody
import proofs.«140405_j8658654068867_2_alg».proof.Proof.Spec
import Idealize.ShloMosaic.Lib.Pipeline.Value

set_option maxRecDepth 16384

noncomputable section

open scoped BigOperators

namespace Cert.KernelIdeal.Region

open Cert.KernelIdeal Cert.KernelIdeal.Gen Cert.KernelIdeal.Windows Cert.HyperConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The hyperedge region -/

/-- What the hyperedge region's weight buffers hold at its entry. -/
structure Weights0 (c : Dev nD) (Wtv Wte : Mat 128 128) (Wem : Mat 128 256) (bemC bteC gC bC : Col 128) : Prop where
  wtv : ∀ (k j : Fin 128), V c main_v30 (ix2 k j) = Wtv (ix2 j k)
  wey : ∀ (k j : Fin 128), V c main_v32 (ix2 k j) = Wem (ix2 j (lo k))
  wem : ∀ (k j : Fin 128), V c main_v34 (ix2 k j) = Wem (ix2 j (hi k))
  bem : ∀ (j : Fin 128), V c main_v36 (ix2 (0 : Fin 1) j) = bemC (ix1 j)
  wte : ∀ (k j : Fin 128), V c main_v35 (ix2 k j) = Wte (ix2 j k)
  bte : ∀ (j : Fin 128), V c main_v37 (ix2 (0 : Fin 1) j) = bteC (ix1 j)
  gain : ∀ (j : Fin 128), V c main_v38 (ix2 (0 : Fin 1) j) = gC (ix1 j)
  offs : ∀ (j : Fin 128), V c main_v39 (ix2 (0 : Fin 1) j) = bC (ix1 j)

variable (Wtv Wte : Mat 128 128) (Wem : Mat 128 256) (bemC bteC gC bC : Col 128)

/-- Row `e` of the hyperedge rows before normalisation, from the region's three row-blocked arrays: the message is the
    mean array times the first weight plus the gated-bias array, merged with the hyperedge features, mapped again. -/
def ymRowOf (Yb MX BE : Mat 50000 128) (e : Fin 50000) (j : Fin 128) : EReal :=
  lin Wte bteC (merge Wem bemC (fun k => Yb (ix2 e k))
    (fun k => (∑ k' : Fin 128, MX (ix2 e k') * Wtv (ix2 k k')) + BE (ix2 e k))) j

/-- The same at the region's own arrays: the hyperedge features, the mean array, the gated-bias array. -/
def ymRow (c : Dev nD) : Fin 50000 → Fin 128 → EReal :=
  ymRowOf Wtv Wte Wem bemC bteC (V c main_arg1) (V c main_v22) (V c main_v29)

def ymArr (c : Dev nD) : Mat 50000 128 := fun i => ymRow V Wtv Wte Wem bemC bteC c (i 0) (i 1)
def yoArr (c : Dev nD) : Mat 50000 128 := fun i => normRelu gC bC (ymRow V Wtv Wte Wem bemC bteC c (i 0)) (i 1)

/-- The three dense stages of the body at row `r` of point `t`'s blocks are row `t·5000 + r` of `ymRow`. -/
theorem pay2_row (c : Dev nD) (hW : Weights0 V c Wtv Wte Wem bemC bteC gC bC) (t : Fin cfg0.N) (r : Fin 5000) (j : Fin 128) :
    k0_pay2 (F := Ideal) (iblk0 V c 1 t) (iblk0 V c 3 t) (iblk0 V c 2 t) (iblk0 V c 0 t) (iblk0 V c 4 t) (iblk0 V c 5 t)
      (iblk0 V c 6 t) (iblk0 V c 7 t) (iblk0 V c 8 t) (ix2 r j) = ymRow V Wtv Wte Wem bemC bteC c (row0 t r) j := by
  refine (Body.pay2_apply (iblk0 V c 1 t) (iblk0 V c 3 t) (iblk0 V c 2 t) (iblk0 V c 0 t) (iblk0 V c 4 t) (iblk0 V c 5 t)
    (iblk0 V c 6 t) (iblk0 V c 7 t) (iblk0 V c 8 t) Wtv Wte Wem bemC bteC
    (fun k j => (blk0_3 V c t k j).trans (hW.wtv k j)) (fun k j => (blk0_4 V c t k j).trans (hW.wey k j))
    (fun k j => (blk0_5 V c t k j).trans (hW.wem k j)) (fun k j => (blk0_7 V c t k j).trans (hW.wte k j))
    (fun j => (blk0_6 V c t 0 j).trans (hW.bem j)) (fun j => (blk0_8 V c t 0 j).trans (hW.bte j)) r j).trans ?_
  unfold ymRow ymRowOf
  simp only [blk0_0, blk0_1, blk0_2]

theorem pay3_row (c : Dev nD) (hW : Weights0 V c Wtv Wte Wem bemC bteC gC bC) (t : Fin cfg0.N) (r : Fin 5000) (j : Fin 128) :
    k0_pay3 (F := Ideal) (iblk0 V c 1 t) (iblk0 V c 3 t) (iblk0 V c 2 t) (iblk0 V c 0 t) (iblk0 V c 4 t) (iblk0 V c 5 t)
      (iblk0 V c 6 t) (iblk0 V c 7 t) (iblk0 V c 8 t) (ix2 r j) = ymRow V Wtv Wte Wem bemC bteC c (row0 t r) j :=
  pay2_row V Wtv Wte Wem bemC bteC gC bC c hW t r j

/-- What point `t` writes back through output window 12 is block `t` of `ymArr`. -/
theorem flushed12 (c : Dev nD) (hW : Weights0 V c Wtv Wte Wem bemC bteC gC bC) (t : Fin cfg0.N) :
    (dat0 V c).flushed 12 t = ((cfg0.win 12).blk t).view.read (Elt Ideal) (ymArr V Wtv Wte Wem bemC bteC c) := by
  show (cfg0.win 12).cut (grid0.coords t) ((dat0 V c).after 12 t) = _
  rw [after0_12]
  unfold out0_12
  rw [View.canon_unit_zero hz]
  simp only [View.ld_unit_zero (S := S5000x128) hz, View.ld_unit_zero (S := S128x128) hz, View.ld_unit_zero (S := S1x128) hz]
  funext y
  obtain ⟨r, q, rfl⟩ : ∃ (r : Fin 5000) (q : Fin 128), y = ix2 r q := ⟨y 0, y 1, eq_ix2 y⟩
  show k0_pay3 (F := Ideal) (iblk0 V c 1 t) (iblk0 V c 3 t) (iblk0 V c 2 t) (iblk0 V c 0 t) (iblk0 V c 4 t) (iblk0 V c 5 t)
      (iblk0 V c 6 t) (iblk0 V c 7 t) (iblk0 V c 8 t) (ix2 r q)
    = ymArr V Wtv Wte Wem bemC bteC c (((cfg0.win 12).blk t).view.emb (ix2 r q))
  rw [emb0_12, pay3_row V Wtv Wte Wem bemC bteC gC bC c hW t r q]
  rfl

theorem final12 (c : Dev nD) (hW : Weights0 V c Wtv Wte Wem bemC bteC gC bC) :
    (dat0 V c).arrAt 12 cfg0.N = ymArr V Wtv Wte Wem bemC bteC c :=
  (dat0 V c).arrAt_eq_of_cover 12 (ymArr V Wtv Wte Wem bemC bteC c)
    (fun t _ => flushed12 V Wtv Wte Wem bemC bteC gC bC c hW t) cover0_12

/-- What point `t` writes back through output window 11 is block `t` of `yoArr`. -/
theorem flushed11 (c : Dev nD) (hW : Weights0 V c Wtv Wte Wem bemC bteC gC bC) (t : Fin cfg0.N) :
    (dat0 V c).flushed 11 t = ((cfg0.win 11).blk t).view.read (Elt Ideal) (yoArr V Wtv Wte Wem bemC bteC gC bC c) := by
  show (cfg0.win 11).cut (grid0.coords t) ((dat0 V c).after 11 t) = _
  rw [after0_11]
  unfold out0_11
  rw [View.canon_unit_zero hz]
  simp only [View.ld_unit_zero (S := S5000x128) hz, View.ld_unit_zero (S := S128x128) hz, View.ld_unit_zero (S := S1x128) hz]
  funext y
  obtain ⟨r, q, rfl⟩ : ∃ (r : Fin 5000) (q : Fin 128), y = ix2 r q := ⟨y 0, y 1, eq_ix2 y⟩
  show k0_pay1 (F := Ideal) (k0_pay2 (F := Ideal) (iblk0 V c 1 t) (iblk0 V c 3 t) (iblk0 V c 2 t) (iblk0 V c 0 t) (iblk0 V c 4 t)
      (iblk0 V c 5 t) (iblk0 V c 6 t) (iblk0 V c 7 t) (iblk0 V c 8 t)) (iblk0 V c 9 t) (iblk0 V c 10 t) (ix2 r q)
    = yoArr V Wtv Wte Wem bemC bteC gC bC c (((cfg0.win 11).blk t).view.emb (ix2 r q))
  rw [emb0_11]
  refine (Body.pay1_apply _ (iblk0 V c 9 t) (iblk0 V c 10 t) gC bC
    (fun j => (blk0_9 V c t 0 j).trans (hW.gain j)) (fun j => (blk0_10 V c t 0 j).trans (hW.offs j)) r q).trans ?_
  have hrow : (fun k : Fin 128 => k0_pay2 (F := Ideal) (iblk0 V c 1 t) (iblk0 V c 3 t) (iblk0 V c 2 t) (iblk0 V c 0 t)
      (iblk0 V c 4 t) (iblk0 V c 5 t) (iblk0 V c 6 t) (iblk0 V c 7 t) (iblk0 V c 8 t) (ix2 r k))
      = ymRow V Wtv Wte Wem bemC bteC c (row0 t r) :=
    funext fun k => pay2_row V Wtv Wte Wem bemC bteC gC bC c hW t r k
  rw [hrow]
  rfl

theorem final11 (c : Dev nD) (hW : Weights0 V c Wtv Wte Wem bemC bteC gC bC) :
    (dat0 V c).arrAt 11 cfg0.N = yoArr V Wtv Wte Wem bemC bteC gC bC c :=
  (dat0 V c).arrAt_eq_of_cover 11 (yoArr V Wtv Wte Wem bemC bteC gC bC c)
    (fun t _ => flushed11 V Wtv Wte Wem bemC bteC gC bC c hW t) cover0_11

/-! ## The vertex region -/

/-- What the vertex region's weight buffers hold at its entry. -/
structure Weights1 (c : Dev nD) (Wvm : Mat 128 256) (bvmC gvC bvC : Col 128) : Prop where
  wvx : ∀ (k j : Fin 128), V c main_v64 (ix2 k j) = Wvm (ix2 j (lo k))
  wvm : ∀ (k j : Fin 128), V c main_v66 (ix2 k j) = Wvm (ix2 j (hi k))
  bvm : ∀ (j : Fin 128), V c main_v67 (ix2 (0 : Fin 1) j) = bvmC (ix1 j)
  gain : ∀ (j : Fin 128), V c main_v68 (ix2 (0 : Fin 1) j) = gvC (ix1 j)
  offs : ∀ (j : Fin 128), V c main_v69 (ix2 (0 : Fin 1) j) = bvC (ix1 j)

variable (Wvm : Mat 128 256) (bvmC gvC bvC : Col 128)

/-- The vertex output from the region's two row-blocked arrays: the merge of a vertex row with its message row,
    normalised, positive part. -/
def xoRowOf (Xb MV : Mat 100000 128) (v : Fin 100000) (j : Fin 128) : EReal :=
  normRelu gvC bvC (merge Wvm bvmC (fun k => Xb (ix2 v k)) (fun k => MV (ix2 v k))) j

def xoArr (c : Dev nD) : Mat 100000 128 := fun i =>
  xoRowOf Wvm bvmC gvC bvC (V c main_arg0) (V c main_v62) (i 0) (i 1)

theorem flushed7 (c : Dev nD) (hW : Weights1 V c Wvm bvmC gvC bvC) (t : Fin cfg1.N) :
    (dat1 V c).flushed 7 t = ((cfg1.win 7).blk t).view.read (Elt Ideal) (xoArr V Wvm bvmC gvC bvC c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext y
  obtain ⟨r, q, rfl⟩ : ∃ (r : Fin 5000) (q : Fin 128), y = ix2 r q := ⟨y 0, y 1, eq_ix2 y⟩
  show k1_pay1 (F := Ideal) (k1_pay2 (F := Ideal) (iblk1 V c 0 t) (iblk1 V c 1 t) (iblk1 V c 2 t) (iblk1 V c 3 t) (iblk1 V c 4 t)
      (iblk1 V c 5 t)) (iblk1 V c 6 t) (ix2 r q)
    = xoArr V Wvm bvmC gvC bvC c (((cfg1.win 7).blk t).view.emb (ix2 r q))
  rw [emb1_7]
  refine (Body.vertex_apply (iblk1 V c 0 t) (iblk1 V c 1 t) (iblk1 V c 2 t) (iblk1 V c 3 t) (iblk1 V c 4 t) (iblk1 V c 5 t)
    (iblk1 V c 6 t) Wvm bvmC gvC bvC
    (fun k j => (blk1_2 V c t k j).trans (hW.wvx k j)) (fun k j => (blk1_3 V c t k j).trans (hW.wvm k j))
    (fun j => (blk1_4 V c t 0 j).trans (hW.bvm j)) (fun j => (blk1_5 V c t 0 j).trans (hW.gain j))
    (fun j => (blk1_6 V c t 0 j).trans (hW.offs j)) r q).trans ?_
  unfold xoArr xoRowOf
  simp only [blk1_0, blk1_1]

theorem final7 (c : Dev nD) (hW : Weights1 V c Wvm bvmC gvC bvC) :
    (dat1 V c).arrAt 7 cfg1.N = xoArr V Wvm bvmC gvC bvC c :=
  (dat1 V c).arrAt_eq_of_cover 7 (xoArr V Wvm bvmC gvC bvC c)
    (fun t _ => flushed7 V Wvm bvmC gvC bvC c hW t) cover1_7

end Cert.KernelIdeal.Region

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.Layer.lean ====
/-
  The layer's two forms as functions of the sixteen argument arrays.

  The incidences come from two index arrays of length 1600000. When rows are GATHERED the index is first wrapped (a
  negative index has the row count added) and then clamped into the rows; when rows are ACCUMULATED the raw index is read
  as a signed integer and an index that is no row's number drops its incidence. Both programs spell the wrapped and the
  raw index column in the same operations; they are named here once.
-/
import proofs.«140405_j8658654068867_2_alg».proof.Proof.Spec
import proofs.«140405_j8658654068867_2_alg».proof.Proof.LibSegmentSum

noncomputable section

open scoped BigOperators

namespace Cert.HyperConv

open Idealize.ShloMosaic Idealize.ShloMosaic.ValueIdx Idealize.ShloMosaic.SegmentSum

/-- A length-1600000 array of 32-bit indices, and the same as a one-column matrix. -/
abbrev IdxVec := IVec (⟨1, ![1600000]⟩ : Shape) 32
abbrev IdxCol := IVec (⟨2, ![1600000, 1]⟩ : Shape) 32

theorem bc_col : (⟨1, ![1600000]⟩ : Shape).BroadcastsInDim ⟨2, ![1600000, 1]⟩ (![0] : Fin 1 → Fin 2) := by decide
theorem bc_scalar : (⟨0, ![]⟩ : Shape).BroadcastsInDim ⟨1, ![1600000]⟩ (![] : Fin 0 → Fin 1) := by decide

/-- The raw index column. -/
def rawCol (a : IdxVec) : IdxCol := broadcastInDim ⟨2, ![1600000, 1]⟩ ![0] bc_col a

/-- The index column with `n` added to every negative index. -/
def wrapCol (n : BitVec 32) (a : IdxVec) : IdxCol :=
  broadcastInDim ⟨2, ![1600000, 1]⟩ ![0] bc_col
    (select (cmpi .slt a (broadcastInDim ⟨1, ![1600000]⟩ ![] bc_scalar (constantI ⟨0, ![]⟩ 32 0#32)))
      (addi a (broadcastInDim ⟨1, ![1600000]⟩ ![] bc_scalar (constantI ⟨0, ![]⟩ 32 n))) a)

/-- The vertex row, and the hyperedge row, an incidence gathers. -/
def gvOf (a : IdxVec) : Fin 1600000 → Fin 100000 := clampRow 100000 (by norm_num) (wrapCol 100000#32 a)
def geOf (a : IdxVec) : Fin 1600000 → Fin 50000 := clampRow 50000 (by norm_num) (wrapCol 50000#32 a)

/-- The signed number an incidence is addressed to. -/
def tgt (a : IdxVec) : Fin 1600000 → ℤ := fun p => (rawCol a (ix2 p 0)).toInt

section Arrays

variable (a0 : Mat 100000 128) (a1 : Mat 50000 128) (a2 a3 : IdxVec)
  (a4 : Mat 128 128) (a5 : Col 128) (a6 : Mat 128 128) (a7 : Col 128)
  (a8 : Mat 128 256) (a9 : Col 128) (a10 : Mat 128 256) (a11 a12 a13 a14 a15 : Col 128)

/-- The kernel form's outputs as arrays. -/
def XoKA : Mat 100000 128 := fun i =>
  XoK a0 a1 (gvOf a2) (geOf a3) (tgt a2) (tgt a3) a4 a5 a6 a7 a8 a9 a10 a11 a12 a13 (i 0) (i 1)
def YoKA : Mat 50000 128 := fun i =>
  YoK a0 a1 (gvOf a2) (tgt a3) a4 a5 a6 a7 a8 a9 a14 a15 (i 0) (i 1)

/-- The reference form's outputs as arrays. -/
def XoRA : Mat 100000 128 := fun i =>
  XoR a0 a1 (gvOf a2) (geOf a3) (tgt a2) (tgt a3) a4 a5 a6 a7 a8 a9 a10 a11 a12 a13 (i 0) (i 1)
def YoRA : Mat 50000 128 := fun i =>
  YoR a0 a1 (gvOf a2) (tgt a3) a4 a5 a6 a7 a8 a9 a14 a15 (i 0) (i 1)

end Arrays

end Cert.HyperConv

end
-- ==== Proof.LibRowScatter.lean ====
/-
  The accumulating row scatter along the leading axis read at an index as ONE sum over the update rows, and its
  composition with a row gather scaled row by row: the shape a neighbourhood sum over a graph's edges takes
  (gather the source rows, scale each by the edge's coefficient, add into the target rows). Nothing here mentions a
  particular program; the sizes are parameters. Built on the row scatter and row gather of LibSegmentSum.
-/
import proofs.«140405_j8658654068867_2_alg».proof.Proof.LibSegmentSum

noncomputable section

open scoped BigOperators

namespace Idealize.ShloMosaic.SegmentSum

open Idealize.ShloMosaic
open Idealize.ShloMosaic.ValueIdx

/-! ## Where an update of the row scatter lands

For the row scatter (operand `[N, D]`, indices `[E, 1]`, updates `[E, D]`) the window start on axis 0 is the signed
scatter index of the update's row and the window coordinate there is zero (the axis is inserted); on axis 1 the start
is zero and the window coordinate is the update's own column. -/

section Lands
variable {N E D w : Nat}
  (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

theorem rowScatter_start0 :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowScatter_window0 : (rowScatterDims N E D wf).window j 0 = 0 := by
  unfold ScatterDims.window
  rw [dif_neg (by simp [ScatterDims.sKept, Shape.kept, List.mem_filter, List.mem_finRange])]

theorem rowScatter_start1 : (rowScatterDims N E D wf).start j idx 1 = 0 := by
  unfold ScatterDims.start
  rw [dif_neg (fun h => absurd (List.mem_singleton.mp h) (show ¬ (1 : Fin 2) = 0 by decide))]

theorem rowScatter_window1 : (rowScatterDims N E D wf).window j 1 = (j 1).val := by
  unfold ScatterDims.window
  rw [dif_pos (show (1 : Fin 2) ∈ (rowScatterDims N E D wf).sKept by
    simp [ScatterDims.sKept, Shape.kept, List.mem_filter, List.mem_finRange])]
  rfl

/-- An update element lands at operand index `i` exactly when its row's scatter index, read signed, is `i`'s row
    number and its column is `i`'s column. -/
theorem rowScatter_resultIdx_iff (i : (⟨2, ![N, D]⟩ : Shape).Idx) :
    (rowScatterDims N E D wf).resultIdx? j idx = some i
      ↔ (idx (ix2 (j 0) 0)).toInt = ((i 0).val : ℤ) ∧ (j 1).val = (i 1).val := by
  have hs0 := rowScatter_start0 wf idx j
  have hw0 := rowScatter_window0 wf j
  have hs1 := rowScatter_start1 wf idx j
  have hw1 := rowScatter_window1 wf j
  have hi0 : (i 0).val < N := idx2_lt0 i
  have hi1 : (i 1).val < D := idx2_lt1 i
  have hj1 : (j 1).val < D := idx2_lt1 j
  constructor
  · intro h
    unfold ScatterDims.resultIdx? at h
    split at h
    · rename_i hin
      have e := Option.some.inj h
      have v0 : ((rowScatterDims N E D wf).start j idx 0 + (rowScatterDims N E D wf).window j 0).toNat = (i 0).val :=
        congrArg Fin.val (congrFun e 0)
      have v1 : ((rowScatterDims N E D wf).start j idx 1 + (rowScatterDims N E D wf).window j 1).toNat = (i 1).val :=
        congrArg Fin.val (congrFun e 1)
      have p0 := (hin 0).1
      rw [hs0, hw0] at v0 p0
      rw [hs1, hw1] at v1
      constructor <;> omega
    · cases h
  · rintro ⟨hr, hc⟩
    have hall : ∀ a, 0 ≤ (rowScatterDims N E D wf).start j idx a + (rowScatterDims N E D wf).window j a
        ∧ (rowScatterDims N E D wf).start j idx a + (rowScatterDims N E D wf).window j a
          < ((⟨2, ![N, D]⟩ : Shape).size a) := by
      intro a
      match a with
      | ⟨0, _⟩ =>
        show 0 ≤ (rowScatterDims N E D wf).start j idx 0 + (rowScatterDims N E D wf).window j 0
          ∧ (rowScatterDims N E D wf).start j idx 0 + (rowScatterDims N E D wf).window j 0 < (N : ℤ)
        rw [hs0, hw0]; omega
      | ⟨1, _⟩ =>
        show 0 ≤ (rowScatterDims N E D wf).start j idx 1 + (rowScatterDims N E D wf).window j 1
          ∧ (rowScatterDims N E D wf).start j idx 1 + (rowScatterDims N E D wf).window j 1 < (D : ℤ)
        rw [hs1, hw1]; omega
    unfold ScatterDims.resultIdx?
    rw [dif_pos hall]
    congr 1
    funext a
    refine Fin.ext ?_
    match a with
    | ⟨0, _⟩ =>
      show ((rowScatterDims N E D wf).start j idx 0 + (rowScatterDims N E D wf).window j 0).toNat = (i 0).val
      rw [hs0, hw0]; omega
    | ⟨1, _⟩ =>
      show ((rowScatterDims N E D wf).start j idx 1 + (rowScatterDims N E D wf).window j 1).toNat = (i 1).val
      rw [hs1, hw1]; omega

end Lands

/-! ## The row scatter read at an index -/

/-- The accumulating row scatter at `(n, c)`: the operand there plus the sum, over the update rows `e` whose scatter
    index is `n`, of the update at `(e, c)` — column by column, whatever the number of columns. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (U : (⟨2, ![E, D]⟩ : Shape).Idx → EReal) (n : Fin N) (c : Fin D) :
    Ideal.hostScatterAdd (rowScatterDims N E D wf) x idx U (ix2 n c)
      = x (ix2 n c)
        + ∑ e ∈ Finset.univ.filter (fun e : Fin E => (idx (ix2 e 0)).toInt = (n.val : ℤ)), U (ix2 e c) := by
  unfold Ideal.hostScatterAdd
  congr 1
  refine Finset.sum_nbij' (fun j => j 0) (fun e => ix2 e c) ?_ ?_ ?_ ?_ ?_
  · intro j hj
    have h := (rowScatter_resultIdx_iff wf idx j (ix2 n c)).mp (Finset.mem_filter.mp hj).2
    exact Finset.mem_filter.mpr ⟨Finset.mem_univ _, h.1⟩
  · intro e he
    exact Finset.mem_filter.mpr ⟨Finset.mem_univ _,
      (rowScatter_resultIdx_iff wf idx (ix2 e c) (ix2 n c)).mpr ⟨(Finset.mem_filter.mp he).2, rfl⟩⟩
  · intro j hj
    have h := (rowScatter_resultIdx_iff wf idx j (ix2 n c)).mp (Finset.mem_filter.mp hj).2
    have hc : j 1 = c := Fin.ext h.2
    rw [← hc]
    exact (eq_ix2 j).symm
  · intro e _
    rfl
  · intro j hj
    have h := (rowScatter_resultIdx_iff wf idx j (ix2 n c)).mp (Finset.mem_filter.mp hj).2
    have hc : j 1 = c := Fin.ext h.2
    rw [← hc]
    exact congrArg U (eq_ix2 j)

/-- The sum a neighbourhood aggregation computes at target row `n` from a column `p` of the source rows: over the
    edges `e` whose target index `col[e]` is `n`, the edge's coefficient times `p` at the edge's (clamped) source row. -/
def edgeSum (N : Nat) (hN : 0 < N) {E w : Nat} (col row : IVec ⟨2, ![E, 1]⟩ w)
    (coef : (⟨2, ![E, 1]⟩ : Shape).Idx → EReal) (p : Fin N → EReal) (n : Fin N) : EReal :=
  ∑ e ∈ Finset.univ.filter (fun e : Fin E => (col (ix2 e 0)).toInt = (n.val : ℤ)),
    coef (ix2 e 0) * p (clampRow N hN row e)

/-- Gather the rows `row` of `P`, scale row `e` by `coef[e]`, add into the rows `col` of zeros: at `(n, c)` this is
    the edge sum of column `c` of `P`. The updates are given as any array `U` that reads `coef[e] · P[row e, c]`. -/
theorem scatter_scaled_gather_apply {N E D w : Nat} (hN : 0 < N)
    (wfs : ScatterDims.WF ⟨2, ![N, D]⟩ ⟨2, ![E, 1]⟩ ⟨2, ![E, D]⟩ [1] [0] [0] 1)
    (col row : IVec ⟨2, ![E, 1]⟩ w) (coef : (⟨2, ![E, 1]⟩ : Shape).Idx → EReal)
    (P : (⟨2, ![N, D]⟩ : Shape).Idx → EReal) (U : (⟨2, ![E, D]⟩ : Shape).Idx → EReal)
    (hU : ∀ (e : Fin E) (c : Fin D), U (ix2 e c) = coef (ix2 e 0) * P (ix2 (clampRow N hN row e) c))
    (n : Fin N) (c : Fin D) :
    Ideal.hostScatterAdd (rowScatterDims N E D wfs) (fun _ => 0) col U (ix2 n c)
      = edgeSum N hN col row coef (fun r => P (ix2 r c)) n := by
  rw [rowScatterAdd_apply, zero_add]
  unfold edgeSum
  exact Finset.sum_congr rfl fun e _ => hU e c

end Idealize.ShloMosaic.SegmentSum

end
-- ==== Proof.LibHostSegment.lean ====
/-
  The host's accumulating row scatter and row gather along the leading axis, read at an index, for ANY dimension numbers
  of that form given by their fields: a program's own record of a segment sum's scatter (operand [N, D], indices [E, 1],
  updates [E, D]) or of a row lookup's gather (operand [N, D], start indices [E, 1], result [E, D]) is such a record, and
  its reading is the one of the canonical record. Nothing here mentions a particular program; the sizes are parameters.
-/
import proofs.«140405_j8658654068867_2_alg».proof.Proof.LibRowScatter

noncomputable section

open scoped BigOperators

namespace Idealize.ShloMosaic.SegmentSum

open Idealize.ShloMosaic
open Idealize.ShloMosaic.ValueIdx

/-- The host's accumulating row scatter at `(n, c)`: the operand there plus the sum, over the update rows whose scatter
    index read signed is `n`, of the update at `(e, c)`. -/
theorem host_rowScatterAdd_apply {N E D w : Nat} {φ : FTy}
    (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (U : (⟨2, ![E, D]⟩ : Shape).Idx → EReal) (n : Fin N) (c : Fin D) :
    (Host.scatterAdd (F := Ideal) (φ := φ) d x idx U : (⟨2, ![N, D]⟩ : Shape).Idx → EReal) (ix2 n c)
      = x (ix2 n c)
        + ∑ e ∈ Finset.univ.filter (fun e : Fin E => (idx (ix2 e 0)).toInt = (n.val : ℤ)), U (ix2 e c) := by
  obtain ⟨uw, iw, sd, iv, wf⟩ := d
  simp only at h1 h2 h3 h4
  subst h1 h2 h3 h4
  exact rowScatterAdd_apply wf x idx U n c

/-- The host's row gather at `(e, c)`: the operand at the clamped row of `e` and column `c`. -/
theorem host_rowGather_apply {α : Type} {N E D w : Nat} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c) = x (ix2 (clampRow N hN idx e) c) := by
  obtain ⟨od, cs, ob, sb, sm, iv, ss, wf⟩ := d
  simp only at h1 h2 h3 h4 h5 h6 h7
  subst h1 h2 h3 h4 h5 h6 h7
  exact rowGather_apply hN wf x idx (ix2 e c)

end Idealize.ShloMosaic.SegmentSum

end
-- ==== Proof.LibScatterAdd2.lean ====
/-
  The host's accumulating scatter of SCALAR updates, read at an index.

  Two forms. Into a vector: operand `[N]`, one index column `[E, 1]`, updates `[E]`; update `e` is added to element
  `idx[e, 0]`. Into a matrix: operand `[N, M]`, two index columns `[E, 2]`, updates `[E]`; update `e` is added to
  element `(idx[e, 0], idx[e, 1])`. In both every operand axis is an inserted window axis (an update has no window
  coordinate), the start index is read signed and is not clamped, and an update addressed outside the operand is
  dropped. Read at an index the result is therefore the operand there plus the sum, over ALL updates, of the update
  where its index (pair) is that index and zero elsewhere. Nothing here mentions a particular program; the sizes are
  parameters.
-/
import Idealize.ShloMosaic.PureOps.Ideal
import Idealize.ShloMosaic.PureOps.Ideal.Laws
import Idealize.ShloMosaic.Lib.ValueIdx

noncomputable section

open scoped BigOperators

namespace Idealize.ShloMosaic.ScatterAdd2

open Idealize.ShloMosaic
open Idealize.ShloMosaic.ValueIdx

/-! ## Sums over the indices of a vector shape -/

/-- The index set of a vector shape is its one coordinate's range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) := by
  rw [← Equiv.sum_comp (idxEquiv1 (n := n)).symm f]
  rfl

/-! ## Scalars scattered into a vector -/

/-- The dimension numbers of the scatter of scalars into a vector: operand `[N]`, scatter indices `[E, 1]`, updates
    `[E]`; their conditions `wf` are decided on literal sizes. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update `j` starts on the one operand axis: its index, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- An update has no window coordinate on the operand's axis. -/
theorem vecScatter_window {N E : Nat}
    (wf : ScatterDims.WF ⟨1, ![N]⟩ ⟨2, ![E, 1]⟩ ⟨1, ![E]⟩ [] [0] [0] 1)
    (j : (⟨1, ![E]⟩ : Shape).Idx) (a : Fin 1) : (vecScatterDims N E wf).window j a = 0 := by
  unfold ScatterDims.window
  rw [dif_neg (by
    obtain rfl : a = 0 := Subsingleton.elim _ _
    simp [ScatterDims.sKept, Shape.kept, List.mem_filter, List.mem_finRange])]

/-- Update `j` lands at element `i` exactly when its index, read signed, is `i`'s position. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i ↔ (idx (ix2 (j 0) 0)).toInt = ((i 0).val : ℤ) := by
  have hi : (i 0).val < N := (i 0).isLt
  unfold ScatterDims.resultIdx?
  constructor
  · intro h
    split at h
    · rename_i hin
      have hv : ((vecScatterDims N E wf).start j idx 0 + (vecScatterDims N E wf).window j 0).toNat = (i 0).val :=
        congrArg Fin.val (congrFun (Option.some.inj h) 0)
      have hpos := (hin 0).1
      rw [vecScatter_window, vecScatter_start] at hv hpos
      omega
    · cases h
  · intro h
    have hin : ∀ a : Fin 1, 0 ≤ (vecScatterDims N E wf).start j idx a + (vecScatterDims N E wf).window j a ∧
        (vecScatterDims N E wf).start j idx a + (vecScatterDims N E wf).window j a < ((⟨1, ![N]⟩ : Shape).size a : ℤ) := by
      intro a
      obtain rfl : a = 0 := Subsingleton.elim _ _
      rw [vecScatter_window, vecScatter_start, h]
      show 0 ≤ ((i 0).val : ℤ) + ((0 : ℕ) : ℤ) ∧ ((i 0).val : ℤ) + ((0 : ℕ) : ℤ) < (N : ℤ)
      omega
    rw [dif_pos hin]
    refine congrArg some (funext fun a => Fin.ext ?_)
    obtain rfl : a = 0 := Subsingleton.elim _ _
    show ((vecScatterDims N E wf).start j idx 0 + (vecScatterDims N E wf).window j 0).toNat = (i 0).val
    rw [vecScatter_window, vecScatter_start, h]
    omega

/-- The scatter of scalars into a vector read at `n`: the operand there plus the sum over every update of the update
    where its index is `n`, zero elsewhere. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Ideal.hostScatterAdd (vecScatterDims N E wf) x idx u (ix1 n)
      = x (ix1 n) + ∑ e : Fin E, if (idx (ix2 e 0)).toInt = (n.val : ℤ) then u (ix1 e) else 0 := by
  unfold Ideal.hostScatterAdd
  refine congrArg (x (ix1 n) + ·) ?_
  rw [Finset.sum_filter, sum_idx1]
  refine Finset.sum_congr rfl fun e _ => ?_
  exact if_congr (vecScatter_resultIdx_iff wf idx (ix1 e) (ix1 n)) rfl rfl

/-- The same for the host operation with any dimension numbers of that form, given by their four fields: a program's own
    record of dimension numbers is used as it stands, its fields read off by `rfl`. -/
theorem host_vecScatterAdd_apply {N E w : Nat} {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (u : (⟨1, ![E]⟩ : Shape).Idx → EReal) (n : Fin N) :
    (Host.scatterAdd (F := Ideal) (φ := φ) d x idx u : (⟨1, ![N]⟩ : Shape).Idx → EReal) (ix1 n)
      = x (ix1 n) + ∑ e : Fin E, if (idx (ix2 e 0)).toInt = (n.val : ℤ) then u (ix1 e) else 0 := by
  obtain ⟨uw, iw, sd, iv, wf⟩ := d
  simp only at h1 h2 h3 h4
  subst h1 h2 h3 h4
  exact vecScatterAdd_apply wf x idx u n

/-! ## Scalars scattered into a matrix -/

/-- The dimension numbers of the scatter of scalars into a matrix: operand `[N, M]`, scatter indices `[E, 2]` (column 0
    the row number, column 1 the column number), updates `[E]`; their conditions `wf` are decided on literal sizes. -/
abbrev pairScatterDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- Where update `j` starts on the row axis: column 0 of its index pair, read signed. -/
theorem pairScatter_start0 {N M E w : Nat}
    (wf : ScatterDims.WF ⟨2, ![N, M]⟩ ⟨2, ![E, 2]⟩ ⟨1, ![E]⟩ [] [0, 1] [0, 1] 1)
    (idx : IVec ⟨2, ![E, 2]⟩ w) (j : (⟨1, ![E]⟩ : Shape).Idx) :
    (pairScatterDims N M E wf).start j idx 0 = (idx (ix2 (j 0) 0)).toInt := by
  unfold ScatterDims.start
  rw [dif_pos (show (0 : Fin 2) ∈ (pairScatterDims N M E wf).scatterDimsToOperandDims from by simp)]
  have hsi : (pairScatterDims N M E wf).siIdx j ⟨List.idxOf (0 : Fin 2) (pairScatterDims N M E wf).scatterDimsToOperandDims,
      List.idxOf_lt_length_iff.2 (by simp)⟩ = ix2 (j 0) 0 := by
    funext b; refine Fin.ext ?_
    match b with
    | ⟨0, _⟩ => rfl
    | ⟨1, _⟩ => rfl
  rw [hsi]
  rfl

/-- Where update `j` starts on the column axis: column 1 of its index pair, read signed. -/
theorem pairScatter_start1 {N M E w : Nat}
    (wf : ScatterDims.WF ⟨2, ![N, M]⟩ ⟨2, ![E, 2]⟩ ⟨1, ![E]⟩ [] [0, 1] [0, 1] 1)
    (idx : IVec ⟨2, ![E, 2]⟩ w) (j : (⟨1, ![E]⟩ : Shape).Idx) :
    (pairScatterDims N M E wf).start j idx 1 = (idx (ix2 (j 0) 1)).toInt := by
  unfold ScatterDims.start
  rw [dif_pos (show (1 : Fin 2) ∈ (pairScatterDims N M E wf).scatterDimsToOperandDims from by simp)]
  have hsi : (pairScatterDims N M E wf).siIdx j ⟨List.idxOf (1 : Fin 2) (pairScatterDims N M E wf).scatterDimsToOperandDims,
      List.idxOf_lt_length_iff.2 (by simp)⟩ = ix2 (j 0) 1 := by
    funext b; refine Fin.ext ?_
    match b with
    | ⟨0, _⟩ => rfl
    | ⟨1, _⟩ => rfl
  rw [hsi]
  rfl

/-- An update has no window coordinate on either operand axis. -/
theorem pairScatter_window {N M E : Nat}
    (wf : ScatterDims.WF ⟨2, ![N, M]⟩ ⟨2, ![E, 2]⟩ ⟨1, ![E]⟩ [] [0, 1] [0, 1] 1)
    (j : (⟨1, ![E]⟩ : Shape).Idx) (a : Fin 2) : (pairScatterDims N M E wf).window j a = 0 := by
  unfold ScatterDims.window
  rw [dif_neg (by
    match a with
    | ⟨0, _⟩ => simp [ScatterDims.sKept, Shape.kept, List.mem_filter, List.mem_finRange]
    | ⟨1, _⟩ => simp [ScatterDims.sKept, Shape.kept, List.mem_filter, List.mem_finRange])]

/-- Update `j` lands at element `i` exactly when its index pair, read signed, is `i`'s row and column. -/
theorem pairScatter_resultIdx_iff {N M E w : Nat}
    (wf : ScatterDims.WF ⟨2, ![N, M]⟩ ⟨2, ![E, 2]⟩ ⟨1, ![E]⟩ [] [0, 1] [0, 1] 1)
    (idx : IVec ⟨2, ![E, 2]⟩ w) (j : (⟨1, ![E]⟩ : Shape).Idx) (i : (⟨2, ![N, M]⟩ : Shape).Idx) :
    (pairScatterDims N M E wf).resultIdx? j idx = some i ↔
      (idx (ix2 (j 0) 0)).toInt = ((i 0).val : ℤ) ∧ (idx (ix2 (j 0) 1)).toInt = ((i 1).val : ℤ) := by
  have hi0 : (i 0).val < N := idx2_lt0 i
  have hi1 : (i 1).val < M := idx2_lt1 i
  unfold ScatterDims.resultIdx?
  constructor
  · intro h
    split at h
    · rename_i hin
      have hv0 : ((pairScatterDims N M E wf).start j idx 0 + (pairScatterDims N M E wf).window j 0).toNat = (i 0).val :=
        congrArg Fin.val (congrFun (Option.some.inj h) 0)
      have hv1 : ((pairScatterDims N M E wf).start j idx 1 + (pairScatterDims N M E wf).window j 1).toNat = (i 1).val :=
        congrArg Fin.val (congrFun (Option.some.inj h) 1)
      have hp0 := (hin 0).1
      have hp1 := (hin 1).1
      rw [pairScatter_window, pairScatter_start0] at hv0 hp0
      rw [pairScatter_window, pairScatter_start1] at hv1 hp1
      omega
    · cases h
  · rintro ⟨h0, h1⟩
    have hin : ∀ a : Fin 2, 0 ≤ (pairScatterDims N M E wf).start j idx a + (pairScatterDims N M E wf).window j a ∧
        (pairScatterDims N M E wf).start j idx a + (pairScatterDims N M E wf).window j a
          < ((⟨2, ![N, M]⟩ : Shape).size a : ℤ) := by
      intro a
      match a with
      | ⟨0, _⟩ =>
        show 0 ≤ (pairScatterDims N M E wf).start j idx 0 + (pairScatterDims N M E wf).window j 0 ∧
          (pairScatterDims N M E wf).start j idx 0 + (pairScatterDims N M E wf).window j 0 < (N : ℤ)
        rw [pairScatter_window, pairScatter_start0, h0]
        omega
      | ⟨1, _⟩ =>
        show 0 ≤ (pairScatterDims N M E wf).start j idx 1 + (pairScatterDims N M E wf).window j 1 ∧
          (pairScatterDims N M E wf).start j idx 1 + (pairScatterDims N M E wf).window j 1 < (M : ℤ)
        rw [pairScatter_window, pairScatter_start1, h1]
        omega
    rw [dif_pos hin]
    refine congrArg some (funext fun a => Fin.ext ?_)
    match a with
    | ⟨0, _⟩ =>
      show ((pairScatterDims N M E wf).start j idx 0 + (pairScatterDims N M E wf).window j 0).toNat = (i 0).val
      rw [pairScatter_window, pairScatter_start0, h0]
      omega
    | ⟨1, _⟩ =>
      show ((pairScatterDims N M E wf).start j idx 1 + (pairScatterDims N M E wf).window j 1).toNat = (i 1).val
      rw [pairScatter_window, pairScatter_start1, h1]
      omega

/-- The scatter of scalars into a matrix read at `(r, s)`: the operand there plus the sum over every update of the
    update where its index pair is `(r, s)`, zero elsewhere. -/
theorem pairScatterAdd_apply {N M E w : Nat}
    (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (u : (⟨1, ![E]⟩ : Shape).Idx → EReal)
    (r : Fin N) (s : Fin M) :
    Ideal.hostScatterAdd (pairScatterDims N M E wf) x idx u (ix2 r s)
      = x (ix2 r s) + ∑ e : Fin E,
          if (idx (ix2 e 0)).toInt = (r.val : ℤ) ∧ (idx (ix2 e 1)).toInt = (s.val : ℤ) then u (ix1 e) else 0 := by
  unfold Ideal.hostScatterAdd
  refine congrArg (x (ix2 r s) + ·) ?_
  rw [Finset.sum_filter, sum_idx1]
  refine Finset.sum_congr rfl fun e _ => ?_
  exact if_congr (pairScatter_resultIdx_iff wf idx (ix1 e) (ix2 r s)) rfl rfl

/-- The same for the host operation with any dimension numbers of that form, given by their four fields: a program's own
    record of dimension numbers is used as it stands, its fields read off by `rfl`. -/
theorem host_pairScatterAdd_apply {N M E w : Nat} {φ : FTy} (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (x : (⟨2, ![N, M]⟩ : Shape).Idx → EReal) (idx : IVec ⟨2, ![E, 2]⟩ w) (u : (⟨1, ![E]⟩ : Shape).Idx → EReal)
    (r : Fin N) (s : Fin M) :
    (Host.scatterAdd (F := Ideal) (φ := φ) d x idx u : (⟨2, ![N, M]⟩ : Shape).Idx → EReal) (ix2 r s)
      = x (ix2 r s) + ∑ e : Fin E,
          if (idx (ix2 e 0)).toInt = (r.val : ℤ) ∧ (idx (ix2 e 1)).toInt = (s.val : ℤ) then u (ix1 e) else 0 := by
  obtain ⟨uw, iw, sd, iv, wf⟩ := d
  simp only at h1 h2 h3 h4
  subst h1 h2 h3 h4
  exact pairScatterAdd_apply wf x idx u r s

end Idealize.ShloMosaic.ScatterAdd2

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.LibCompareBit.lean ====
/-
  A comparison's bit as a float, at the ideal instance.

  A float comparison yields a one-bit word, and a program turns that word into a float in one of two ways: on the
  host the one-bit word is converted as an unsigned integer (a convert from i1 to a float type); in a kernel it is
  zero-extended to 32 bits and the result converted as a signed integer (an extension followed by a signed
  conversion). At the ideal instance both are the extended real 1 when the comparison holds and 0 when it does not
  (`cmpBit`), for every predicate and every float type: a one-bit word is 0 or 1, and zero-extending either to 32
  bits leaves a nonnegative word whose signed and unsigned readings agree.
-/
import Idealize.ShloMosaic.PureOps.Ideal
import Idealize.ShloMosaic.PureOps.Ideal.Laws

noncomputable section

namespace Idealize.ShloMosaic.CompareBit

open Idealize.ShloMosaic

/-- The bit of the comparison p u v as the extended real 1 or 0: the comparison's one-bit word read unsigned. -/
def cmpBit (p : CmpFPredicate) (u v : EReal) : EReal := (((Ideal.cmp p u v).toNat : ℝ) : EReal)

/-- A one-bit word zero-extended to 32 bits and read signed is the word read unsigned. -/
theorem bit_signed_eq (b : BitVec 1) : ((((b.setWidth 32).toInt : ℤ) : ℝ) : EReal) = (((b.toNat : ℕ) : ℝ) : EReal) := by
  have h : (b.setWidth 32).toInt = ((b.toNat : ℕ) : ℤ) := by
    rcases BitVec.eq_zero_or_eq_one b with rfl | rfl <;> decide
  rw [h, Int.cast_natCast]

/-- A kernel's spelling of the bit: compare, zero-extend to 32 bits, convert as a signed integer. -/
theorem signed {φ ψ : FTy} (p : CmpFPredicate) (u v : EReal) :
    FloatOps.sitofp (F := Ideal) φ ((FloatOps.cmpf (F := Ideal) (φ := ψ) p u v).setWidth 32) = cmpBit p u v :=
  bit_signed_eq _

/-- The host's spelling of the bit: compare, convert the one-bit word as an unsigned integer. -/
theorem unsigned {φ ψ : FTy} (p : CmpFPredicate) (u v : EReal) :
    FloatOps.uitofp (F := Ideal) φ (FloatOps.cmpf (F := Ideal) (φ := ψ) p u v) = cmpBit p u v := rfl

end Idealize.ShloMosaic.CompareBit

end
-- ==== Proof.KHost0.lean ====
import proofs.«140405_j8658654068867_2_alg».proof.Proof.Gen.KernelIdeal.Frame
import proofs.«140405_j8658654068867_2_alg».proof.Proof.Layer
import proofs.«140405_j8658654068867_2_alg».proof.Proof.LibHostSegment
import proofs.«140405_j8658654068867_2_alg».proof.Proof.LibScatterAdd2
import proofs.«140405_j8658654068867_2_alg».proof.Proof.LibHostBroadcast
import proofs.«140405_j8658654068867_2_alg».proof.Proof.LibVectorAsMatrix
import proofs.«140405_j8658654068867_2_alg».proof.Proof.LibCompareBit
import Idealize.ShloMosaic.Lib.StableHlo.Run
import Idealize.ShloMosaic.Lib.Pipeline.Value
import Idealize.ShloMosaic.Lib.IdealHost
import Idealize.ShloMosaic.PureOps.Ideal.Laws

set_option maxRecDepth 16384

noncomputable section

open scoped BigOperators

namespace Cert.KernelIdeal.Host

open Cert.KernelIdeal Cert.KernelIdeal.Gen Cert.HyperConv
open Idealize.ShloMosaic Idealize.ShloMosaic.TcCoe Idealize.SL.Sem Idealize.ShloMosaic.StableHlo Idealize.ShloMosaic.ValueIdx
open Idealize.ShloMosaic.SegmentSum Idealize.ShloMosaic.ScatterAdd2 Idealize.ShloMosaic.HostBroadcast Idealize.ShloMosaic.VectorAsMatrix Idealize.ShloMosaic.CompareBit

variable (m : (ℓ : Loc nD τ sig) → Buf (Elt Ideal) ℓ) (ρ : Dev nD → PrngReg)

/-- An a × 1 column repeated across b columns, at `(p, q)`: the column at `p`. -/
theorem col_cols_ix {α : Type} {a b : ℕ} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := col_cols_apply h x (ix2 p q)

/-- A 1 × b row repeated down a rows, at `(p, q)`: the row at `q`. -/
theorem row_rows_ix {α : Type} {a b : ℕ} (h : (⟨2, ![1, b]⟩ : Shape).BroadcastsInDim ⟨2, ![a, b]⟩ ![0, 1])
    (x : (⟨2, ![1, b]⟩ : Shape).Idx → α) (p : Fin a) (q : Fin b) :
    broadcastInDim ⟨2, ![a, b]⟩ ![0, 1] h x (ix2 p q) = x (ix2 (0 : Fin 1) q) := row_rows_apply h x (ix2 p q)

/-- The host's conversion of a one-bit word, and its quotient, act entry by entry. -/
theorem uitofp_ix {s : Shape} {w : Nat} (φ : FTy) (x : IVec s w) (i : s.Idx) :
    (uitofp φ x : FVec Ideal s φ) i = FloatOps.uitofp φ (x i) := rfl
theorem hostDivf_ix {s : Shape} {φ : FTy} (a b : FVec Ideal s φ) (i : s.Idx) :
    Host.divf a b i = Ideal.div (a i) (b i) := rfl

/-! ## The weights and bias rows the hyperedge region finds -/

set_option maxHeartbeats 4000000 in
theorem v30_apply (c : Dev nD) (k j : Fin 128) :
    V1 (F := Ideal) m ρ c main_v30 (ix2 k j) = (m ((c : Thread nD τ).loc main_arg4)) (ix2 j k) := by
  have h : ∃ T, V1 (F := Ideal) m ρ c main_v30 = T ∧ T (ix2 k j) = (m ((c : Thread nD τ).loc main_arg4)) (ix2 j k) := by
    refine ⟨?T, ?h1, ?h2⟩
    case h1 =>
      show StableHlo.after hostOps0 (W0 m ρ c) (Proc.devRef .tc main_v30) = _
      after_results_simp
      rfl
    case h2 =>
      exact transpose_apply [1, 0] _ _ (ix2 k j) (ix2 j k) (fun b => match b with | ⟨0, _⟩ => rfl | ⟨1, _⟩ => rfl)
  obtain ⟨T, hT, hv⟩ := h
  rw [hT]; exact hv

set_option maxHeartbeats 4000000 in
theorem v35_apply (c : Dev nD) (k j : Fin 128) :
    V1 (F := Ideal) m ρ c main_v35 (ix2 k j) = (m ((c : Thread nD τ).loc main_arg6)) (ix2 j k) := by
  have h : ∃ T, V1 (F := Ideal) m ρ c main_v35 = T ∧ T (ix2 k j) = (m ((c : Thread nD τ).loc main_arg6)) (ix2 j k) := by
    refine ⟨?T, ?h1, ?h2⟩
    case h1 =>
      show StableHlo.after hostOps0 (W0 m ρ c) (Proc.devRef .tc main_v35) = _
      after_results_simp
      rfl
    case h2 =>
      exact transpose_apply [1, 0] _ _ (ix2 k j) (ix2 j k) (fun b => match b with | ⟨0, _⟩ => rfl | ⟨1, _⟩ => rfl)
  obtain ⟨T, hT, hv⟩ := h
  rw [hT]; exact hv

set_option maxHeartbeats 4000000 in
theorem v32_apply (c : Dev nD) (k j : Fin 128) :
    V1 (F := Ideal) m ρ c main_v32 (ix2 k j) = (m ((c : Thread nD τ).loc main_arg8)) (ix2 j (lo k)) := by
  have h : ∃ T, V1 (F := Ideal) m ρ c main_v32 = T ∧ T (ix2 k j) = (m ((c : Thread nD τ).loc main_arg8)) (ix2 j (lo k)) := by
    refine ⟨?T, ?h1, ?h2⟩
    case h1 =>
      show StableHlo.after hostOps0 (W0 m ρ c) (Proc.devRef .tc main_v32) = _
      after_results_simp
      rfl
    case h2 =>
      refine (transpose_apply [1, 0] _ _ (ix2 k j) (ix2 j k) (fun b => match b with | ⟨0, _⟩ => rfl | ⟨1, _⟩ => rfl)).trans ?_
      exact extractStridedSlice_apply _ _ _ (ix2 j k) (ix2 j (lo k)) (fun a => match a with
        | ⟨0, _⟩ => (Nat.zero_add _).symm
        | ⟨1, _⟩ => (Nat.zero_add _).symm)
  obtain ⟨T, hT, hv⟩ := h
  rw [hT]; exact hv

set_option maxHeartbeats 4000000 in
theorem v34_apply (c : Dev nD) (k j : Fin 128) :
    V1 (F := Ideal) m ρ c main_v34 (ix2 k j) = (m ((c : Thread nD τ).loc main_arg8)) (ix2 j (hi k)) := by
  have h : ∃ T, V1 (F := Ideal) m ρ c main_v34 = T ∧ T (ix2 k j) = (m ((c : Thread nD τ).loc main_arg8)) (ix2 j (hi k)) := by
    refine ⟨?T, ?h1, ?h2⟩
    case h1 =>
      show StableHlo.after hostOps0 (W0 m ρ c) (Proc.devRef .tc main_v34) = _
      after_results_simp
      rfl
    case h2 =>
      refine (transpose_apply [1, 0] _ _ (ix2 k j) (ix2 j k) (fun b => match b with | ⟨0, _⟩ => rfl | ⟨1, _⟩ => rfl)).trans ?_
      exact extractStridedSlice_apply _ _ _ (ix2 j k) (ix2 j (hi k)) (fun a => match a with
        | ⟨0, _⟩ => (Nat.zero_add _).symm
        | ⟨1, _⟩ => rfl)
  obtain ⟨T, hT, hv⟩ := h
  rw [hT]; exact hv

set_option maxHeartbeats 4000000 in
theorem v36_apply (c : Dev nD) (j : Fin 128) :
    V1 (F := Ideal) m ρ c main_v36 (ix2 (0 : Fin 1) j) = (m ((c : Thread nD τ).loc main_arg9)) (ix1 j) := by
  have h : ∃ T, V1 (F := Ideal) m ρ c main_v36 = T ∧ T (ix2 (0 : Fin 1) j) = (m ((c : Thread nD τ).loc main_arg9)) (ix1 j) := by
    refine ⟨?T, ?h1, ?h2⟩
    case h1 =>
      show StableHlo.after hostOps0 (W0 m ρ c) (Proc.devRef .tc main_v36) = _
      after_results_simp
      rfl
    case h2 =>
      exact row_apply _ _ (0 : Fin 1) j
  obtain ⟨T, hT, hv⟩ := h
  rw [hT]; exact hv

set_option maxHeartbeats 4000000 in
theorem v37_apply (c : Dev nD) (j : Fin 128) :
    V1 (F := Ideal) m ρ c main_v37 (ix2 (0 : Fin 1) j) = (m ((c : Thread nD τ).loc main_arg7)) (ix1 j) := by
  have h : ∃ T, V1 (F := Ideal) m ρ c main_v37 = T ∧ T (ix2 (0 : Fin 1) j) = (m ((c : Thread nD τ).loc main_arg7)) (ix1 j) := by
    refine ⟨?T, ?h1, ?h2⟩
    case h1 =>
      show StableHlo.after hostOps0 (W0 m ρ c) (Proc.devRef .tc main_v37) = _
      after_results_simp
      rfl
    case h2 =>
      exact row_apply _ _ (0 : Fin 1) j
  obtain ⟨T, hT, hv⟩ := h
  rw [hT]; exact hv

set_option maxHeartbeats 4000000 in
theorem v38_apply (c : Dev nD) (j : Fin 128) :
    V1 (F := Ideal) m ρ c main_v38 (ix2 (0 : Fin 1) j) = (m ((c : Thread nD τ).loc main_arg14)) (ix1 j) := by
  have h : ∃ T, V1 (F := Ideal) m ρ c main_v38 = T ∧ T (ix2 (0 : Fin 1) j) = (m ((c : Thread nD τ).loc main_arg14)) (ix1 j) := by
    refine ⟨?T, ?h1, ?h2⟩
    case h1 =>
      show StableHlo.after hostOps0 (W0 m ρ c) (Proc.devRef .tc main_v38) = _
      after_results_simp
      rfl
    case h2 =>
      exact row_apply _ _ (0 : Fin 1) j
  obtain ⟨T, hT, hv⟩ := h
  rw [hT]; exact hv

set_option maxHeartbeats 4000000 in
theorem v39_apply (c : Dev nD) (j : Fin 128) :
    V1 (F := Ideal) m ρ c main_v39 (ix2 (0 : Fin 1) j) = (m ((c : Thread nD τ).loc main_arg15)) (ix1 j) := by
  have h : ∃ T, V1 (F := Ideal) m ρ c main_v39 = T ∧ T (ix2 (0 : Fin 1) j) = (m ((c : Thread nD τ).loc main_arg15)) (ix1 j) := by
    refine ⟨?T, ?h1, ?h2⟩
    case h1 =>
      show StableHlo.after hostOps0 (W0 m ρ c) (Proc.devRef .tc main_v39) = _
      after_results_simp
      rfl
    case h2 =>
      exact row_apply _ _ (0 : Fin 1) j
  obtain ⟨T, hT, hv⟩ := h
  rw [hT]; exact hv

/-- The hyperedge features reach the region as launched. -/
theorem arg1_eq (c : Dev nD) : V1 (F := Ideal) m ρ c main_arg1 = m ((c : Thread nD τ).loc main_arg1) := by
  show StableHlo.after hostOps0 (W0 m ρ c) (Proc.devRef .tc main_arg1) = _
  after_results_simp

/-! ## The incidence count, the mean array and the gated bias -/

/-- Scattering ones by the raw hyperedge index counts, at `e`, the incidences addressed to `e`. -/
theorem count_vec (a3 : IdxVec) (e : Fin 50000) :
    (Host.scatterAdd (F := Ideal) (φ := .f32) scatter_S50000_S1600000x1_S1600000_n_0_0_1
        (broadcastInDim S50000 ![] bcast_S_S50000 (constant (F := Ideal) S_ .f32 0x00000000#32))
        (broadcastInDim S1600000x1 ![0] bcast_S1600000_S1600000x1_0 a3)
        (broadcastInDim S1600000 ![] bcast_S_S1600000 (constant (F := Ideal) S_ .f32 0x3F800000#32))
      : S50000.Idx → EReal) (ix1 e) = deg (tgt a3) e.val := by
  rw [host_vecScatterAdd_apply _ rfl rfl rfl rfl]
  simp only [scalar_apply]
  show Ideal.ofBits .f32 0x00000000#32 + ∑ p : Fin 1600000, (if tgt a3 p = (e.val : ℤ) then Ideal.ofBits .f32 0x3F800000#32 else 0) = _
  rw [Ideal.ofBits_zero_f32, zero_add, Ideal.ofBits_one_f32]
  unfold deg seg
  rw [Finset.sum_filter]

set_option maxHeartbeats 4000000 in
theorem v29_apply (c : Dev nD) (e : Fin 50000) (j : Fin 128) :
    V1 (F := Ideal) m ρ c main_v29 (ix2 e j) = gtBit (deg (tgt (m ((c : Thread nD τ).loc main_arg3))) e.val) 0 * (m ((c : Thread nD τ).loc main_arg5)) (ix1 j) := by
  have h : ∃ T, V1 (F := Ideal) m ρ c main_v29 = T ∧ T (ix2 e j) = gtBit (deg (tgt (m ((c : Thread nD τ).loc main_arg3))) e.val) 0 * (m ((c : Thread nD τ).loc main_arg5)) (ix1 j) := by
    refine ⟨?T, ?h1, ?h2⟩
    case h1 =>
      show StableHlo.after hostOps0 (W0 m ρ c) (Proc.devRef .tc main_v29) = _
      after_results_simp
      rfl
    case h2 =>
      rw [mulf_apply, col_cols_ix, row_rows_ix, uitofp_ix, cmpf_apply, CompareBit.unsigned]
      beta_reduce
      change cmpBit .ogt (shapeCast S50000x1 _ shapeCasts_S50000_S50000x1 (ix2 e (0 : Fin 1))) (broadcastInDim S50000x1 ![] bcast_S_S50000x1 (constant (F := Ideal) S_ .f32 0x00000000#32) (ix2 e (0 : Fin 1))) * shapeCast S1x128 _ shapeCasts_S128_S1x128 (ix2 (0 : Fin 1) j) = _
      rw [col_apply, row_apply, scalar_apply, constant_apply, Ideal.ofBits_zero_f32, count_vec]
      rfl
  obtain ⟨T, hT, hv⟩ := h
  rw [hT]; exact hv

set_option maxHeartbeats 4000000 in
theorem v22_apply (c : Dev nD) (e : Fin 50000) (k : Fin 128) :
    V1 (F := Ideal) m ρ c main_v22 (ix2 e k) = meanX (m ((c : Thread nD τ).loc main_arg0)) (gvOf (m ((c : Thread nD τ).loc main_arg2))) (tgt (m ((c : Thread nD τ).loc main_arg3))) e k := by
  have h : ∃ T, V1 (F := Ideal) m ρ c main_v22 = T ∧ T (ix2 e k) = meanX (m ((c : Thread nD τ).loc main_arg0)) (gvOf (m ((c : Thread nD τ).loc main_arg2))) (tgt (m ((c : Thread nD τ).loc main_arg3))) e k := by
    refine ⟨?T, ?h1, ?h2⟩
    case h1 =>
      show StableHlo.after hostOps0 (W0 m ρ c) (Proc.devRef .tc main_v22) = _
      after_results_simp
      rfl
    case h2 =>
      rw [mulf_apply, col_cols_ix, hostDivf_ix, maximumf_apply, host_rowScatterAdd_apply _ rfl rfl rfl rfl]
      beta_reduce
      simp only [scalar_apply, constant_apply, extf_apply, truncf_apply,
        host_rowGather_apply (N := 100000) (by norm_num) gather_S100000x128_S1600000x1_S1600000x128_1_0_n_n_0_1_1128 rfl rfl rfl rfl rfl rfl rfl]
      change (Ideal.ofBits .f32 0x00000000#32 + _) * Ideal.div (Ideal.ofBits .f32 0x3F800000#32) (max (shapeCast S50000x1 _ shapeCasts_S50000_S50000x1 (ix2 e (0 : Fin 1))) (Ideal.ofBits .f32 0x3F800000#32)) = _
      rw [col_apply, count_vec, Ideal.ofBits_zero_f32, zero_add, Ideal.ofBits_one_f32]
      rfl
  obtain ⟨T, hT, hv⟩ := h
  rw [hT]; exact hv

end Cert.KernelIdeal.Host

end
-- ==== Proof.KHost1.lean ====
/-
  What the vertex region's input buffers hold when the region is entered, read entry by entry.

  Between the hyperedge region and the vertex region the host gathers the rows of the hyperedge region's narrowed
  output by the wrapped hyperedge index, accumulates them by the raw vertex index into 100000 rows, counts the
  incidences of each vertex and multiplies each accumulated row by one over the larger of the count and one; it cuts the
  vertex merge weight into its two 128-column halves and transposes each; and it lays three length-128 vectors out as
  1 × 128 rows. Each theorem reads one of these buffers at an index, in the vocabulary of the layer's specification.
-/
import proofs.«140405_j8658654068867_2_alg».proof.Proof.Gen.KernelIdeal.Frame
import proofs.«140405_j8658654068867_2_alg».proof.Proof.Layer
import proofs.«140405_j8658654068867_2_alg».proof.Proof.LibHostSegment
import proofs.«140405_j8658654068867_2_alg».proof.Proof.LibScatterAdd2
import proofs.«140405_j8658654068867_2_alg».proof.Proof.LibHostBroadcast
import proofs.«140405_j8658654068867_2_alg».proof.Proof.LibVectorAsMatrix
import Idealize.ShloMosaic.Lib.StableHlo.Run
import Idealize.ShloMosaic.Lib.Pipeline.Value
import Idealize.ShloMosaic.Lib.IdealHost
import Idealize.ShloMosaic.PureOps.Ideal.Laws

set_option maxRecDepth 16384

noncomputable section

open scoped BigOperators

namespace Cert.KernelIdeal.Host1

open Cert.KernelIdeal Cert.KernelIdeal.Gen Cert.HyperConv
open Idealize.ShloMosaic Idealize.ShloMosaic.TcCoe Idealize.SL.Sem Idealize.ShloMosaic.StableHlo Idealize.ShloMosaic.ValueIdx
open Idealize.ShloMosaic.SegmentSum Idealize.ShloMosaic.ScatterAdd2 Idealize.ShloMosaic.HostBroadcast Idealize.ShloMosaic.VectorAsMatrix

variable (m : (ℓ : Loc nD τ sig) → Buf (Elt Ideal) ℓ) (ρ : Dev nD → PrngReg)

/-- An a × 1 column repeated across b columns, at (p, q): the column at p. -/
theorem col_cols_ix {α : Type} {a b : ℕ} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := col_cols_apply h x (ix2 p q)

/-- The host's quotient acts entry by entry. -/
theorem hostDivf_ix {s : Shape} {φ : FTy} (a b : FVec Ideal s φ) (i : s.Idx) :
    Host.divf a b i = Ideal.div (a i) (b i) := rfl

/-! ## The argument arrays are still as launched when the hyperedge region has run -/

set_option maxHeartbeats 4000000 in
theorem W2_arg0 (c : Dev nD) :
    W2 (F := Ideal) m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results_simp

set_option maxHeartbeats 4000000 in
theorem W2_arg2 (c : Dev nD) :
    W2 (F := Ideal) m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp

set_option maxHeartbeats 4000000 in
theorem W2_arg3 (c : Dev nD) :
    W2 (F := Ideal) m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp

set_option maxHeartbeats 4000000 in
theorem W2_arg10 (c : Dev nD) :
    W2 (F := Ideal) m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp

set_option maxHeartbeats 4000000 in
theorem W2_arg11 (c : Dev nD) :
    W2 (F := Ideal) m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results_simp

set_option maxHeartbeats 4000000 in
theorem W2_arg12 (c : Dev nD) :
    W2 (F := Ideal) m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results_simp

set_option maxHeartbeats 4000000 in
theorem W2_arg13 (c : Dev nD) :
    W2 (F := Ideal) m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results_simp

/-! ## The three bias and gain rows -/

set_option maxHeartbeats 4000000 in
theorem v67_apply (c : Dev nD) (j : Fin 128) :
    V3 (F := Ideal) m ρ c main_v67 (ix2 (0 : Fin 1) j) = (m ((c : Thread nD τ).loc main_arg11)) (ix1 j) := by
  have h : ∃ T, V3 (F := Ideal) m ρ c main_v67 = T ∧ T (ix2 (0 : Fin 1) j) = (m ((c : Thread nD τ).loc main_arg11)) (ix1 j) := by
    refine ⟨?T, ?h1, ?h2⟩
    case h1 =>
      show StableHlo.after hostOps1 (W2 m ρ c) (Proc.devRef .tc main_v67) = _
      after_results_simp
      rfl
    case h2 =>
      rw [W2_arg11]
      exact row_apply _ _ (0 : Fin 1) j
  obtain ⟨T, hT, hv⟩ := h
  rw [hT]; exact hv

set_option maxHeartbeats 4000000 in
theorem v68_apply (c : Dev nD) (j : Fin 128) :
    V3 (F := Ideal) m ρ c main_v68 (ix2 (0 : Fin 1) j) = (m ((c : Thread nD τ).loc main_arg12)) (ix1 j) := by
  have h : ∃ T, V3 (F := Ideal) m ρ c main_v68 = T ∧ T (ix2 (0 : Fin 1) j) = (m ((c : Thread nD τ).loc main_arg12)) (ix1 j) := by
    refine ⟨?T, ?h1, ?h2⟩
    case h1 =>
      show StableHlo.after hostOps1 (W2 m ρ c) (Proc.devRef .tc main_v68) = _
      after_results_simp
      rfl
    case h2 =>
      rw [W2_arg12]
      exact row_apply _ _ (0 : Fin 1) j
  obtain ⟨T, hT, hv⟩ := h
  rw [hT]; exact hv

set_option maxHeartbeats 4000000 in
theorem v69_apply (c : Dev nD) (j : Fin 128) :
    V3 (F := Ideal) m ρ c main_v69 (ix2 (0 : Fin 1) j) = (m ((c : Thread nD τ).loc main_arg13)) (ix1 j) := by
  have h : ∃ T, V3 (F := Ideal) m ρ c main_v69 = T ∧ T (ix2 (0 : Fin 1) j) = (m ((c : Thread nD τ).loc main_arg13)) (ix1 j) := by
    refine ⟨?T, ?h1, ?h2⟩
    case h1 =>
      show StableHlo.after hostOps1 (W2 m ρ c) (Proc.devRef .tc main_v69) = _
      after_results_simp
      rfl
    case h2 =>
      rw [W2_arg13]
      exact row_apply _ _ (0 : Fin 1) j
  obtain ⟨T, hT, hv⟩ := h
  rw [hT]; exact hv

/-! ## The two halves of the vertex merge weight, transposed -/

set_option maxHeartbeats 4000000 in
theorem v64_apply (c : Dev nD) (k j : Fin 128) :
    V3 (F := Ideal) m ρ c main_v64 (ix2 k j) = (m ((c : Thread nD τ).loc main_arg10)) (ix2 j (lo k)) := by
  have h : ∃ T, V3 (F := Ideal) m ρ c main_v64 = T ∧ T (ix2 k j) = (m ((c : Thread nD τ).loc main_arg10)) (ix2 j (lo k)) := by
    refine ⟨?T, ?h1, ?h2⟩
    case h1 =>
      show StableHlo.after hostOps1 (W2 m ρ c) (Proc.devRef .tc main_v64) = _
      after_results_simp
      rfl
    case h2 =>
      rw [W2_arg10]
      refine (transpose_apply [1, 0] _ _ (ix2 k j) (ix2 j k) (fun b => match b with | ⟨0, _⟩ => rfl | ⟨1, _⟩ => rfl)).trans ?_
      exact extractStridedSlice_apply _ _ _ (ix2 j k) (ix2 j (lo k)) (fun a => match a with
        | ⟨0, _⟩ => (Nat.zero_add _).symm
        | ⟨1, _⟩ => (Nat.zero_add _).symm)
  obtain ⟨T, hT, hv⟩ := h
  rw [hT]; exact hv

set_option maxHeartbeats 4000000 in
theorem v66_apply (c : Dev nD) (k j : Fin 128) :
    V3 (F := Ideal) m ρ c main_v66 (ix2 k j) = (m ((c : Thread nD τ).loc main_arg10)) (ix2 j (hi k)) := by
  have h : ∃ T, V3 (F := Ideal) m ρ c main_v66 = T ∧ T (ix2 k j) = (m ((c : Thread nD τ).loc main_arg10)) (ix2 j (hi k)) := by
    refine ⟨?T, ?h1, ?h2⟩
    case h1 =>
      show StableHlo.after hostOps1 (W2 m ρ c) (Proc.devRef .tc main_v66) = _
      after_results_simp
      rfl
    case h2 =>
      rw [W2_arg10]
      refine (transpose_apply [1, 0] _ _ (ix2 k j) (ix2 j k) (fun b => match b with | ⟨0, _⟩ => rfl | ⟨1, _⟩ => rfl)).trans ?_
      exact extractStridedSlice_apply _ _ _ (ix2 j k) (ix2 j (hi k)) (fun a => match a with
        | ⟨0, _⟩ => (Nat.zero_add _).symm
        | ⟨1, _⟩ => rfl)
  obtain ⟨T, hT, hv⟩ := h
  rw [hT]; exact hv

/-! ## The vertex features reach the region as launched -/

set_option maxHeartbeats 4000000 in
theorem arg0_eq (c : Dev nD) : V3 (F := Ideal) m ρ c main_arg0 = m ((c : Thread nD τ).loc main_arg0) := by
  show StableHlo.after hostOps1 (W2 m ρ c) (Proc.devRef .tc main_arg0) = _
  after_results_simp
  exact W2_arg0 m ρ c

/-! ## The incidence count and the message array -/

/-- Scattering ones by the raw vertex index counts, at v, the incidences addressed to v. -/
theorem count_vec (a2 : IdxVec) (v : Fin 100000) :
    (Host.scatterAdd (F := Ideal) (φ := .f32) scatter_S100000_S1600000x1_S1600000_n_0_0_1
        (broadcastInDim S100000 ![] Gen.bcast_S_S100000 (constant (F := Ideal) S_ .f32 0x00000000#32))
        (broadcastInDim S1600000x1 ![0] Gen.bcast_S1600000_S1600000x1_0 a2)
        (broadcastInDim S1600000 ![] Gen.bcast_S_S1600000 (constant (F := Ideal) S_ .f32 0x3F800000#32))
      : S100000.Idx → EReal) (ix1 v) = deg (tgt a2) v.val := by
  rw [host_vecScatterAdd_apply _ rfl rfl rfl rfl]
  simp only [scalar_apply]
  show Ideal.ofBits .f32 0x00000000#32
    + ∑ p : Fin 1600000, (if tgt a2 p = (v.val : ℤ) then Ideal.ofBits .f32 0x3F800000#32 else 0) = _
  rw [Ideal.ofBits_zero_f32, zero_add, Ideal.ofBits_one_f32]
  unfold deg seg
  rw [Finset.sum_filter]

set_option maxHeartbeats 4000000 in
/-- The message array: at (v, k), the sum over the incidences addressed to v of the gathered hyperedge rows' entry k,
    times one over the larger of v's incidence count and one. -/
theorem v62_apply (c : Dev nD) (v : Fin 100000) (k : Fin 128) :
    V3 (F := Ideal) m ρ c main_v62 (ix2 v k)
      = msgVK (geOf (m ((c : Thread nD τ).loc main_arg3))) (tgt (m ((c : Thread nD τ).loc main_arg2)))
          (fun e k' => (W2 (F := Ideal) m ρ c (Proc.devRef .tc main_v40_1) : Mat 50000 128) (ix2 e k')) v k := by
  have h : ∃ T, V3 (F := Ideal) m ρ c main_v62 = T ∧ T (ix2 v k)
      = msgVK (geOf (m ((c : Thread nD τ).loc main_arg3))) (tgt (m ((c : Thread nD τ).loc main_arg2)))
          (fun e k' => (W2 (F := Ideal) m ρ c (Proc.devRef .tc main_v40_1) : Mat 50000 128) (ix2 e k')) v k := by
    refine ⟨?T, ?h1, ?h2⟩
    case h1 =>
      show StableHlo.after hostOps1 (W2 m ρ c) (Proc.devRef .tc main_v62) = _
      after_results_simp
      rfl
    case h2 =>
      rw [W2_arg2, W2_arg3]
      rw [mulf_apply, col_cols_ix, hostDivf_ix, maximumf_apply, host_rowScatterAdd_apply _ rfl rfl rfl rfl]
      beta_reduce
      simp only [scalar_apply, constant_apply, extf_apply, truncf_apply,
        host_rowGather_apply (N := 50000) (by norm_num) gather_S50000x128_S1600000x1_S1600000x128_1_0_n_n_0_1_1128
          rfl rfl rfl rfl rfl rfl rfl]
      change (Ideal.ofBits .f32 0x00000000#32 + _)
        * Ideal.div (Ideal.ofBits .f32 0x3F800000#32)
            (max (shapeCast S100000x1 _ Gen.shapeCasts_S100000_S100000x1 (ix2 v (0 : Fin 1)))
              (Ideal.ofBits .f32 0x3F800000#32)) = _
      rw [col_apply, count_vec, Ideal.ofBits_zero_f32, zero_add, Ideal.ofBits_one_f32]
      rfl
  obtain ⟨T, hT, hv⟩ := h
  rw [hT]; exact hv

end Cert.KernelIdeal.Host1

end
-- ==== Proof.KValue.lean ====
/-
  The idealized kernel's two returned buffers, at the contents of the last segment boundary, are the kernel form of the
  layer on the argument arrays. The hyperedge output: the boundary's fold leaves it at what the hyperedge region wrote
  (no later host operation and not the vertex region touch it), the region wrote the normalised rows of `Ym`, and the
  region's input arrays are the mean array, the gated bias, the transposed weights and the bias rows of the first host
  stretch. The vertex output: what the vertex region wrote, from the vertex features and the message array of the
  second host stretch, which gathers the hyperedge region's unnormalised output.
-/
import proofs.«140405_j8658654068867_2_alg».proof.Proof.KRegion
import proofs.«140405_j8658654068867_2_alg».proof.Proof.KHost0
import proofs.«140405_j8658654068867_2_alg».proof.Proof.KHost1
import proofs.«140405_j8658654068867_2_alg».proof.Proof.Layer

set_option maxRecDepth 16384

noncomputable section

open scoped BigOperators

namespace Cert.KernelIdeal.KValue

open Cert.KernelIdeal Cert.KernelIdeal.Gen Cert.HyperConv
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- What the hyperedge region's weight buffers hold: the first host stretch's transposes, slices and reshapes. -/
theorem weights0 (c : Dev nD) : Region.Weights0 (V1 (F := Ideal) m ρ) c (m ((c : Thread nD τ).loc main_arg4)) (m ((c : Thread nD τ).loc main_arg6)) (m ((c : Thread nD τ).loc main_arg8)) (m ((c : Thread nD τ).loc main_arg9)) (m ((c : Thread nD τ).loc main_arg7)) (m ((c : Thread nD τ).loc main_arg14)) (m ((c : Thread nD τ).loc main_arg15)) where
  wtv := Host.v30_apply m ρ c
  wey := Host.v32_apply m ρ c
  wem := Host.v34_apply m ρ c
  bem := Host.v36_apply m ρ c
  wte := Host.v35_apply m ρ c
  bte := Host.v37_apply m ρ c
  gain := Host.v38_apply m ρ c
  offs := Host.v39_apply m ρ c

/-- What the vertex region's weight buffers hold: the second host stretch's slices, transposes and reshapes. -/
theorem weights1 (c : Dev nD) : Region.Weights1 (V3 (F := Ideal) m ρ) c (m ((c : Thread nD τ).loc main_arg10)) (m ((c : Thread nD τ).loc main_arg11)) (m ((c : Thread nD τ).loc main_arg12)) (m ((c : Thread nD τ).loc main_arg13)) where
  wvx := Host1.v64_apply m ρ c
  wvm := Host1.v66_apply m ρ c
  bvm := Host1.v67_apply m ρ c
  gain := Host1.v68_apply m ρ c
  offs := Host1.v69_apply m ρ c

/-- The hyperedge region's unnormalised rows are the kernel form's `Ym`: its mean array is `meanX`, its gated-bias
    array the gate bit times the bias. -/
theorem ymRow_eq (c : Dev nD) (e : Fin 50000) (j : Fin 128) :
    Region.ymRow (V1 (F := Ideal) m ρ) (m ((c : Thread nD τ).loc main_arg4)) (m ((c : Thread nD τ).loc main_arg6)) (m ((c : Thread nD τ).loc main_arg8)) (m ((c : Thread nD τ).loc main_arg9)) (m ((c : Thread nD τ).loc main_arg7)) c e j = YmK (m ((c : Thread nD τ).loc main_arg0)) (m ((c : Thread nD τ).loc main_arg1)) (gvOf (m ((c : Thread nD τ).loc main_arg2))) (tgt (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e j := by
  unfold Region.ymRow Region.ymRowOf YmK ymK msgK
  rw [Host.arg1_eq]
  refine congrArg (fun f : Fin 128 → EReal =>
    lin (m ((c : Thread nD τ).loc main_arg6)) (m ((c : Thread nD τ).loc main_arg7)) (merge (m ((c : Thread nD τ).loc main_arg8)) (m ((c : Thread nD τ).loc main_arg9)) (fun k => (m ((c : Thread nD τ).loc main_arg1)) (ix2 e k)) f) j) (funext fun k => ?_)
  rw [Host.v29_apply]
  refine congrArg₂ (fun x y : EReal => x + y) ?_ rfl
  exact Finset.sum_congr rfl fun k' _ => by rw [Host.v22_apply]

/-- The hyperedge output. -/
theorem yo_eq (c : Dev nD) :
    W4 (F := Ideal) m ρ c (Proc.devRef .tc main_v40_0)
      = YoKA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg14)) (m ((c : Thread nD τ).loc main_arg15)) := by
  have h1 : W4 (F := Ideal) m ρ c (Proc.devRef .tc main_v40_0) = W3 m ρ c (Proc.devRef .tc main_v40_0) :=
    W4_of_ne m ρ c main_v40_0 (by decide)
  have h2 : W3 (F := Ideal) m ρ c (Proc.devRef .tc main_v40_0) = W2 m ρ c (Proc.devRef .tc main_v40_0) := by
    show StableHlo.after hostOps1 (W2 m ρ c) (Proc.devRef .tc main_v40_0) = _
    after_results_simp
  have h3 : W2 (F := Ideal) m ρ c (Proc.devRef .tc main_v40_0) = (dat0 (V1 m ρ) c).arrAt 11 cfg0.N := W2_arr m ρ c 11
  rw [h1, h2, h3, Region.final11 (V1 m ρ) (m ((c : Thread nD τ).loc main_arg4)) (m ((c : Thread nD τ).loc main_arg6)) (m ((c : Thread nD τ).loc main_arg8)) (m ((c : Thread nD τ).loc main_arg9)) (m ((c : Thread nD τ).loc main_arg7)) (m ((c : Thread nD τ).loc main_arg14)) (m ((c : Thread nD τ).loc main_arg15)) c (weights0 m ρ c)]
  funext i
  show normRelu (m ((c : Thread nD τ).loc main_arg14)) (m ((c : Thread nD τ).loc main_arg15)) (Region.ymRow (V1 (F := Ideal) m ρ) (m ((c : Thread nD τ).loc main_arg4)) (m ((c : Thread nD τ).loc main_arg6)) (m ((c : Thread nD τ).loc main_arg8)) (m ((c : Thread nD τ).loc main_arg9)) (m ((c : Thread nD τ).loc main_arg7)) c (i 0)) (i 1)
    = normRelu (m ((c : Thread nD τ).loc main_arg14)) (m ((c : Thread nD τ).loc main_arg15)) (YmK (m ((c : Thread nD τ).loc main_arg0)) (m ((c : Thread nD τ).loc main_arg1)) (gvOf (m ((c : Thread nD τ).loc main_arg2))) (tgt (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0)) (i 1)
  rw [show Region.ymRow (V1 (F := Ideal) m ρ) (m ((c : Thread nD τ).loc main_arg4)) (m ((c : Thread nD τ).loc main_arg6)) (m ((c : Thread nD τ).loc main_arg8)) (m ((c : Thread nD τ).loc main_arg9)) (m ((c : Thread nD τ).loc main_arg7)) c (i 0) = YmK (m ((c : Thread nD τ).loc main_arg0)) (m ((c : Thread nD τ).loc main_arg1)) (gvOf (m ((c : Thread nD τ).loc main_arg2))) (tgt (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0)
    from funext fun j => ymRow_eq m ρ c (i 0) j]

/-- The hyperedge region's second output, which the second host stretch gathers: the kernel form's `Ym`. -/
theorem ym_arr (c : Dev nD) :
    (fun (e : Fin 50000) (k : Fin 128) => (W2 (F := Ideal) m ρ c (Proc.devRef .tc main_v40_1) : Mat 50000 128) (ix2 e k))
      = YmK (m ((c : Thread nD τ).loc main_arg0)) (m ((c : Thread nD τ).loc main_arg1)) (gvOf (m ((c : Thread nD τ).loc main_arg2))) (tgt (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h3 : W2 (F := Ideal) m ρ c (Proc.devRef .tc main_v40_1) = (dat0 (V1 m ρ) c).arrAt 12 cfg0.N := W2_arr m ρ c 12
  funext e k
  rw [h3, Region.final12 (V1 m ρ) (m ((c : Thread nD τ).loc main_arg4)) (m ((c : Thread nD τ).loc main_arg6)) (m ((c : Thread nD τ).loc main_arg8)) (m ((c : Thread nD τ).loc main_arg9)) (m ((c : Thread nD τ).loc main_arg7)) (m ((c : Thread nD τ).loc main_arg14)) (m ((c : Thread nD τ).loc main_arg15)) c (weights0 m ρ c)]
  exact ymRow_eq m ρ c e k

/-- The vertex output. -/
theorem xo_eq (c : Dev nD) :
    W4 (F := Ideal) m ρ c (Proc.devRef .tc main_v70)
      = XoKA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h1 : W4 (F := Ideal) m ρ c (Proc.devRef .tc main_v70) = (dat1 (V3 m ρ) c).arrAt 7 cfg1.N := W4_arr m ρ c 7
  rw [h1, Region.final7 (V3 m ρ) (m ((c : Thread nD τ).loc main_arg10)) (m ((c : Thread nD τ).loc main_arg11)) (m ((c : Thread nD τ).loc main_arg12)) (m ((c : Thread nD τ).loc main_arg13)) c (weights1 m ρ c)]
  funext i
  obtain ⟨v, q, rfl⟩ : ∃ (v : Fin 100000) (q : Fin 128), i = ix2 v q := ⟨i 0, i 1, eq_ix2 i⟩
  show Region.xoRowOf (m ((c : Thread nD τ).loc main_arg10)) (m ((c : Thread nD τ).loc main_arg11)) (m ((c : Thread nD τ).loc main_arg12)) (m ((c : Thread nD τ).loc main_arg13)) (V3 (F := Ideal) m ρ c main_arg0) (V3 (F := Ideal) m ρ c main_v62) v q
    = XoK (m ((c : Thread nD τ).loc main_arg0)) (m ((c : Thread nD τ).loc main_arg1)) (gvOf (m ((c : Thread nD τ).loc main_arg2))) (geOf (m ((c : Thread nD τ).loc main_arg3))) (tgt (m ((c : Thread nD τ).loc main_arg2))) (tgt (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) v q
  unfold Region.xoRowOf XoK xmK
  have hX : (fun k : Fin 128 => (V3 (F := Ideal) m ρ c main_arg0 : Mat 100000 128) (ix2 v k))
      = fun k => (m ((c : Thread nD τ).loc main_arg0)) (ix2 v k) := by
    rw [Host1.arg0_eq]
  have hMV : (fun k : Fin 128 => (V3 (F := Ideal) m ρ c main_v62 : Mat 100000 128) (ix2 v k))
      = msgVK (geOf (m ((c : Thread nD τ).loc main_arg3))) (tgt (m ((c : Thread nD τ).loc main_arg2))) (YmK (m ((c : Thread nD τ).loc main_arg0)) (m ((c : Thread nD τ).loc main_arg1)) (gvOf (m ((c : Thread nD τ).loc main_arg2))) (tgt (m ((c : Thread nD τ).loc main_arg3))) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) v := by
    funext k
    rw [Host1.v62_apply, ym_arr]
  rw [hX, hMV]

end Cert.KernelIdeal.KValue

end
-- ==== Proof.LibConcatCols.lean ====
/-
  Two matrices with the same number of rows laid side by side along the columns, read at an index.

  The concatenation of an R x A array and an R x B array along axis 1 is an R x C array with C = A + B. Entry (r, k)
  is the first array's entry (r, k) when k < A and the second's entry (r, k - A) otherwise. This is what
  jnp.concatenate([x, y], axis=-1) holds, for any element type, on a block of rows as on the whole arrays; two such
  rows agree entry by entry when their halves do.
-/
import Idealize.ShloMosaic.Lib.Pipeline.Value
import Idealize.ShloMosaic.Lib.ValueIdx

namespace Idealize.ShloMosaic.ConcatCols

open Idealize.ShloMosaic Idealize.ShloMosaic.ValueIdx

variable {α : Type} {R R' A B C : Nat}

/-- Entry k of row r of an R x A array and an R x B array laid side by side. -/
def catRow (hC : C = A + B) (x : (⟨2, ![R, A]⟩ : Shape).Idx → α) (y : (⟨2, ![R, B]⟩ : Shape).Idx → α)
    (r : Fin R) (k : Fin C) : α :=
  if h : k.val < A then x (ix2 r ⟨k.val, h⟩) else y (ix2 r ⟨k.val - A, by have := k.isLt; omega⟩)

/-- The concatenation along axis 1, read at (r, k). -/
theorem concat_cols_apply (hC : C = A + B) (x : (⟨2, ![R, A]⟩ : Shape).Idx → α) (y : (⟨2, ![R, B]⟩ : Shape).Idx → α)
    (h : Shape.Concatenates [(⟨2, ![R, A]⟩ : Shape), (⟨2, ![R, B]⟩ : Shape)] (⟨2, ![R, C]⟩ : Shape) 1)
    (r : Fin R) (k : Fin C) :
    concatenate (⟨2, ![R, C]⟩ : Shape) 1 [⟨(⟨2, ![R, A]⟩ : Shape), x⟩, ⟨(⟨2, ![R, B]⟩ : Shape), y⟩] h (ix2 r k)
      = catRow hC x y r k := by
  unfold catRow
  split
  · rename_i hk
    exact concatenate_pair_apply_left (1 : Fin 2) x y h (ix2 r k) rfl (ix2 r ⟨k.val, hk⟩)
      (fun b => match b with | ⟨0, _⟩ => rfl | ⟨1, _⟩ => rfl)
  · rename_i hk
    exact concatenate_pair_apply_right (1 : Fin 2) x y h (ix2 r k) rfl rfl (ix2 r ⟨k.val - A, by have := k.isLt; omega⟩)
      (fun b hb => match b, hb with
        | ⟨0, _⟩, _ => rfl
        | ⟨1, _⟩, hb => absurd rfl hb)
      (by show (k.val - A) + A = k.val; omega)

/-- Two side-by-side rows agree at every entry when their left halves agree and their right halves agree. -/
theorem catRow_congr (hC : C = A + B)
    {x : (⟨2, ![R, A]⟩ : Shape).Idx → α} {y : (⟨2, ![R, B]⟩ : Shape).Idx → α}
    {x' : (⟨2, ![R', A]⟩ : Shape).Idx → α} {y' : (⟨2, ![R', B]⟩ : Shape).Idx → α} {r : Fin R} {r' : Fin R'}
    (hx : ∀ k : Fin A, x (ix2 r k) = x' (ix2 r' k)) (hy : ∀ k : Fin B, y (ix2 r k) = y' (ix2 r' k)) (k : Fin C) :
    catRow hC x y r k = catRow hC x' y' r' k := by
  unfold catRow
  split
  · exact hx _
  · exact hy _

end Idealize.ShloMosaic.ConcatCols
-- ==== Proof.RefValue.lean ====
/-
  The reference program's two results, read element by element, are the reference form of the hypergraph-convolution
  layer on the argument arrays.

  Each stage of the layer is read at an index from the operations that compute it: the dense map of the vertex rows,
  the wrapped and the raw index columns, the row gather and the accumulating row scatter (a segment sum), the count of
  incidences as a segment sum of ones, the mean as a quotient by max (count, 1), the side-by-side row contracted against
  all 256 columns of a merge weight, the second dense map, the same aggregation back to the vertices, and last the row
  normalisation followed by the positive part.
-/
import proofs.«140405_j8658654068867_2_alg».proof.Proof.Gen.ReferenceIdeal.Read
import proofs.«140405_j8658654068867_2_alg».proof.Proof.Layer
import proofs.«140405_j8658654068867_2_alg».proof.Proof.LibSegmentSum
import proofs.«140405_j8658654068867_2_alg».proof.Proof.LibRowScatter
import proofs.«140405_j8658654068867_2_alg».proof.Proof.LibConcatCols
import proofs.«140405_j8658654068867_2_alg».proof.Proof.LibHostSegment
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.SegmentSum
  Idealize.ShloMosaic.ConcatCols Cert.HyperConv

/-- A float array, and a 32-bit index array, of a given shape at the ideal instance. -/
abbrev FB (s : Shape) := (⟨s, .f32⟩ : BufTy).Contents (Elt Ideal)
abbrev IB (s : Shape) := (⟨s, .i32⟩ : BufTy).Contents (Elt Ideal)

section
variable (x0 : FB S100000x128) (x1 : FB S50000x128) (x2 x3 : IB S1600000) (x4 : FB S128x128) (x5 : FB S128)
  (x6 : FB S128x128) (x7 : FB S128) (x8 : FB S128x256) (x9 : FB S128) (x10 : FB S128x256) (x11 x12 x13 x14 x15 : FB S128)

/-! ## The dense map of the vertex rows -/

/-- The dense map of the vertex rows, at row v and column j. -/
theorem xp_apply (v : Fin 100000) (j : Fin 128) :
    val_main_v4 (F := Ideal) x0 x4 x5 (ix2 v j) = lin x4 x5 (fun k => x0 (ix2 v k)) j := by
  rw [val_main_v4_apply, val_main_v1_apply, val_main_v3_apply, val_main_v2_apply]
  simp only [val_main_v0_apply]
  have h1 : ∀ k : Fin 128, lidx_main_v1 (ix2 v j) k = ix2 v k :=
    fun k => funext fun a => match a with | ⟨0, _⟩ => rfl | ⟨1, _⟩ => rfl
  have h2 : ∀ k : Fin 128, idx_main_v0 (ridx_main_v1 (ix2 v j) k) = ix2 j k :=
    fun k => funext fun a => match a with | ⟨0, _⟩ => rfl | ⟨1, _⟩ => rfl
  have h3 : idx_main_v2 (idx_main_v3 (ix2 v j)) = ix1 j :=
    funext fun a => match a with | ⟨0, _⟩ => rfl
  simp only [h1, h2, h3]
  unfold lin
  rw [Ideal.addf_def]

/-! ## The index columns

The wrapped column (a negative index has the row count added) and the raw column are spelt by the program in the very
operations that define them. -/

theorem wrap2_eq : val_main_v10 (F := Ideal) x2 = wrapCol 100000#32 x2 := rfl
theorem raw3_eq : val_main_v13 (F := Ideal) x3 = rawCol x3 := rfl
theorem raw3'_eq : val_main_v17 (F := Ideal) x3 = rawCol x3 := rfl
theorem wrap3_eq : val_main_v39 (F := Ideal) x3 = wrapCol 50000#32 x3 := rfl
theorem raw2_eq : val_main_v42 (F := Ideal) x2 = rawCol x2 := rfl
theorem raw2'_eq : val_main_v46 (F := Ideal) x2 = rawCol x2 := rfl

/-! ## The aggregation to the hyperedges -/

theorem gatherV_dims : gather_S100000x128_S1600000x1_S1600000x128_1_0_n_n_0_1_1128
    = rowGatherDims 100000 1600000 128 gather_S100000x128_S1600000x1_S1600000x128_1_0_n_n_0_1_1128_wf := rfl

/-- The gathered row of incidence p is the mapped row of the vertex it reads. -/
theorem gatherV_apply (p : Fin 1600000) (j : Fin 128) :
    val_main_v11 (F := Ideal) x0 x2 x4 x5 (ix2 p j) = val_main_v4 (F := Ideal) x0 x4 x5 (ix2 (gvOf x2 p) j) := by
  unfold val_main_v11
  rw [gatherV_dims, rowGather_apply (by norm_num : 0 < 100000)]
  rfl

/-- The accumulated rows read at an index: the zero operand plus the sum of the update rows addressed to e. -/
theorem scatterE_apply (e : Fin 50000) (j : Fin 128) :
    val_main_v14 (F := Ideal) x0 x2 x3 x4 x5 (ix2 e j)
      = val_main_v12 (F := Ideal) (ix2 e j)
        + ∑ p ∈ Finset.univ.filter (fun p : Fin 1600000 => (val_main_v13 (F := Ideal) x3 (ix2 p 0)).toInt = (e.val : ℤ)),
            val_main_v11 (F := Ideal) x0 x2 x4 x5 (ix2 p j) :=
  host_rowScatterAdd_apply scatter_S50000x128_S1600000x1_S1600000x128_1_0_0_1 rfl rfl rfl rfl _ _ _ e j

theorem segE_apply (e : Fin 50000) (j : Fin 128) :
    val_main_v14 (F := Ideal) x0 x2 x3 x4 x5 (ix2 e j)
      = seg (tgt x3) e.val (fun p => lin x4 x5 (fun k => x0 (ix2 (gvOf x2 p) k)) j) := by
  rw [scatterE_apply, val_main_v12_apply, val_main_cst_apply, Ideal.ofBits_def, Ideal.ofBits_zero_f32, zero_add]
  unfold seg tgt
  rw [raw3_eq]
  refine Finset.sum_congr rfl (fun p _ => ?_)
  rw [gatherV_apply, xp_apply]

/-- The count of incidences read at an index: the zero operand plus a sum of the one word over the incidences
    addressed to e. -/
theorem countE_apply (e : Fin 50000) :
    val_main_v18 (F := Ideal) x3 (ix2 e (0 : Fin 1))
      = val_main_v16 (F := Ideal) (ix2 e (0 : Fin 1))
        + ∑ p ∈ Finset.univ.filter (fun p : Fin 1600000 => (val_main_v17 (F := Ideal) x3 (ix2 p 0)).toInt = (e.val : ℤ)),
            val_main_v15 (F := Ideal) (ix2 p (0 : Fin 1)) :=
  host_rowScatterAdd_apply scatter_S50000x1_S1600000x1_S1600000x1_1_0_0_1 rfl rfl rfl rfl _ _ _ e 0

/-- The count of incidences of hyperedge e is its degree. -/
theorem degE_apply (e : Fin 50000) : val_main_v18 (F := Ideal) x3 (ix2 e (0 : Fin 1)) = deg (tgt x3) e.val := by
  rw [countE_apply, val_main_v16_apply, val_main_cst_2_apply, Ideal.ofBits_def, Ideal.ofBits_zero_f32, zero_add]
  unfold deg seg tgt
  rw [raw3'_eq]
  refine Finset.sum_congr rfl (fun p _ => ?_)
  rw [val_main_v15_apply, val_main_cst_1_apply, Ideal.ofBits_def, Ideal.ofBits_one_f32]

/-- The message to hyperedge e: the accumulated rows divided by max (degree, 1). -/
theorem msgE_apply (e : Fin 50000) (j : Fin 128) :
    val_main_v22 (F := Ideal) x0 x2 x3 x4 x5 (ix2 e j) = msgR x0 (gvOf x2) (tgt x3) x4 x5 e j := by
  unfold msgR
  have h : idx_main_v21 (ix2 e j) = ix2 e (0 : Fin 1) :=
    funext fun a => match a with | ⟨0, _⟩ => rfl | ⟨1, _⟩ => rfl
  rw [val_main_v22_apply, val_main_v21_apply, Ideal.hostDivf_def, segE_apply, h, val_main_v20_apply,
    Ideal.maximumf_def, degE_apply, val_main_v19_apply, val_main_cst_3_apply, Ideal.ofBits_def, Ideal.ofBits_one_f32]

/-! ## The merge with the hyperedge features and the second dense map -/

/-- The side-by-side row of hyperedge e: its own features, then its message. -/
theorem catE_apply (e : Fin 50000) (k : Fin 256) :
    val_main_v23 (F := Ideal) x0 x1 x2 x3 x4 x5 (ix2 e k)
      = cat (fun k => x1 (ix2 e k)) (msgR x0 (gvOf x2) (tgt x3) x4 x5 e) k := by
  unfold val_main_v23
  refine (concat_cols_apply (R := 50000) (A := 128) (B := 128) (C := 256) rfl x1
    (val_main_v22 (F := Ideal) x0 x2 x3 x4 x5) concatenates_S50000x128_S50000x128_S50000x256_d1 e k).trans ?_
  unfold catRow cat
  by_cases h : k.val < 128
  · simp only [dif_pos h]
  · simp only [dif_neg h]
    exact msgE_apply x0 x2 x3 x4 x5 e _

/-- The merged row of hyperedge e, all 256 columns contracted at once. -/
theorem mergeE_apply (e : Fin 50000) (j : Fin 128) :
    val_main_v28 (F := Ideal) x0 x1 x2 x3 x4 x5 x8 x9 (ix2 e j)
      = mergeCat x8 x9 (fun k => x1 (ix2 e k)) (msgR x0 (gvOf x2) (tgt x3) x4 x5 e) j := by
  rw [val_main_v28_apply, val_main_v25_apply, val_main_v27_apply, val_main_v26_apply, Ideal.addf_def]
  simp only [val_main_v24_apply]
  have h1 : ∀ k : Fin 256, lidx_main_v25 (ix2 e j) k = ix2 e k :=
    fun k => funext fun a => match a with | ⟨0, _⟩ => rfl | ⟨1, _⟩ => rfl
  have h2 : ∀ k : Fin 256, idx_main_v24 (ridx_main_v25 (ix2 e j) k) = ix2 j k :=
    fun k => funext fun a => match a with | ⟨0, _⟩ => rfl | ⟨1, _⟩ => rfl
  have h3 : idx_main_v26 (idx_main_v27 (ix2 e j)) = ix1 j :=
    funext fun a => match a with | ⟨0, _⟩ => rfl
  simp only [h1, h2, h3, catE_apply]
  unfold mergeCat
  rfl

/-- The hyperedge rows before normalisation. -/
theorem ym_apply (e : Fin 50000) (j : Fin 128) :
    val_main_v33 (F := Ideal) x0 x1 x2 x3 x4 x5 x6 x7 x8 x9 (ix2 e j)
      = YmR x0 x1 (gvOf x2) (tgt x3) x4 x5 x6 x7 x8 x9 e j := by
  rw [val_main_v33_apply, val_main_v30_apply, val_main_v32_apply, val_main_v31_apply, Ideal.addf_def]
  simp only [val_main_v29_apply]
  have h1 : ∀ k : Fin 128, lidx_main_v30 (ix2 e j) k = ix2 e k :=
    fun k => funext fun a => match a with | ⟨0, _⟩ => rfl | ⟨1, _⟩ => rfl
  have h2 : ∀ k : Fin 128, idx_main_v29 (ridx_main_v30 (ix2 e j) k) = ix2 j k :=
    fun k => funext fun a => match a with | ⟨0, _⟩ => rfl | ⟨1, _⟩ => rfl
  have h3 : idx_main_v31 (idx_main_v32 (ix2 e j)) = ix1 j :=
    funext fun a => match a with | ⟨0, _⟩ => rfl
  simp only [h1, h2, h3, mergeE_apply]
  unfold YmR ymR lin
  rfl

/-! ## The aggregation back to the vertices -/

theorem gatherE_dims : gather_S50000x128_S1600000x1_S1600000x128_1_0_n_n_0_1_1128
    = rowGatherDims 50000 1600000 128 gather_S50000x128_S1600000x1_S1600000x128_1_0_n_n_0_1_1128_wf := rfl

/-- The gathered row of incidence p is the row of the hyperedge it reads. -/
theorem gatherE_apply (p : Fin 1600000) (k : Fin 128) :
    val_main_v40 (F := Ideal) x0 x1 x2 x3 x4 x5 x6 x7 x8 x9 (ix2 p k) = val_main_v33 (F := Ideal) x0 x1 x2 x3 x4 x5 x6 x7 x8 x9 (ix2 (geOf x3 p) k) := by
  unfold val_main_v40
  rw [gatherE_dims, rowGather_apply (by norm_num : 0 < 50000)]
  rfl

/-- The accumulated rows read at an index: the zero operand plus the sum of the update rows addressed to v. -/
theorem scatterV_apply (v : Fin 100000) (k : Fin 128) :
    val_main_v43 (F := Ideal) x0 x1 x2 x3 x4 x5 x6 x7 x8 x9 (ix2 v k)
      = val_main_v41 (F := Ideal) (ix2 v k)
        + ∑ p ∈ Finset.univ.filter (fun p : Fin 1600000 => (val_main_v42 (F := Ideal) x2 (ix2 p 0)).toInt = (v.val : ℤ)),
            val_main_v40 (F := Ideal) x0 x1 x2 x3 x4 x5 x6 x7 x8 x9 (ix2 p k) :=
  host_rowScatterAdd_apply scatter_S100000x128_S1600000x1_S1600000x128_1_0_0_1 rfl rfl rfl rfl _ _ _ v k

/-- At vertex v, the sum of the hyperedge rows over the incidences addressed to v. -/
theorem segV_apply (v : Fin 100000) (k : Fin 128) :
    val_main_v43 (F := Ideal) x0 x1 x2 x3 x4 x5 x6 x7 x8 x9 (ix2 v k)
      = seg (tgt x2) v.val (fun p => YmR x0 x1 (gvOf x2) (tgt x3) x4 x5 x6 x7 x8 x9 (geOf x3 p) k) := by
  rw [scatterV_apply, val_main_v41_apply, val_main_cst_6_apply, Ideal.ofBits_def, Ideal.ofBits_zero_f32, zero_add]
  unfold seg tgt
  rw [raw2_eq]
  refine Finset.sum_congr rfl (fun p _ => ?_)
  rw [gatherE_apply, ym_apply]
  rfl

theorem countV_apply (v : Fin 100000) :
    val_main_v47 (F := Ideal) x2 (ix2 v (0 : Fin 1))
      = val_main_v45 (F := Ideal) (ix2 v (0 : Fin 1))
        + ∑ p ∈ Finset.univ.filter (fun p : Fin 1600000 => (val_main_v46 (F := Ideal) x2 (ix2 p 0)).toInt = (v.val : ℤ)),
            val_main_v44 (F := Ideal) (ix2 p (0 : Fin 1)) :=
  host_rowScatterAdd_apply scatter_S100000x1_S1600000x1_S1600000x1_1_0_0_1 rfl rfl rfl rfl _ _ _ v 0

/-- The count of incidences of vertex v is its degree. -/
theorem degV_apply (v : Fin 100000) : val_main_v47 (F := Ideal) x2 (ix2 v (0 : Fin 1)) = deg (tgt x2) v.val := by
  rw [countV_apply, val_main_v45_apply, val_main_cst_8_apply, Ideal.ofBits_def, Ideal.ofBits_zero_f32, zero_add]
  unfold deg seg tgt
  rw [raw2'_eq]
  refine Finset.sum_congr rfl (fun p _ => ?_)
  rw [val_main_v44_apply, val_main_cst_7_apply, Ideal.ofBits_def, Ideal.ofBits_one_f32]

/-- The message to vertex v: the accumulated rows divided by max (degree, 1). -/
theorem msgV_apply (v : Fin 100000) (k : Fin 128) :
    val_main_v51 (F := Ideal) x0 x1 x2 x3 x4 x5 x6 x7 x8 x9 (ix2 v k) = msgVR (geOf x3) (tgt x2) (YmR x0 x1 (gvOf x2) (tgt x3) x4 x5 x6 x7 x8 x9) v k := by
  unfold msgVR
  have h : idx_main_v50 (ix2 v k) = ix2 v (0 : Fin 1) :=
    funext fun a => match a with | ⟨0, _⟩ => rfl | ⟨1, _⟩ => rfl
  rw [val_main_v51_apply, val_main_v50_apply, Ideal.hostDivf_def, segV_apply, h, val_main_v49_apply,
    Ideal.maximumf_def, degV_apply, val_main_v48_apply, val_main_cst_9_apply, Ideal.ofBits_def, Ideal.ofBits_one_f32]

/-- The side-by-side row of vertex v: its own features, then its message. -/
theorem catV_apply (v : Fin 100000) (k : Fin 256) :
    val_main_v52 (F := Ideal) x0 x1 x2 x3 x4 x5 x6 x7 x8 x9 (ix2 v k) = cat (fun k => x0 (ix2 v k)) (msgVR (geOf x3) (tgt x2) (YmR x0 x1 (gvOf x2) (tgt x3) x4 x5 x6 x7 x8 x9) v) k := by
  unfold val_main_v52
  refine (concat_cols_apply (R := 100000) (A := 128) (B := 128) (C := 256) rfl x0
    (val_main_v51 (F := Ideal) x0 x1 x2 x3 x4 x5 x6 x7 x8 x9) concatenates_S100000x128_S100000x128_S100000x256_d1 v k).trans ?_
  unfold catRow cat
  by_cases h : k.val < 128
  · simp only [dif_pos h]
  · simp only [dif_neg h]
    exact msgV_apply x0 x1 x2 x3 x4 x5 x6 x7 x8 x9 v _

/-- The vertex rows before normalisation. -/
theorem xm_apply (v : Fin 100000) (j : Fin 128) :
    val_main_v57 (F := Ideal) x0 x1 x2 x3 x4 x5 x6 x7 x8 x9 x10 x11 (ix2 v j) = xmR x0 x10 x11 (msgVR (geOf x3) (tgt x2) (YmR x0 x1 (gvOf x2) (tgt x3) x4 x5 x6 x7 x8 x9)) v j := by
  rw [val_main_v57_apply, val_main_v54_apply, val_main_v56_apply, val_main_v55_apply, Ideal.addf_def]
  simp only [val_main_v53_apply]
  have h1 : ∀ k : Fin 256, lidx_main_v54 (ix2 v j) k = ix2 v k :=
    fun k => funext fun a => match a with | ⟨0, _⟩ => rfl | ⟨1, _⟩ => rfl
  have h2 : ∀ k : Fin 256, idx_main_v53 (ridx_main_v54 (ix2 v j) k) = ix2 j k :=
    fun k => funext fun a => match a with | ⟨0, _⟩ => rfl | ⟨1, _⟩ => rfl
  have h3 : idx_main_v55 (idx_main_v56 (ix2 v j)) = ix1 j :=
    funext fun a => match a with | ⟨0, _⟩ => rfl
  simp only [h1, h2, h3, catV_apply]
  unfold xmR mergeCat
  rfl

/-! ## The row normalisation and the positive part of the vertex rows -/

/-- The sum of row r. -/
theorem rowSumX_apply (r : Fin 100000) : val_main_v58 (F := Ideal) x0 x1 x2 x3 x4 x5 x6 x7 x8 x9 x10 x11 (ix1 r) = ∑ k : Fin 128, val_main_v57 (F := Ideal) x0 x1 x2 x3 x4 x5 x6 x7 x8 x9 x10 x11 (ix2 r k) := by
  rw [val_main_v58_apply, val_main_cst_10_apply, Ideal.ofBits_def, Ideal.ofBits_zero_f32, zero_add]
  have h : ∀ k : Fin 128, idx_main_v58 (ix1 r) k = ix2 r k := fun k => funext fun a => match a with | ⟨0, _⟩ => rfl | ⟨1, _⟩ => rfl
  simp only [h]

/-- The mean of row r. -/
theorem meanX_apply (r : Fin 100000) : val_main_v61 (F := Ideal) x0 x1 x2 x3 x4 x5 x6 x7 x8 x9 x10 x11 (ix2 r (0 : Fin 1)) = rowMean (fun k => val_main_v57 (F := Ideal) x0 x1 x2 x3 x4 x5 x6 x7 x8 x9 x10 x11 (ix2 r k)) := by
  have h : idx_main_v59 (ix2 r (0 : Fin 1)) = ix1 r := funext fun a => match a with | ⟨0, _⟩ => rfl
  rw [val_main_v61_apply, val_main_v59_apply, val_main_v60_apply, val_main_cst_11_apply, Ideal.hostDivf_def, Ideal.ofBits_def, h,
    rowSumX_apply]
  rfl

/-- The deviation of an entry of row r from the row's mean. -/
theorem devX_apply (r : Fin 100000) (k : Fin 128) :
    val_main_v63 (F := Ideal) x0 x1 x2 x3 x4 x5 x6 x7 x8 x9 x10 x11 (ix2 r k) = val_main_v57 (F := Ideal) x0 x1 x2 x3 x4 x5 x6 x7 x8 x9 x10 x11 (ix2 r k) - rowMean (fun k => val_main_v57 (F := Ideal) x0 x1 x2 x3 x4 x5 x6 x7 x8 x9 x10 x11 (ix2 r k)) := by
  have h : idx_main_v62 (ix2 r k) = ix2 r (0 : Fin 1) := funext fun a => match a with | ⟨0, _⟩ => rfl | ⟨1, _⟩ => rfl
  rw [val_main_v63_apply, val_main_v62_apply, Ideal.subf_def, h, meanX_apply]

/-- The mean squared deviation of row r. -/
theorem varX_apply (r : Fin 100000) : val_main_v68 (F := Ideal) x0 x1 x2 x3 x4 x5 x6 x7 x8 x9 x10 x11 (ix2 r (0 : Fin 1)) = rowVar (fun k => val_main_v57 (F := Ideal) x0 x1 x2 x3 x4 x5 x6 x7 x8 x9 x10 x11 (ix2 r k)) := by
  have h : idx_main_v66 (ix2 r (0 : Fin 1)) = ix1 r := funext fun a => match a with | ⟨0, _⟩ => rfl
  have h' : ∀ k : Fin 128, idx_main_v65 (ix1 r) k = ix2 r k := fun k => funext fun a => match a with | ⟨0, _⟩ => rfl | ⟨1, _⟩ => rfl
  rw [val_main_v68_apply, val_main_v66_apply, val_main_v67_apply, val_main_cst_13_apply, Ideal.hostDivf_def, Ideal.ofBits_def, h,
    val_main_v65_apply, val_main_cst_12_apply, Ideal.ofBits_def, Ideal.ofBits_zero_f32, zero_add]
  simp only [h', val_main_v64_apply, Ideal.mulf_def, devX_apply]
  rfl

/-- The normalised row r at column c, before the positive part. -/
theorem normX_apply (r : Fin 100000) (c : Fin 128) :
    val_main_v81 (F := Ideal) x0 x1 x2 x3 x4 x5 x6 x7 x8 x9 x10 x11 x12 x13 (ix2 r c)
      = (val_main_v57 (F := Ideal) x0 x1 x2 x3 x4 x5 x6 x7 x8 x9 x10 x11 (ix2 r c) - rowMean (fun k => val_main_v57 (F := Ideal) x0 x1 x2 x3 x4 x5 x6 x7 x8 x9 x10 x11 (ix2 r k))) * Ideal.rsqrt (rowVar (fun k => val_main_v57 (F := Ideal) x0 x1 x2 x3 x4 x5 x6 x7 x8 x9 x10 x11 (ix2 r k)) + varOffset) * x12 (ix1 c) + x13 (ix1 c) := by
  have h11 : idx_main_v69 (ix2 r c) = ix2 r (0 : Fin 1) := funext fun a => match a with | ⟨0, _⟩ => rfl | ⟨1, _⟩ => rfl
  have h16 : idx_main_v74 (ix2 r c) = ix2 r (0 : Fin 1) := funext fun a => match a with | ⟨0, _⟩ => rfl | ⟨1, _⟩ => rfl
  have hg : idx_main_v76 (idx_main_v77 (ix2 r c)) = ix1 c := funext fun a => match a with | ⟨0, _⟩ => rfl
  have hb : idx_main_v79 (idx_main_v80 (ix2 r c)) = ix1 c := funext fun a => match a with | ⟨0, _⟩ => rfl
  rw [val_main_v81_apply, val_main_v78_apply, val_main_v75_apply, val_main_v70_apply, val_main_v69_apply, val_main_v74_apply, val_main_v73_apply,
    val_main_v72_apply, val_main_v71_apply, val_main_cst_14_apply, val_main_v77_apply, val_main_v76_apply, val_main_v80_apply, val_main_v79_apply,
    h11, h16, hg, hb, meanX_apply, varX_apply]
  rfl

/-- The output row r at column c: the normalised row's positive part. -/
theorem reluX_apply (r : Fin 100000) (c : Fin 128) :
    val_main_v82 (F := Ideal) x0 x1 x2 x3 x4 x5 x6 x7 x8 x9 x10 x11 x12 x13 (ix2 r c) = normRelu x12 x13 (fun k => val_main_v57 (F := Ideal) x0 x1 x2 x3 x4 x5 x6 x7 x8 x9 x10 x11 (ix2 r k)) c := by
  rw [val_main_v82_apply, val_main_call0_v0_apply, val_main_call0_cst_apply, Ideal.maximumf_def, Ideal.ofBits_def,
    Ideal.ofBits_zero_f32, normX_apply]
  rfl

/-! ## The row normalisation and the positive part of the hyperedge rows -/

/-- The sum of row r. -/
theorem rowSumY_apply (r : Fin 50000) : val_main_v83 (F := Ideal) x0 x1 x2 x3 x4 x5 x6 x7 x8 x9 (ix1 r) = ∑ k : Fin 128, val_main_v33 (F := Ideal) x0 x1 x2 x3 x4 x5 x6 x7 x8 x9 (ix2 r k) := by
  rw [val_main_v83_apply, val_main_cst_15_apply, Ideal.ofBits_def, Ideal.ofBits_zero_f32, zero_add]
  have h : ∀ k : Fin 128, idx_main_v83 (ix1 r) k = ix2 r k := fun k => funext fun a => match a with | ⟨0, _⟩ => rfl | ⟨1, _⟩ => rfl
  simp only [h]

/-- The mean of row r. -/
theorem meanY_apply (r : Fin 50000) : val_main_v86 (F := Ideal) x0 x1 x2 x3 x4 x5 x6 x7 x8 x9 (ix2 r (0 : Fin 1)) = rowMean (fun k => val_main_v33 (F := Ideal) x0 x1 x2 x3 x4 x5 x6 x7 x8 x9 (ix2 r k)) := by
  have h : idx_main_v84 (ix2 r (0 : Fin 1)) = ix1 r := funext fun a => match a with | ⟨0, _⟩ => rfl
  rw [val_main_v86_apply, val_main_v84_apply, val_main_v85_apply, val_main_cst_16_apply, Ideal.hostDivf_def, Ideal.ofBits_def, h,
    rowSumY_apply]
  rfl

/-- The deviation of an entry of row r from the row's mean. -/
theorem devY_apply (r : Fin 50000) (k : Fin 128) :
    val_main_v88 (F := Ideal) x0 x1 x2 x3 x4 x5 x6 x7 x8 x9 (ix2 r k) = val_main_v33 (F := Ideal) x0 x1 x2 x3 x4 x5 x6 x7 x8 x9 (ix2 r k) - rowMean (fun k => val_main_v33 (F := Ideal) x0 x1 x2 x3 x4 x5 x6 x7 x8 x9 (ix2 r k)) := by
  have h : idx_main_v87 (ix2 r k) = ix2 r (0 : Fin 1) := funext fun a => match a with | ⟨0, _⟩ => rfl | ⟨1, _⟩ => rfl
  rw [val_main_v88_apply, val_main_v87_apply, Ideal.subf_def, h, meanY_apply]

/-- The mean squared deviation of row r. -/
theorem varY_apply (r : Fin 50000) : val_main_v93 (F := Ideal) x0 x1 x2 x3 x4 x5 x6 x7 x8 x9 (ix2 r (0 : Fin 1)) = rowVar (fun k => val_main_v33 (F := Ideal) x0 x1 x2 x3 x4 x5 x6 x7 x8 x9 (ix2 r k)) := by
  have h : idx_main_v91 (ix2 r (0 : Fin 1)) = ix1 r := funext fun a => match a with | ⟨0, _⟩ => rfl
  have h' : ∀ k : Fin 128, idx_main_v90 (ix1 r) k = ix2 r k := fun k => funext fun a => match a with | ⟨0, _⟩ => rfl | ⟨1, _⟩ => rfl
  rw [val_main_v93_apply, val_main_v91_apply, val_main_v92_apply, val_main_cst_18_apply, Ideal.hostDivf_def, Ideal.ofBits_def, h,
    val_main_v90_apply, val_main_cst_17_apply, Ideal.ofBits_def, Ideal.ofBits_zero_f32, zero_add]
  simp only [h', val_main_v89_apply, Ideal.mulf_def, devY_apply]
  rfl

/-- The normalised row r at column c, before the positive part. -/
theorem normY_apply (r : Fin 50000) (c : Fin 128) :
    val_main_v106 (F := Ideal) x0 x1 x2 x3 x4 x5 x6 x7 x8 x9 x14 x15 (ix2 r c)
      = (val_main_v33 (F := Ideal) x0 x1 x2 x3 x4 x5 x6 x7 x8 x9 (ix2 r c) - rowMean (fun k => val_main_v33 (F := Ideal) x0 x1 x2 x3 x4 x5 x6 x7 x8 x9 (ix2 r k))) * Ideal.rsqrt (rowVar (fun k => val_main_v33 (F := Ideal) x0 x1 x2 x3 x4 x5 x6 x7 x8 x9 (ix2 r k)) + varOffset) * x14 (ix1 c) + x15 (ix1 c) := by
  have h11 : idx_main_v94 (ix2 r c) = ix2 r (0 : Fin 1) := funext fun a => match a with | ⟨0, _⟩ => rfl | ⟨1, _⟩ => rfl
  have h16 : idx_main_v99 (ix2 r c) = ix2 r (0 : Fin 1) := funext fun a => match a with | ⟨0, _⟩ => rfl | ⟨1, _⟩ => rfl
  have hg : idx_main_v101 (idx_main_v102 (ix2 r c)) = ix1 c := funext fun a => match a with | ⟨0, _⟩ => rfl
  have hb : idx_main_v104 (idx_main_v105 (ix2 r c)) = ix1 c := funext fun a => match a with | ⟨0, _⟩ => rfl
  rw [val_main_v106_apply, val_main_v103_apply, val_main_v100_apply, val_main_v95_apply, val_main_v94_apply, val_main_v99_apply, val_main_v98_apply,
    val_main_v97_apply, val_main_v96_apply, val_main_cst_19_apply, val_main_v102_apply, val_main_v101_apply, val_main_v105_apply, val_main_v104_apply,
    h11, h16, hg, hb, meanY_apply, varY_apply]
  rfl

/-- The output row r at column c: the normalised row's positive part. -/
theorem reluY_apply (r : Fin 50000) (c : Fin 128) :
    val_main_v107 (F := Ideal) x0 x1 x2 x3 x4 x5 x6 x7 x8 x9 x14 x15 (ix2 r c) = normRelu x14 x15 (fun k => val_main_v33 (F := Ideal) x0 x1 x2 x3 x4 x5 x6 x7 x8 x9 (ix2 r k)) c := by
  rw [val_main_v107_apply, val_main_call1_v0_apply, val_main_call1_cst_apply, Ideal.maximumf_def, Ideal.ofBits_def,
    Ideal.ofBits_zero_f32, normY_apply]
  rfl

/-! ## The two results -/

/-- The vertex output is the reference form's. -/
theorem val_out0 : val_main_v82 (F := Ideal) x0 x1 x2 x3 x4 x5 x6 x7 x8 x9 x10 x11 x12 x13
    = XoRA x0 x1 x2 x3 x4 x5 x6 x7 x8 x9 x10 x11 x12 x13 := by
  funext i
  obtain ⟨v, c, rfl⟩ : ∃ (v : Fin 100000) (c : Fin 128), i = ix2 v c := ⟨i 0, i 1, eq_ix2 i⟩
  have h : (fun k => val_main_v57 (F := Ideal) x0 x1 x2 x3 x4 x5 x6 x7 x8 x9 x10 x11 (ix2 v k)) = xmR x0 x10 x11 (msgVR (geOf x3) (tgt x2) (YmR x0 x1 (gvOf x2) (tgt x3) x4 x5 x6 x7 x8 x9)) v :=
    funext fun k => xm_apply x0 x1 x2 x3 x4 x5 x6 x7 x8 x9 x10 x11 v k
  rw [reluX_apply, h]
  rfl

/-- The hyperedge output is the reference form's. -/
theorem val_out1 : val_main_v107 (F := Ideal) x0 x1 x2 x3 x4 x5 x6 x7 x8 x9 x14 x15
    = YoRA x0 x1 x2 x3 x4 x5 x6 x7 x8 x9 x14 x15 := by
  funext i
  obtain ⟨e, c, rfl⟩ : ∃ (e : Fin 50000) (c : Fin 128), i = ix2 e c := ⟨i 0, i 1, eq_ix2 i⟩
  have h : (fun k => val_main_v33 (F := Ideal) x0 x1 x2 x3 x4 x5 x6 x7 x8 x9 (ix2 e k)) = YmR x0 x1 (gvOf x2) (tgt x3) x4 x5 x6 x7 x8 x9 e :=
    funext fun k => ym_apply x0 x1 x2 x3 x4 x5 x6 x7 x8 x9 e k
  rw [reluY_apply, h]
  rfl
end

/-- On every device and from every memory, the run's vertex result is the reference form of the layer on the
    argument arrays. -/
theorem out0_eq (m : (ℓ : Loc nD τ sig) → Buf (Elt Ideal) ℓ) (c : Dev nD) :
    Cert.ReferenceIdeal.Value.res_main_v82 (F := Ideal) m c
      = XoRA (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) :=
  (val_main_v82_eq m c).trans (val_out0 _ _ _ _ _ _ _ _ _ _ _ _ _ _)

/-- On every device and from every memory, the run's hyperedge result is the reference form of the layer on the
    argument arrays. -/
theorem out1_eq (m : (ℓ : Loc nD τ sig) → Buf (Elt Ideal) ℓ) (c : Dev nD) :
    Cert.ReferenceIdeal.Value.res_main_v107 (F := Ideal) m c
      = YoRA (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg14)) (m ((c.tc : Thread nD τ).loc main_arg15)) :=
  (val_main_v107_eq m c).trans (val_out1 _ _ _ _ _ _ _ _ _ _ _ _)

end Cert.ReferenceIdeal.RefValue

end
-- ==== Proof.LibRealSum.lean ====
/-
  Finite sums of real numbers taken inside the extended reals.

  The extended reals do not distribute (∞ · (1 + (-1)) is not ∞ + (-∞)), so a factor cannot in general be moved
  across a sum there. When every summand and the factor are real numbers it can: the sum of the reals' images is the
  image of the real sum, and the real numbers are a field. The lemmas here are that statement in the shape a
  contraction with folded scales needs: Σ_k (a_k · s) · (b_k · t) = (Σ_k a_k · b_k) · (t · s).
-/
import Idealize.ShloMosaic.PureOps.Ideal

noncomputable section

namespace Cert.Lib.RealSum

/-- A finite sum of real numbers, taken in the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Σ_k (a_k · s) · (b_k · t) = (Σ_k a_k · b_k) · (t · s) for real numbers a_k, b_k, s, t, read in the extended reals:
    a scale on each operand of a contraction is one scale on the contraction. -/
theorem sum_rescale_real {n : ℕ} (a b : Fin n → ℝ) (s t : ℝ) :
    ∑ k, (((a k : ℝ) : EReal) * (s : EReal)) * (((b k : ℝ) : EReal) * (t : EReal))
      = (∑ k, ((a k : ℝ) : EReal) * ((b k : ℝ) : EReal)) * ((t : EReal) * (s : EReal)) := by
  simp only [← EReal.coe_mul]
  rw [coe_sum, coe_sum, ← EReal.coe_mul, Finset.sum_mul]
  exact congrArg _ (Finset.sum_congr rfl fun k _ => by ring)

/-- The same for extended reals each known to be a real number. -/
theorem sum_rescale {n : ℕ} (q w : Fin n → EReal) (s t : EReal)
    (hq : ∀ k, ∃ r : ℝ, q k = (r : EReal)) (hw : ∀ k, ∃ r : ℝ, w k = (r : EReal))
    (hs : ∃ r : ℝ, s = (r : EReal)) (ht : ∃ r : ℝ, t = (r : EReal)) :
    ∑ k, (q k * s) * (w k * t) = (∑ k, q k * w k) * (t * s) := by
  choose a ha using hq
  choose b hb using hw
  obtain ⟨s', rfl⟩ := hs
  obtain ⟨t', rfl⟩ := ht
  simp only [ha, hb]
  exact sum_rescale_real a b s' t'

end Cert.Lib.RealSum

end
-- ==== Proof.Law.lean ====
/-
  The reference form of the hypergraph-convolution layer equals its kernel form.

  Three facts carry it. A contraction against 256 columns is the sum of the contractions against the left and the
  right 128 columns. A quotient by max (deg, 1), a real number that is at least one, is the product with its reciprocal,
  for every extended real numerator. And, for real data, the mean over a hyperedge's incidences commutes with the dense
  map v ↦ v·Wᵀ + b: the matrix part by linearity of finite real sums, the bias because a mean of c ≥ 1 copies of b is b
  and an empty mean is zero, which is what the gate bit [deg > 0] says.
-/
import proofs.«140405_j8658654068867_2_alg».proof.Proof.Spec
import proofs.«140405_j8658654068867_2_alg».proof.Proof.Layer
import proofs.«140405_j8658654068867_2_alg».proof.Proof.LibSegmentSum
import proofs.«140405_j8658654068867_2_alg».proof.Proof.LibRealSum

noncomputable section

open scoped BigOperators

namespace Cert.HyperConv

open Idealize.ShloMosaic Idealize.ShloMosaic.ValueIdx Idealize.ShloMosaic.SegmentSum

/-! ### The two halves of a 256-column contraction -/

/-- Entry lo k of the row [u, v] is u k. -/
theorem cat_lo (u v : Fin 128 → EReal) (k : Fin 128) : cat u v (lo k) = u k := by
  have h : (lo k).val < 128 := k.isLt
  rw [cat, dif_pos h]
  rfl

/-- Entry hi k of the row [u, v] is v k. -/
theorem cat_hi (u v : Fin 128 → EReal) (k : Fin 128) : cat u v (hi k) = v k := by
  have h : ¬ (hi k).val < 128 := by show ¬ (128 + k.val < 128); omega
  rw [cat, dif_neg h]
  congr 1
  apply Fin.ext
  show 128 + k.val - 128 = k.val
  omega

/-- A sum over 256 columns is the sum over the left 128 columns plus the sum over the right 128 columns. -/
theorem sum_halves (f : Fin 256 → EReal) : ∑ k : Fin 256, f k = (∑ k : Fin 128, f (lo k)) + ∑ k : Fin 128, f (hi k) := by
  have h := Fin.sum_univ_add (a := 128) (b := 128) (fun k : Fin (128 + 128) => f k)
  exact h

/-- Contracting the row [u, v] against all 256 columns at once is contracting u against the left half and v against
    the right half: only the commutativity and associativity of the sum are used. -/
theorem mergeCat_eq_merge (W : Mat 128 256) (b : Col 128) (u v : Fin 128 → EReal) (j : Fin 128) :
    mergeCat W b u v j = merge W b u v j := by
  unfold mergeCat merge
  rw [sum_halves]
  simp only [cat_lo, cat_hi]

/-! ### A mean's divisor is a real number that is at least one -/

/-- The number of incidences addressed to n, as a natural number. -/
def cnt {E : ℕ} (s : Fin E → ℤ) (n : ℕ) : ℕ := (Finset.univ.filter (fun p : Fin E => s p = (n : ℤ))).card

/-- A sum of ones over the incidences addressed to n is their number. -/
theorem deg_eq {E : ℕ} (s : Fin E → ℤ) (n : ℕ) : deg s n = (((cnt s n : ℕ) : ℝ) : EReal) := by
  unfold deg seg cnt
  exact sum_one_eq_card _

/-- The divisor of a mean: max (deg, 1) is the real number max (count, 1). -/
theorem max_deg_one {E : ℕ} (s : Fin E → ℤ) (n : ℕ) :
    max (deg s n) 1 = ((max ((cnt s n : ℕ) : ℝ) 1 : ℝ) : EReal) := by
  rw [deg_eq, ← EReal.coe_one]
  exact (EReal.coe_strictMono.monotone.map_max).symm

/-- max (count, 1) is not zero. -/
theorem max_cnt_one_ne_zero {E : ℕ} (s : Fin E → ℤ) (n : ℕ) : max ((cnt s n : ℕ) : ℝ) 1 ≠ 0 := by
  have h : (1 : ℝ) ≤ max ((cnt s n : ℕ) : ℝ) 1 := le_max_right _ _
  intro h0
  rw [h0] at h
  linarith

/-- The reciprocal 1 / max (deg, 1) is the real number 1 / max (count, 1). -/
theorem invDeg_eq {E : ℕ} (s : Fin E → ℤ) (n : ℕ) :
    invDeg s n = ((1 / max ((cnt s n : ℕ) : ℝ) 1 : ℝ) : EReal) := by
  rw [invDeg, max_deg_one, Ideal.div_coe (max_cnt_one_ne_zero s n), one_mul]

/-- A quotient by max (deg, 1) is the product with 1 / max (deg, 1), for every extended real numerator: the divisor
    is a nonzero real number. -/
theorem div_max_deg {E : ℕ} (s : Fin E → ℤ) (n : ℕ) (x : EReal) :
    Ideal.div x (max (deg s n) 1) = x * invDeg s n := by
  rw [invDeg_eq, max_deg_one, Ideal.div_coe (max_cnt_one_ne_zero s n)]

/-- The mean of the rows ym over a vertex's incidences, as a quotient and as a product with the reciprocal. No
    finiteness of ym is needed. -/
theorem msgVR_eq_msgVK (ge : Fin 1600000 → Fin 50000) (sv : Fin 1600000 → ℤ) (ym : Fin 50000 → Fin 128 → EReal)
    (v : Fin 100000) (k : Fin 128) : msgVR ge sv ym v k = msgVK ge sv ym v k := by
  unfold msgVR msgVK
  exact div_max_deg sv v.val _

/-! ### The gate bit -/

/-- The bit of deg > 0 is 1 where there is an incidence and 0 where there is none. -/
theorem gtBit_deg {E : ℕ} (s : Fin E → ℤ) (n : ℕ) :
    gtBit (deg s n) 0 = (((if 0 < cnt s n then 1 else 0 : ℝ)) : EReal) := by
  rw [deg_eq]
  unfold gtBit Ideal.cmp
  by_cases h : 0 < cnt s n
  · have h' : (0 : EReal) < (((cnt s n : ℕ) : ℝ) : EReal) := by exact_mod_cast h
    simp [h, h']
  · have h0 : cnt s n = 0 := by omega
    simp [h0]

/-- count · (1 / max (count, 1)) is the gate bit: 0 for an empty mean, 1 otherwise. -/
theorem cnt_mul_inv (c : ℕ) : (c : ℝ) * (1 / max (c : ℝ) 1) = (if 0 < c then 1 else 0 : ℝ) := by
  by_cases h : 0 < c
  · have h1 : (1 : ℝ) ≤ (c : ℝ) := by exact_mod_cast h
    rw [max_eq_left h1, if_pos h]
    have : (c : ℝ) ≠ 0 := by linarith
    field_simp
  · have h0 : c = 0 := by omega
    subst h0
    simp

/-! ### The law: the mean commutes with the dense map -/

/-- In the real numbers: the mean over S of the mapped rows x_p·w + b is the mean row mapped by w, plus g·b where
    g = |S| / m. Linearity of finite sums, an exchange of the two sums, and a sum of |S| copies of b. -/
theorem real_law {ι : Type} (S : Finset ι) (x : ι → Fin 128 → ℝ) (w : Fin 128 → ℝ) (b g m : ℝ)
    (hg : (S.card : ℝ) * (1 / m) = g) :
    (∑ p ∈ S, ((∑ k, x p k * w k) + b)) * (1 / m)
      = (∑ k, ((∑ p ∈ S, x p k) * (1 / m)) * w k) + g * b := by
  rw [Finset.sum_add_distrib, Finset.sum_const, nsmul_eq_mul, add_mul, Finset.sum_comm, ← hg]
  congr 1
  · rw [Finset.sum_mul]
    refine Finset.sum_congr rfl fun k _ => ?_
    rw [← Finset.sum_mul]
    ring
  · ring

/-- The same read in the extended reals, every entry being the image of a real number. -/
theorem ereal_law {ι : Type} (S : Finset ι) (x : ι → Fin 128 → ℝ) (w : Fin 128 → ℝ) (b g m : ℝ)
    (hg : (S.card : ℝ) * (1 / m) = g) :
    (∑ p ∈ S, ((∑ k, ((x p k : ℝ) : EReal) * ((w k : ℝ) : EReal)) + ((b : ℝ) : EReal))) * ((1 / m : ℝ) : EReal)
      = (∑ k, ((∑ p ∈ S, ((x p k : ℝ) : EReal)) * ((1 / m : ℝ) : EReal)) * ((w k : ℝ) : EReal))
          + ((g : ℝ) : EReal) * ((b : ℝ) : EReal) := by
  simp only [← EReal.coe_mul, Cert.Lib.RealSum.coe_sum, ← EReal.coe_add]
  exact congrArg _ (real_law S x w b g m hg)

/-- The message to a hyperedge: for real vertex features, weights and bias, the mean of the mapped vertex rows is the
    matrix applied to the mean vertex row, plus the bias where the hyperedge has an incidence. -/
theorem msgR_eq_msgK (X : Mat 100000 128) (gv : Fin 1600000 → Fin 100000) (se : Fin 1600000 → ℤ)
    (Wtv : Mat 128 128) (btv : Col 128)
    (hX : ∀ i, ∃ r : ℝ, X i = (r : EReal)) (hW : ∀ i, ∃ r : ℝ, Wtv i = (r : EReal))
    (hb : ∀ i, ∃ r : ℝ, btv i = (r : EReal)) (e : Fin 50000) (j : Fin 128) :
    msgR X gv se Wtv btv e j = msgK X gv se Wtv btv e j := by
  choose X' hX' using hX
  choose W' hW' using hW
  choose b' hb' using hb
  unfold msgR msgK meanX lin seg
  rw [div_max_deg, gtBit_deg, invDeg_eq]
  simp only [hX', hW', hb']
  exact ereal_law (Finset.univ.filter (fun p : Fin 1600000 => se p = ((e.val : ℕ) : ℤ)))
    (fun p k => X' (ix2 (gv p) k)) (fun k => W' (ix2 j k)) (b' (ix1 j)) _ _ (cnt_mul_inv (cnt se e.val))

/-! ### The layer: the reference form is the kernel form -/

/-- The two contractions of a merge agree as rows. -/
theorem mergeCat_eq_merge_row (W : Mat 128 256) (b : Col 128) (u v : Fin 128 → EReal) :
    mergeCat W b u v = merge W b u v := funext (mergeCat_eq_merge W b u v)

/-- The two means over a vertex's incidences agree as arrays of rows. -/
theorem msgVR_eq_msgVK_rows (ge : Fin 1600000 → Fin 50000) (sv : Fin 1600000 → ℤ)
    (ym : Fin 50000 → Fin 128 → EReal) : msgVR ge sv ym = msgVK ge sv ym :=
  funext fun v => funext fun k => msgVR_eq_msgVK ge sv ym v k

/-- The two messages to the hyperedges agree as arrays of rows, for real vertex features, weights and bias. -/
theorem msgR_eq_msgK_rows (X : Mat 100000 128) (gv : Fin 1600000 → Fin 100000) (se : Fin 1600000 → ℤ)
    (Wtv : Mat 128 128) (btv : Col 128)
    (hX : ∀ i, ∃ r : ℝ, X i = (r : EReal)) (hW : ∀ i, ∃ r : ℝ, Wtv i = (r : EReal))
    (hb : ∀ i, ∃ r : ℝ, btv i = (r : EReal)) :
    msgR X gv se Wtv btv = msgK X gv se Wtv btv :=
  funext fun e => funext fun j => msgR_eq_msgK X gv se Wtv btv hX hW hb e j

/-- Ym from a message: the merge is contracted either way, the second dense map is the same. -/
theorem ymR_eq_ymK (Y : Mat 50000 128) (Wte : Mat 128 128) (bte : Col 128) (Wem : Mat 128 256) (bem : Col 128)
    (msg : Fin 50000 → Fin 128 → EReal) : ymR Y Wte bte Wem bem msg = ymK Y Wte bte Wem bem msg := by
  funext e j
  unfold ymR ymK
  rw [mergeCat_eq_merge_row]

/-- Xm from a message: the merge is contracted either way. -/
theorem xmR_eq_xmK (X : Mat 100000 128) (Wvm : Mat 128 256) (bvm : Col 128)
    (mv : Fin 100000 → Fin 128 → EReal) : xmR X Wvm bvm mv = xmK X Wvm bvm mv := by
  funext v j
  unfold xmR xmK
  exact mergeCat_eq_merge _ _ _ _ j

section Layer

variable (X : Mat 100000 128) (Y : Mat 50000 128)
  (gv : Fin 1600000 → Fin 100000) (ge : Fin 1600000 → Fin 50000) (sv se : Fin 1600000 → ℤ)
  (Wtv : Mat 128 128) (btv : Col 128) (Wte : Mat 128 128) (bte : Col 128)
  (Wem : Mat 128 256) (bem : Col 128) (Wvm : Mat 128 256) (bvm : Col 128)
  (gV beV gE beE : Col 128)

/-- The hyperedge rows before normalisation agree. -/
theorem YmR_eq_YmK (hX : ∀ i, ∃ r : ℝ, X i = (r : EReal)) (hW : ∀ i, ∃ r : ℝ, Wtv i = (r : EReal))
    (hb : ∀ i, ∃ r : ℝ, btv i = (r : EReal)) :
    YmR X Y gv se Wtv btv Wte bte Wem bem = YmK X Y gv se Wtv btv Wte bte Wem bem := by
  unfold YmR YmK
  rw [msgR_eq_msgK_rows X gv se Wtv btv hX hW hb, ymR_eq_ymK]

/-- The hyperedge output of the reference form is that of the kernel form, at every row and column. -/
theorem YoR_eq_YoK (hX : ∀ i, ∃ r : ℝ, X i = (r : EReal)) (hW : ∀ i, ∃ r : ℝ, Wtv i = (r : EReal))
    (hb : ∀ i, ∃ r : ℝ, btv i = (r : EReal)) (e : Fin 50000) (c : Fin 128) :
    YoR X Y gv se Wtv btv Wte bte Wem bem gE beE e c = YoK X Y gv se Wtv btv Wte bte Wem bem gE beE e c := by
  unfold YoR YoK
  rw [YmR_eq_YmK X Y gv se Wtv btv Wte bte Wem bem hX hW hb]

/-- The vertex output of the reference form is that of the kernel form, at every row and column. -/
theorem XoR_eq_XoK (hX : ∀ i, ∃ r : ℝ, X i = (r : EReal)) (hW : ∀ i, ∃ r : ℝ, Wtv i = (r : EReal))
    (hb : ∀ i, ∃ r : ℝ, btv i = (r : EReal)) (v : Fin 100000) (c : Fin 128) :
    XoR X Y gv ge sv se Wtv btv Wte bte Wem bem Wvm bvm gV beV v c
      = XoK X Y gv ge sv se Wtv btv Wte bte Wem bem Wvm bvm gV beV v c := by
  unfold XoR XoK
  rw [YmR_eq_YmK X Y gv se Wtv btv Wte bte Wem bem hX hW hb, msgVR_eq_msgVK_rows, xmR_eq_xmK]

end Layer

/-! ### The same for the argument arrays -/

section Arrays

variable (a0 : Mat 100000 128) (a1 : Mat 50000 128) (a2 a3 : IdxVec)
  (a4 : Mat 128 128) (a5 : Col 128) (a6 : Mat 128 128) (a7 : Col 128)
  (a8 : Mat 128 256) (a9 : Col 128) (a10 : Mat 128 256) (a11 a12 a13 a14 a15 : Col 128)

/-- The reference form's vertex output array is the kernel form's, for real vertex features and a real first dense map. -/
theorem XoRA_eq_XoKA (h0 : ∀ i, ∃ r : ℝ, a0 i = (r : EReal)) (h4 : ∀ i, ∃ r : ℝ, a4 i = (r : EReal))
    (h5 : ∀ i, ∃ r : ℝ, a5 i = (r : EReal)) :
    XoRA a0 a1 a2 a3 a4 a5 a6 a7 a8 a9 a10 a11 a12 a13 = XoKA a0 a1 a2 a3 a4 a5 a6 a7 a8 a9 a10 a11 a12 a13 := by
  funext i
  unfold XoRA XoKA
  exact XoR_eq_XoK a0 a1 (gvOf a2) (geOf a3) (tgt a2) (tgt a3) a4 a5 a6 a7 a8 a9 a10 a11 a12 a13 h0 h4 h5 (i 0) (i 1)

/-- The reference form's hyperedge output array is the kernel form's, under the same hypotheses. -/
theorem YoRA_eq_YoKA (h0 : ∀ i, ∃ r : ℝ, a0 i = (r : EReal)) (h4 : ∀ i, ∃ r : ℝ, a4 i = (r : EReal))
    (h5 : ∀ i, ∃ r : ℝ, a5 i = (r : EReal)) :
    YoRA a0 a1 a2 a3 a4 a5 a6 a7 a8 a9 a14 a15 = YoKA a0 a1 a2 a3 a4 a5 a6 a7 a8 a9 a14 a15 := by
  funext i
  unfold YoRA YoKA
  exact YoR_eq_YoK a0 a1 (gvOf a2) (tgt a3) a4 a5 a6 a7 a8 a9 a14 a15 h0 h4 h5 (i 0) (i 1)

end Arrays

end Cert.HyperConv

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.Finite.lean ====
/-
  The precondition read back: three of the argument arrays hold real numbers.

  The certificate's precondition is the conjunction, over the fourteen float arguments, of the test "every entry has
  absolute value below +∞". A true conjunction has every conjunct true, and a true test says each entry of its array is
  neither +∞ nor -∞. Read back here for the vertex features X, the first dense map's matrix W_tv and its bias b_tv.
-/
import proofs.«140405_j8658654068867_2_alg».proof.Defs
import proofs.«140405_j8658654068867_2_alg».proof.Proof.Gen.Pre_finite_inputs
import proofs.«140405_j8658654068867_2_alg».proof.Proof.LibFiniteEntry
import Idealize.ShloMosaic.Lib.ReduceAll
import Idealize.ShloMosaic.Lib.IdealHost

noncomputable section

namespace Cert.Finite

open Idealize.ShloMosaic Idealize.SL.Sem

/-- Under the precondition, every entry of X, of W_tv and of b_tv is a real number, on every device. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  -- the whole precondition at its one index: thirteen nested conjunctions of the fourteen tests
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- drop the last ten tests (arguments 6 to 15), outermost first
  have k15 := (IntOp.andi_eq_one.1 h0).1
  have k14 := (IntOp.andi_eq_one.1 k15).1
  have k13 := (IntOp.andi_eq_one.1 k14).1
  have k12 := (IntOp.andi_eq_one.1 k13).1
  have k11 := (IntOp.andi_eq_one.1 k12).1
  have k10 := (IntOp.andi_eq_one.1 k11).1
  have k9 := (IntOp.andi_eq_one.1 k10).1
  have k8 := (IntOp.andi_eq_one.1 k9).1
  have k7 := (IntOp.andi_eq_one.1 k8).1
  have k6 := (IntOp.andi_eq_one.1 k7).1
  -- what is left: ((test of X ∧ test of Y) ∧ test of W_tv) ∧ test of b_tv
  obtain ⟨k4, t5⟩ := IntOp.andi_eq_one.1 k6
  obtain ⟨k1, t4⟩ := IntOp.andi_eq_one.1 k4
  obtain ⟨t0, _⟩ := IntOp.andi_eq_one.1 k1
  exact ⟨fun i => Cert.Lib.FiniteEntry.all_real _ _ _ _ _ t0 i,
    fun i => Cert.Lib.FiniteEntry.all_real _ _ _ _ _ t4 i,
    fun i => Cert.Lib.FiniteEntry.all_real _ _ _ _ _ t5 i⟩

end Cert.Finite

end
-- ==== Proof.lean ====
/-
  The certificate of one hypergraph-convolution layer: a kernel program of two regions (the hyperedge rows, then the
  vertex rows) among host operations, against a plain reference.

  On the extended reals both programs compute, from vertex features X, hyperedge features Y and 1600000 incidences:
  a message to each hyperedge (the mean over its incidences of the vertex rows under the dense map
  v ↦ v·W_tvᵀ + b_tv), the hyperedge rows Ym = ([Y, msg]·W_emᵀ + b_em)·W_teᵀ + b_te, a message to each vertex (the mean
  over its incidences of the rows of Ym), the vertex rows Xm = [X, msg']·W_vmᵀ + b_vm, and of both the row normalisation
  followed by the positive part. The kernel takes the first mean BEFORE the dense map's matrix (a mean of raw rows, as a
  product with 1 / max(count, 1)), adds the bias only where the hyperedge has an incidence, contracts each merge weight
  in two halves, and keeps some intermediates in a narrower float format, which on the extended reals is no change.

  The three frames: the two kernel programs' are the generated frame certificates; the reference's is its generated run
  with the results dropped. There is nothing to preserve between the printed kernel and its idealization (no rewrite
  was applied). The equivalence: the kernel's run ends with its two results at the KERNEL form of the layer on the
  argument arrays (the run through both regions; each region's output array from its blocks; the host stretches read at
  an index), the reference's run ends at the REFERENCE form (its operations read at an index), and the two forms agree
  because a mean commutes with a linear map and c·b/c = b for a positive count c — a law of real numbers, which is where
  the precondition (every float input finite) is used: X, W_tv and b_tv are real-valued.
-/
import proofs.«140405_j8658654068867_2_alg».proof.Defs
import proofs.«140405_j8658654068867_2_alg».proof.Proof.Gen.Kernel
import proofs.«140405_j8658654068867_2_alg».proof.Proof.Gen.Kernel.Skeleton
import proofs.«140405_j8658654068867_2_alg».proof.Proof.Gen.Kernel.Launch
import proofs.«140405_j8658654068867_2_alg».proof.Proof.Gen.Kernel.Points
import proofs.«140405_j8658654068867_2_alg».proof.Proof.Gen.Kernel.Frame
import proofs.«140405_j8658654068867_2_alg».proof.Proof.Gen.KernelIdeal
import proofs.«140405_j8658654068867_2_alg».proof.Proof.Gen.KernelIdeal.Skeleton
import proofs.«140405_j8658654068867_2_alg».proof.Proof.Gen.KernelIdeal.Launch
import proofs.«140405_j8658654068867_2_alg».proof.Proof.Gen.KernelIdeal.Points
import proofs.«140405_j8658654068867_2_alg».proof.Proof.Gen.KernelIdeal.Frame
import proofs.«140405_j8658654068867_2_alg».proof.Proof.Gen.ReferenceIdeal
import proofs.«140405_j8658654068867_2_alg».proof.Proof.Gen.Pre_finite_inputs
import proofs.«140405_j8658654068867_2_alg».proof.Proof.Gen.ReferenceIdeal.Run
import proofs.«140405_j8658654068867_2_alg».proof.Proof.Gen.ReferenceIdeal.Read
import proofs.«140405_j8658654068867_2_alg».proof.Proof.KRun
import proofs.«140405_j8658654068867_2_alg».proof.Proof.KValue
import proofs.«140405_j8658654068867_2_alg».proof.Proof.RefValue
import proofs.«140405_j8658654068867_2_alg».proof.Proof.Law
import proofs.«140405_j8658654068867_2_alg».proof.Proof.Finite
import Idealize.ShloMosaic.Adequacy
import Idealize.ShloMosaic.Init

noncomputable section

namespace Cert.Proof

open Idealize.ShloMosaic Idealize.SL.Sem Cert.HyperConv

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs run, and end with the vertex output and the
    hyperedge output at the kernel form of the layer on the kernel's argument arrays. -/
theorem algebraic : Cert.algebraic_KernelIdeal_ReferenceIdeal := by
  intro m ρ m' ρ' hpre hagree
  refine ⟨fun c => XoKA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => YoKA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.KRun.run_results (F := Ideal) m ρ)
    obtain ⟨h0, h1, hrest⟩ := h c
    exact ⟨h0.trans (Cert.KernelIdeal.KValue.xo_eq m ρ c), h1.trans (Cert.KernelIdeal.KValue.yo_eq m ρ c), hrest⟩
  · refine (θ_run Cert.ReferenceIdeal.defs _ _).mono (fun r h c => ?_)
      (Cert.ReferenceIdeal.Value.run (F := Ideal) m' ρ')
    obtain ⟨h0, h1, hrest⟩ := h c
    obtain ⟨r0, r4, r5⟩ := Cert.Finite.real_args m hpre c
    obtain ⟨e0, e1, e2, e3, e4, e5, e6, e7, e8, e9, e10, e11, e12, e13, e14, e15⟩ := hagree c
    refine ⟨h0.trans ?_, h1.trans ?_, hrest⟩
    · rw [Cert.ReferenceIdeal.RefValue.out0_eq m' c, e0, e1, e2, e3, e4, e5, e6, e7, e8, e9, e10, e11, e12, e13]
      exact XoRA_eq_XoKA _ _ _ _ _ _ _ _ _ _ _ _ _ _ r0 r4 r5
    · rw [Cert.ReferenceIdeal.RefValue.out1_eq m' c, e0, e1, e2, e3, e4, e5, e6, e7, e8, e9, e14, e15]
      exact YoRA_eq_YoKA _ _ _ _ _ _ _ _ _ _ _ _ r0 r4 r5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
